-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1536x512 : Shape := ⟨2, ![1536, 512]⟩
abbrev S1536 : Shape := ⟨1, ![1536]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_

variable [Facts]

def fn_part1 {F : FTy → Type} [FloatOps F] (main_arg4 : FVec F S1536x512 .f32) (main_arg5 : FVec F S1536 .f32) (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  let main_v19 : FVec F S1536x512 .f32 := Host.absf main_arg4
  let main_cst_6 : FVec F S_ .f32 := constant S_ .f32 0x7F800000#32
  let main_v20 : FVec F S1536x512 .f32 := broadcastInDim S1536x512 ![] bcast_S_S1536x512 main_cst_6
  let main_v21 : IVec S1536x512 1 := cmpf .olt main_v19 main_v20
  let main_c_7 : IVec S_ 1 := constantI S_ 1 1#1
  let main_v22 : IVec S_ 1 := (fun x v => Host.reduce IntOp.andi x v reducesTo_S1536x512_S_d0_1 h_S_) main_v21 main_c_7
  let main_v23 : IVec S_ 1 := andi main_v18 main_v22
  let main_v24 : FVec F S1536 .f32 := Host.absf main_arg5
  let main_cst_8 : FVec F S_ .f32 := constant S_ .f32 0x7F800000#32
  let main_v25 : FVec F S1536 .f32 := broadcastInDim S1536 ![] bcast_S_S1536 main_cst_8
  let main_v26 : IVec S1536 1 := cmpf .olt main_v24 main_v25
  let main_c_9 : IVec S_ 1 := constantI S_ 1 1#1
  let main_v27 : IVec S_ 1 := (fun x v => Host.reduce IntOp.andi x v reducesTo_S1536_S_d0 h_S_) main_v26 main_c_9
  let main_v28 : IVec S_ 1 := andi main_v23 main_v27
  main_v28

def fn {F : FTy → Type} [FloatOps F] (main_arg0 : FVec F S16384x512 .f32) (main_arg1 : FVec F S16384x512 .f32) (main_arg2 : FVec F S1536x512 .f32) (main_arg3 : FVec F S1536 .f32) (main_arg4 : FVec F S1536x512 .f32) (main_arg5 : FVec F S1536 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S1536x512 .f32 := Host.absf main_arg2
  let main_cst_2 : FVec F S_ .f32 := constant S_ .f32 0x7F800000#32
  let main_v10 : FVec F S1536x512 .f32 := broadcastInDim S1536x512 ![] bcast_S_S1536x512 main_cst_2
  let main_v11 : IVec S1536x512 1 := cmpf .olt main_v9 main_v10
  let main_c_3 : IVec S_ 1 := constantI S_ 1 1#1
  let main_v12 : IVec S_ 1 := (fun x v => Host.reduce IntOp.andi x v reducesTo_S1536x512_S_d0_1 h_S_) main_v11 main_c_3
  let main_v13 : IVec S_ 1 := andi main_v8 main_v12
  let main_v14 : FVec F S1536 .f32 := Host.absf main_arg3
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_arg4 main_arg5 main_v13 main_v16
-- ==== Kernel.lean ====
abbrev S16384x512 : Shape := ⟨2, ![16384, 512]⟩
abbrev S1536x512 : Shape := ⟨2, ![1536, 512]⟩
abbrev S1536 : Shape := ⟨1, ![1536]⟩
abbrev S512x1536 : Shape := ⟨2, ![512, 1536]⟩
abbrev S1x1536 : Shape := ⟨2, ![1, 1536]⟩
abbrev S256x512 : Shape := ⟨2, ![256, 512]⟩
abbrev S256x1536 : Shape := ⟨2, ![256, 1536]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1536x512, .f32⟩
  | .hbm, ⟨3, _⟩ => ⟨S1536, .f32⟩
  | .hbm, ⟨4, _⟩ => ⟨S1536x512, .f32⟩
  | .hbm, ⟨5, _⟩ => ⟨S1536, .f32⟩
  | .hbm, ⟨6, _⟩ => ⟨S512x1536, .f32⟩
  | .hbm, ⟨7, _⟩ => ⟨S512x1536, .bf16⟩
  | .hbm, ⟨8, _⟩ => ⟨S512x1536, .f32⟩
  | .hbm, ⟨9, _⟩ => ⟨S512x1536, .bf16⟩
  | .hbm, ⟨10, _⟩ => ⟨S1x1536, .f32⟩
  | .hbm, ⟨11, _⟩ => ⟨S1x1536, .f32⟩
  | .hbm, ⟨12, _⟩ => ⟨S16384x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S512x1536, .bf16⟩
  | .local _ .vmem, ⟨5, _⟩ => ⟨S1x1536, .f32⟩
  | .local _ .vmem, ⟨6, _⟩ => ⟨S512x1536, .bf16⟩
  | .local _ .vmem, ⟨7, _⟩ => ⟨S1x1536, .f32⟩
  | .local _ .vmem, ⟨8, _⟩ => ⟨S256x512, .f32⟩
  | .local _ .vmem, ⟨9, _⟩ => ⟨S256x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S1536x512_S512x1536_1_0 : S1536x512.Transposes [1, 0] S512x1536
  bitsLt_bf16_f32 : FTy.bits .bf16 < FTy.bits .f32
  shapeCasts_S1536_S1x1536 : S1536.ShapeCasts S1x1536
  inb_S256x512_S256x512_0_0 : ∀ a, (![0, 0] : Fin 2 → Nat) a + S256x512.size a ≤ S256x512.size a
  h_S256x512 : 0 < S256x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S256x1536 : S1x1536.Broadcasts S256x1536
  slices_S256x1536_o0_0_S256x1024 : S256x1536.Slices ![0, 0] S256x1024
  slices_S256x1536_o0_1024_S256x512 : S256x1536.Slices ![0, 1024] S256x512
  reduces_S256x1024_S256 : S256x1024.Reduces [1] S256
  shapeCasts_S256_S256x1 : S256.ShapeCasts S256x1
  broadcasts_S256x1_S256x1024 : S256x1.Broadcasts S256x1024
  slices_S256x1024_o0_0_S256x512 : S256x1024.Slices ![0, 0] S256x512
  slices_S256x1024_o0_512_S256x512 : S256x1024.Slices ![0, 512] S256x512
  reduces_S256x512_S256 : S256x512.Reduces [1] S256
  broadcasts_S256x1_S256x512 : S256x1.Broadcasts S256x512
  dot_S256x512_S512x1536_S256x1536_1_0_0_1_n_n_wf : DotDims.WF S256x512 S512x1536 S256x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S16384x512.size a
  hwx0_1 : ∀ i : grid0.Coords, EltTy.bits .f32 = 32 ∨ (Rect.block (s := S16384x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S512x1536.size a
  hwx0_2 : ∀ i : grid0.Coords, EltTy.bits .bf16 = 32 ∨ (Rect.block (s := S512x1536) S512x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1536.size a ≤ S1x1536.size a
  hwx0_3 : ∀ i : grid0.Coords, EltTy.bits .f32 = 32 ∨ (Rect.block (s := S1x1536) S1x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1536.size a ≤ S512x1536.size a
  hwx0_4 : ∀ i : grid0.Coords, EltTy.bits .bf16 = 32 ∨ (Rect.block (s := S512x1536) S512x1536.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1536.size a ≤ S1x1536.size a
  hwx0_5 : ∀ i : grid0.Coords, EltTy.bits .f32 = 32 ∨ (Rect.block (s := S1x1536) S1x1536.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S16384x512.size a
  hwx0_6 : ∀ i : grid0.Coords, EltTy.bits .f32 = 32 ∨ (Rect.block (s := S16384x512) S256x512.size (cc0_transform_6 i) (hinb0_6 i)).WholeWords (EltTy.packing .f32)

variable [Facts₀]

def dot_S256x512_S512x1536_S256x1536_1_0_0_1_n_n : DotDims S256x512 S512x1536 S256x1536 where
  lhsContracting := [1]
  rhsContracting := [0]
  lhsNonContracting := [0]
  rhsNonContracting := [1]
  lhsBatch := []
  rhsBatch := []
  wf := dot_S256x512_S512x1536_S256x1536_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x512 : Shape := ⟨2, ![16384, 512]⟩
abbrev S1536x512 : Shape := ⟨2, ![1536, 512]⟩
abbrev S1536 : Shape := ⟨1, ![1536]⟩
abbrev S512x1536 : Shape := ⟨2, ![512, 1536]⟩
abbrev S16384x1536 : Shape := ⟨2, ![16384, 1536]⟩
abbrev S1x1536 : Shape := ⟨2, ![1, 1536]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩

abbrev nBuf : Space → Nat
  | .hbm => 192
  | .vmem => 0
  | .smem => 0
  | _ => 0

abbrev hbmTy0_0 (i : Nat) : BufTy := match i % 128 with
  | 0 => ⟨S16384x512, .f32⟩
  | 1 => ⟨S16384x512, .f32⟩
  | 2 => ⟨S1536x512, .f32⟩
  | 3 => ⟨S1536, .f32⟩
  | 4 => ⟨S1536x512, .f32⟩
  | 5 => ⟨S1536, .f32⟩
  | 6 => ⟨S512x1536, .f32⟩
  | 7 => ⟨S16384x1536, .f32⟩
  | 8 => ⟨S1x1536, .f32⟩
  | 9 => ⟨S16384x1536, .f32⟩
  | 10 => ⟨S16384x1536, .f32⟩
  | 11 => ⟨S512x1536, .f32⟩
  | 12 => ⟨S16384x1536, .f32⟩
  | 13 => ⟨S1x1536, .f32⟩
  | 14 => ⟨S16384x1536, .f32⟩
  | 15 => ⟨S16384x1536, .f32⟩
  | 16 => ⟨S16384x512, .f32⟩
  | 17 => ⟨S16384x512, .f32⟩
  | 18 => ⟨S16384x1024, .f32⟩
  | 19 => ⟨S_, .f32⟩
  | 20 => ⟨S16384, .f32⟩
  | 21 => ⟨S16384x1, .f32⟩
  | 22 => ⟨S_, .f32⟩
  | 23 => ⟨S16384x1, .f32⟩
  | 24 => ⟨S16384x1, .f32⟩
  | 25 => ⟨S_, .i32⟩
  | 26 => ⟨S_, .f32⟩
  | 27 => ⟨S16384, .f32⟩
  | 28 => ⟨S16384x1, .f32⟩
  | 29 => ⟨S_, .f32⟩
  | 30 => ⟨S16384x1, .f32⟩
  | 31 => ⟨S16384x1, .f32⟩
  | 32 => ⟨S16384x1024, .f32⟩
  | 33 => ⟨S16384x1024, .f32⟩
  | 34 => ⟨S16384x1024, .f32⟩
  | 35 => ⟨S_, .f32⟩
  | 36 => ⟨S_, .f32⟩
  | 37 => ⟨S_, .f32⟩
  | 38 => ⟨S_, .f32⟩
  | 39 => ⟨S16384, .f32⟩
  | 40 => ⟨S16384x1, .f32⟩
  | 41 => ⟨S16384x1, .f32⟩
  | 42 => ⟨S16384x1, .f32⟩
  | 43 => ⟨S_, .f32⟩
  | 44 => ⟨S_, .i1⟩
  | 45 => ⟨S_, .f32⟩
  | 46 => ⟨S_, .f32⟩
  | 47 => ⟨S16384x1, .f32⟩
  | 48 => ⟨S16384x1, .f32⟩
  | 49 => ⟨S16384x1024, .f32⟩
  | 50 => ⟨S16384x1024, .f32⟩
  | 51 => ⟨S_, .f32⟩
  | 52 => ⟨S16384x1, .f32⟩
  | 53 => ⟨S16384x1, .f32⟩
  | 54 => ⟨S16384x1, .f32⟩
  | 55 => ⟨S16384x1024, .f32⟩
  | 56 => ⟨S16384x1024, .f32⟩
  | 57 => ⟨S16384x1024, .f32⟩
  | 58 => ⟨S_, .f32⟩
  | 59 => ⟨S16384, .f32⟩
  | 60 => ⟨S16384x1, .f32⟩
  | 61 => ⟨S_, .f32⟩
  | 62 => ⟨S16384x1, .f32⟩
  | 63 => ⟨S16384x1, .f32⟩
  | 64 => ⟨S_, .i32⟩
  | 65 => ⟨S_, .f32⟩
  | 66 => ⟨S16384, .f32⟩
  | 67 => ⟨S16384x1, .f32⟩
  | 68 => ⟨S_, .f32⟩
  | 69 => ⟨S16384x1, .f32⟩
  | 70 => ⟨S16384x1, .f32⟩
  | 71 => ⟨S16384x1024, .f32⟩
  | 72 => ⟨S16384x1024, .f32⟩
  | 73 => ⟨S16384x1024, .f32⟩
  | 74 => ⟨S_, .f32⟩
  | 75 => ⟨S_, .f32⟩
  | 76 => ⟨S_, .f32⟩
  | 77 => ⟨S_, .f32⟩
  | 78 => ⟨S16384, .f32⟩
  | 79 => ⟨S16384x1, .f32⟩
  | 80 => ⟨S16384x1, .f32⟩
  | 81 => ⟨S16384x1, .f32⟩
  | 82 => ⟨S_, .f32⟩
  | 83 => ⟨S_, .i1⟩
  | 84 => ⟨S_, .f32⟩
  | 85 => ⟨S_, .f32⟩
  | 86 => ⟨S16384x1, .f32⟩
  | 87 => ⟨S16384x1, .f32⟩
  | 88 => ⟨S16384x1024, .f32⟩
  | 89 => ⟨S16384x1024, .f32⟩
  | 90 => ⟨S_, .f32⟩
  | 91 => ⟨S16384x1, .f32⟩
  | 92 => ⟨S16384x1, .f32⟩
  | 93 => ⟨S16384x1, .f32⟩
  | 94 => ⟨S16384x1024, .f32⟩
  | 95 => ⟨S16384x1024, .f32⟩
  | 96 => ⟨S16384x1024, .f32⟩
  | 97 => ⟨S16384x1024, .f32⟩
  | 98 => ⟨S16384x1024, .f32⟩
  | 99 => ⟨S_, .f32⟩
  | 100 => ⟨S16384x1024, .f32⟩
  | 101 => ⟨S16384x1024, .f32⟩
  | 102 => ⟨S_, .f32⟩
  | 103 => ⟨S16384x1024, .f32⟩
  | 104 => ⟨S16384x1024, .f32⟩
  | 105 => ⟨S16384x512, .f32⟩
  | 106 => ⟨S16384x512, .f32⟩
  | 107 => ⟨S_, .f32⟩
  | 108 => ⟨S16384, .f32⟩
  | 109 => ⟨S16384x1, .f32⟩
  | 110 => ⟨S_, .f32⟩
  | 111 => ⟨S16384x1, .f32⟩
  | 112 => ⟨S16384x1, .f32⟩
  | 113 => ⟨S_, .i32⟩
  | 114 => ⟨S_, .f32⟩
  | 115 => ⟨S16384, .f32⟩
  | 116 => ⟨S16384x1, .f32⟩
  | 117 => ⟨S_, .f32⟩
  | 118 => ⟨S16384x1, .f32⟩
  | 119 => ⟨S16384x1, .f32⟩
  | 120 => ⟨S16384x512, .f32⟩
  | 121 => ⟨S16384x512, .f32⟩
  | 122 => ⟨S16384x512, .f32⟩
  | 123 => ⟨S_, .f32⟩
  | 124 => ⟨S_, .f32⟩
  | 125 => ⟨S_, .f32⟩
  | 126 => ⟨S_, .f32⟩
  | 127 => ⟨S16384, .f32⟩
  | _ => ⟨S16384x512, .f32⟩

abbrev hbmTy0_1 (i : Nat) : BufTy := match i % 128 with
  | 0 => ⟨S16384x1, .f32⟩
  | 1 => ⟨S16384x1, .f32⟩
  | 2 => ⟨S16384x1, .f32⟩
  | 3 => ⟨S_, .f32⟩
  | 4 => ⟨S_, .i1⟩
  | 5 => ⟨S_, .f32⟩
  | 6 => ⟨S_, .f32⟩
  | 7 => ⟨S16384x1, .f32⟩
  | 8 => ⟨S16384x1, .f32⟩
  | 9 => ⟨S16384x512, .f32⟩
  | 10 => ⟨S16384x512, .f32⟩
  | 11 => ⟨S_, .f32⟩
  | 12 => ⟨S16384x1, .f32⟩
  | 13 => ⟨S16384x1, .f32⟩
  | 14 => ⟨S16384x1, .f32⟩
  | 15 => ⟨S16384x512, .f32⟩
  | 16 => ⟨S16384x512, .f32⟩
  | 17 => ⟨S_, .f32⟩
  | 18 => ⟨S16384, .f32⟩
  | 19 => ⟨S16384x1, .f32⟩
  | 20 => ⟨S_, .f32⟩
  | 21 => ⟨S16384x1, .f32⟩
  | 22 => ⟨S16384x1, .f32⟩
  | 23 => ⟨S_, .i32⟩
  | 24 => ⟨S_, .f32⟩
  | 25 => ⟨S16384, .f32⟩
  | 26 => ⟨S16384x1, .f32⟩
  | 27 => ⟨S_, .f32⟩
  | 28 => ⟨S16384x1, .f32⟩
  | 29 => ⟨S16384x1, .f32⟩
  | 30 => ⟨S16384x512, .f32⟩
  | 31 => ⟨S16384x512, .f32⟩
  | 32 => ⟨S16384x512, .f32⟩
  | 33 => ⟨S_, .f32⟩
  | 34 => ⟨S_, .f32⟩
  | 35 => ⟨S_, .f32⟩
  | 36 => ⟨S_, .f32⟩
  | 37 => ⟨S16384, .f32⟩
  | 38 => ⟨S16384x1, .f32⟩
  | 39 => ⟨S16384x1, .f32⟩
  | 40 => ⟨S16384x1, .f32⟩
  | 41 => ⟨S_, .f32⟩
  | 42 => ⟨S_, .i1⟩
  | 43 => ⟨S_, .f32⟩
  | 44 => ⟨S_, .f32⟩
  | 45 => ⟨S16384x1, .f32⟩
  | 46 => ⟨S16384x1, .f32⟩
  | 47 => ⟨S16384x512, .f32⟩
  | 48 => ⟨S16384x512, .f32⟩
  | 49 => ⟨S_, .f32⟩
  | 50 => ⟨S16384x1, .f32⟩
  | 51 => ⟨S16384x1, .f32⟩
  | 52 => ⟨S16384x1, .f32⟩
  | 53 => ⟨S16384x512, .f32⟩
  | 54 => ⟨S16384x512, .f32⟩
  | 55 => ⟨S16384x512, .f32⟩
  | 56 => ⟨S16384x512, .f32⟩
  | 57 => ⟨S16384x512, .f32⟩
  | 58 => ⟨S16384x512, .f32⟩
  | 59 => ⟨S_, .f32⟩
  | 60 => ⟨S16384x512, .f32⟩
  | 61 => ⟨S16384x512, .f32⟩
  | 62 => ⟨S16384x512, .f32⟩
  | 63 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_cst_3 : Ref sig .tc := ⟨.hbm, 43, rfl⟩
abbrev main_call0_v13 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_1 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_2 : Ref sig .tc := ⟨.hbm, 58, rfl⟩
abbrev main_v26 : Ref sig .tc := ⟨.hbm, 59, rfl⟩
abbrev main_v27 : Ref sig .tc := ⟨.hbm, 60, rfl⟩
abbrev main_cst_3 : Ref sig .tc := ⟨.hbm, 61, rfl⟩
abbrev main_v28 : Ref sig .tc := ⟨.hbm, 62, rfl⟩
abbrev main_v29 : Ref sig .tc := ⟨.hbm, 63, rfl⟩
abbrev main_c_4 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_cst_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_cst_1 : Ref sig .tc := ⟨.hbm, 75, rfl⟩
abbrev main_call1_v8 : Ref sig .tc := ⟨.hbm, 76, rfl⟩
abbrev main_call1_cst_2 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_v12 : Ref sig .tc := ⟨.hbm, 81, rfl⟩
abbrev main_call1_cst_3 : Ref sig .tc := ⟨.hbm, 82, rfl⟩
abbrev main_call1_v13 : Ref sig .tc := ⟨.hbm, 83, rfl⟩
abbrev main_call1_cst_4 : Ref sig .tc := ⟨.hbm, 84, rfl⟩
abbrev main_call1_call0_v0 : Ref sig .tc := ⟨.hbm, 85, rfl⟩
abbrev main_call1_call0_v1 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_cst_5 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_cst_6 : Ref sig .tc := ⟨.hbm, 99, rfl⟩
abbrev main_v41 : Ref sig .tc := ⟨.hbm, 100, rfl⟩
abbrev main_v42 : Ref sig .tc := ⟨.hbm, 101, rfl⟩
abbrev main_cst_7 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_cst_8 : Ref sig .tc := ⟨.hbm, 107, rfl⟩
abbrev main_v47 : Ref sig .tc := ⟨.hbm, 108, rfl⟩
abbrev main_v48 : Ref sig .tc := ⟨.hbm, 109, rfl⟩
abbrev main_cst_9 : Ref sig .tc := ⟨.hbm, 110, rfl⟩
abbrev main_v49 : Ref sig .tc := ⟨.hbm, 111, rfl⟩
abbrev main_v50 : Ref sig .tc := ⟨.hbm, 112, rfl⟩
abbrev main_c_10 : Ref sig .tc := ⟨.hbm, 113, rfl⟩
abbrev main_call2_cst : Ref sig .tc := ⟨.hbm, 114, rfl⟩
abbrev main_call2_v0 : Ref sig .tc := ⟨.hbm, 115, rfl⟩
abbrev main_call2_v1 : Ref sig .tc := ⟨.hbm, 116, rfl⟩
abbrev main_call2_cst_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_v7 : Ref sig .tc := ⟨.hbm, 123, rfl⟩
abbrev main_call2_cst_1 : Ref sig .tc := ⟨.hbm, 124, rfl⟩
abbrev main_call2_v8 : Ref sig .tc := ⟨.hbm, 125, rfl⟩
abbrev main_call2_cst_2 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_v12 : Ref sig .tc := ⟨.hbm, 130, rfl⟩
abbrev main_call2_cst_3 : Ref sig .tc := ⟨.hbm, 131, rfl⟩
abbrev main_call2_v13 : Ref sig .tc := ⟨.hbm, 132, rfl⟩
abbrev main_call2_cst_4 : Ref sig .tc := ⟨.hbm, 133, rfl⟩
abbrev main_call2_call0_v0 : Ref sig .tc := ⟨.hbm, 134, rfl⟩
abbrev main_call2_call0_v1 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_cst_11 : Ref sig .tc := ⟨.hbm, 139, rfl⟩
abbrev main_v54 : Ref sig .tc := ⟨.hbm, 140, rfl⟩
abbrev main_v55 : Ref sig .tc := ⟨.hbm, 141, rfl⟩
abbrev main_v56 : Ref sig .tc := ⟨.hbm, 142, rfl⟩
abbrev main_v57 : Ref sig .tc := ⟨.hbm, 143, rfl⟩
abbrev main_v58 : Ref sig .tc := ⟨.hbm, 144, rfl⟩
abbrev main_cst_12 : Ref sig .tc := ⟨.hbm, 145, rfl⟩
abbrev main_v59 : Ref sig .tc := ⟨.hbm, 146, rfl⟩
abbrev main_v60 : Ref sig .tc := ⟨.hbm, 147, rfl⟩
abbrev main_cst_13 : Ref sig .tc := ⟨.hbm, 148, rfl⟩
abbrev main_v61 : Ref sig .tc := ⟨.hbm, 149, rfl⟩
abbrev main_v62 : Ref sig .tc := ⟨.hbm, 150, rfl⟩
abbrev main_c_14 : Ref sig .tc := ⟨.hbm, 151, rfl⟩
abbrev main_call3_cst : Ref sig .tc := ⟨.hbm, 152, rfl⟩
abbrev main_call3_v0 : Ref sig .tc := ⟨.hbm, 153, rfl⟩
abbrev main_call3_v1 : Ref sig .tc := ⟨.hbm, 154, rfl⟩
abbrev main_call3_cst_0 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_v5 : Ref sig .tc := ⟨.hbm, 159, rfl⟩
abbrev main_call3_v6 : Ref sig .tc := ⟨.hbm, 160, rfl⟩
abbrev main_call3_v7 : Ref sig .tc := ⟨.hbm, 161, rfl⟩
abbrev main_call3_cst_1 : Ref sig .tc := ⟨.hbm, 162, rfl⟩
abbrev main_call3_v8 : Ref sig .tc := ⟨.hbm, 163, rfl⟩
abbrev main_call3_cst_2 : Ref sig .tc := ⟨.hbm, 164, rfl⟩
abbrev main_call3_v9 : Ref sig .tc := ⟨.hbm, 165, rfl⟩
abbrev main_call3_v10 : Ref sig .tc := ⟨.hbm, 166, rfl⟩
abbrev main_call3_v11 : Ref sig .tc := ⟨.hbm, 167, rfl⟩
abbrev main_call3_v12 : Ref sig .tc := ⟨.hbm, 168, rfl⟩
abbrev main_call3_cst_3 : Ref sig .tc := ⟨.hbm, 169, rfl⟩
abbrev main_call3_v13 : Ref sig .tc := ⟨.hbm, 170, rfl⟩
abbrev main_call3_cst_4 : Ref sig .tc := ⟨.hbm, 171, rfl⟩
abbrev main_call3_call0_v0 : Ref sig .tc := ⟨.hbm, 172, rfl⟩
abbrev main_call3_call0_v1 : Ref sig .tc := ⟨.hbm, 173, rfl⟩
abbrev main_v63 : Ref sig .tc := ⟨.hbm, 174, rfl⟩
abbrev main_v64 : Ref sig .tc := ⟨.hbm, 175, rfl⟩
abbrev main_v65 : Ref sig .tc := ⟨.hbm, 176, rfl⟩
abbrev main_cst_15 : Ref sig .tc := ⟨.hbm, 177, rfl⟩
abbrev main_v66 : Ref sig .tc := ⟨.hbm, 178, rfl⟩
abbrev main_v67 : Ref sig .tc := ⟨.hbm, 179, rfl⟩
abbrev main_v68 : Ref sig .tc := ⟨.hbm, 180, rfl⟩
abbrev main_v69 : Ref sig .tc := ⟨.hbm, 181, rfl⟩
abbrev main_v70 : Ref sig .tc := ⟨.hbm, 182, rfl⟩
abbrev main_v71 : Ref sig .tc := ⟨.hbm, 183, rfl⟩
abbrev main_v72 : Ref sig .tc := ⟨.hbm, 184, rfl⟩
abbrev main_v73 : Ref sig .tc := ⟨.hbm, 185, rfl⟩
abbrev main_v74 : Ref sig .tc := ⟨.hbm, 186, rfl⟩
abbrev main_cst_16 : Ref sig .tc := ⟨.hbm, 187, rfl⟩
abbrev main_v75 : Ref sig .tc := ⟨.hbm, 188, rfl⟩
abbrev main_v76 : Ref sig .tc := ⟨.hbm, 189, rfl⟩
abbrev main_v77 : Ref sig .tc := ⟨.hbm, 190, rfl⟩
abbrev main_v78 : Ref sig .tc := ⟨.hbm, 191, rfl⟩

abbrev nD : Nat := 1
abbrev τ : Topo := Topo.v7x

variable {F : FTy → Type} [FloatOps F]

class Facts₀ : Prop where
  transposes_S1536x512_S512x1536_1_0 : S1536x512.Transposes [1, 0] S512x1536
  bcast_S1536_S1x1536_1 : S1536.BroadcastsInDim S1x1536 (![1] : Fin 1 → Fin S1x1536.rank)
  bcast_S1x1536_S16384x1536_0_1 : S1x1536.BroadcastsInDim S16384x1536 (![0, 1] : Fin 2 → Fin S16384x1536.rank)
  slices_S16384x1536_S16384x512_0_1024 : S16384x1536.Slices ![0, 1024] S16384x512
  slices_S16384x1536_S16384x1024_0_0 : S16384x1536.Slices ![0, 0] S16384x1024
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  slices_S16384x1024_S16384x512_0_0 : S16384x1024.Slices ![0, 0] S16384x512
  slices_S16384x1024_S16384x512_0_512 : S16384x1024.Slices ![0, 512] S16384x512
  reducesTo_S16384x512_S16384_d1 : S16384x512.ReducesTo [1] S16384
  bcast_S16384x1_S16384x512_0_1 : S16384x1.BroadcastsInDim S16384x512 (![0, 1] : Fin 2 → Fin S16384x512.rank)
  bcast_S_S16384x512 : S_.BroadcastsInDim S16384x512 (![] : Fin 0 → Fin S16384x512.rank)
  dot_S16384x512_S512x1536_S16384x1536_1_0_0_1_n_n_wf : DotDims.WF S16384x512 S512x1536 S16384x1536 [1] [0] [0] [1] [] []

variable [Facts₀]

def dot_S16384x512_S512x1536_S16384x1536_1_0_0_1_n_n : DotDims S16384x512 S512x1536 S16384x1536 where
  lhsContracting := [1]
  rhsContracting := [0]
  lhsNonContracting := [0]
  rhsNonContracting := [1]
  lhsBatch := []
  rhsBatch := []
  wf := dot_S16384x512_S512x1536_S16384x1536_1_0_0_1_n_n_wf

class Facts : Prop extends Facts₀ where

variable [Facts]
-- ==== Proof.GruSpec.lean ====
/-
  The cell, one batch row at a time, on the extended reals.

  For one row the inputs are a feature row `x` and a state row `h` (512 entries each), two weight matrices
  (1536 × 512) and two bias rows (1536). Both affine maps `x·Wᵀ + b` give rows of 1536 entries; the first 1024
  entries of each are normalised together (mean and variance over those 1024), added, and passed through the
  logistic function to give the reset gate (entries 0 … 511) and the update gate (entries 512 … 1023); the last
  512 entries of each are normalised separately and combined through the reset gate and a hyperbolic tangent
  into the candidate; the new state is `z·h + (1 − z)·candidate`.

  The normalisation comes in two spellings. The ONE-PASS form computes the mean `μ` and the mean of squares and
  takes `(v − μ) · rsqrt (E[v²] − μ² + ε)`; the TWO-PASS form computes the mean of the squared deviations and takes
  `(v − μ) / sqrt (E[(v − μ)²] + ε)`. On real entries, with the divisor the length of the row, the two agree.
-/
import Idealize.ShloMosaic.PureOps.Ideal

noncomputable section

open scoped BigOperators

namespace Cert.Gru

open Idealize.ShloMosaic

/-- The stabiliser `ε` both programs add to a variance: the binary32 word nearest `1e-5`. -/
abbrev epsW : EReal := Ideal.ofBits .f32 0x3727C5AC#32
/-- The word `1024.0`. -/
abbrev n1024 : EReal := Ideal.ofBits .f32 0x44800000#32
/-- The word `512.0`. -/
abbrev n512 : EReal := Ideal.ofBits .f32 0x44000000#32
/-- The word `1.0`. -/
abbrev oneW : EReal := Ideal.ofBits .f32 0x3F800000#32

/-- The mean of a row: its sum divided by `d`. -/
def mean {n : ℕ} (d : EReal) (v : Fin n → EReal) : EReal := Ideal.div (∑ k, v k) d

/-- The one-pass normalisation of entry `j` of a row: `(v j − μ) · rsqrt (E[v²] − μ² + ε)`. -/
def lnK {n : ℕ} (d : EReal) (v : Fin n → EReal) (j : Fin n) : EReal :=
  (v j - mean d v) * Ideal.rsqrt (Ideal.div (∑ k, v k * v k) d - mean d v * mean d v + epsW)

/-- The two-pass normalisation of entry `j` of a row: `(v j − μ) / sqrt (E[(v − μ)²] + ε)`. -/
def lnR {n : ℕ} (d : EReal) (v : Fin n → EReal) (j : Fin n) : EReal :=
  Ideal.div (v j - mean d v) (Ideal.sqrt (Ideal.div (∑ k, (v k - mean d v) * (v k - mean d v)) d + epsW))

/-- Entry `j` of `x·Wᵀ + b` for one row `x`. -/
def lin (x : Fin 512 → EReal) (W : Fin 1536 → Fin 512 → EReal) (b : Fin 1536 → EReal) (j : Fin 1536) : EReal :=
  (∑ k, x k * W j k) + b j

/-- The first 1024 entries of a row of 1536: the two gates' pre-activations. -/
def gatePart (v : Fin 1536 → EReal) : Fin 1024 → EReal := fun j => v ⟨j.val, by omega⟩
/-- The last 512 entries of a row of 1536: the candidate's pre-activation. -/
def newPart (v : Fin 1536 → EReal) : Fin 512 → EReal := fun j => v ⟨1024 + j.val, by omega⟩

/-- Entry `q` of the new state of one row, from the two affine rows `xt`, `ht` and the old state `h`, with the
    normalisation of the 1024 gate entries (`ln1`) and of the 512 candidate entries (`ln2`) as parameters. -/
def cell (ln1 : (Fin 1024 → EReal) → Fin 1024 → EReal) (ln2 : (Fin 512 → EReal) → Fin 512 → EReal)
    (xt ht : Fin 1536 → EReal) (h : Fin 512 → EReal) (q : Fin 512) : EReal :=
  Ideal.logistic (ln1 (gatePart xt) ⟨512 + q.val, by omega⟩ + ln1 (gatePart ht) ⟨512 + q.val, by omega⟩) * h q
    + (oneW - Ideal.logistic (ln1 (gatePart xt) ⟨512 + q.val, by omega⟩ + ln1 (gatePart ht) ⟨512 + q.val, by omega⟩))
      * Ideal.tanh (ln2 (newPart xt) q
          + Ideal.logistic (ln1 (gatePart xt) ⟨q.val, by omega⟩ + ln1 (gatePart ht) ⟨q.val, by omega⟩) * ln2 (newPart ht) q)

/-- The cell with the one-pass normalisation. -/
def cellK (xt ht : Fin 1536 → EReal) (h : Fin 512 → EReal) (q : Fin 512) : EReal :=
  cell (lnK n1024) (lnK n512) xt ht h q

/-- The cell with the two-pass normalisation. -/
def cellR (xt ht : Fin 1536 → EReal) (h : Fin 512 → EReal) (q : Fin 512) : EReal :=
  cell (lnR n1024) (lnR n512) xt ht h q

end Cert.Gru

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibRowLayer.lean ====
/-
  Rows of a matrix read entry by entry, at the extended reals: what a layer of the form
  "features times a slice of a weight stack, plus a bias, then something along each row" needs, for a
  block of rows inside a tiled unit and for the whole array on the host alike.

  * `blockDot`: the product of an `[M, K]` block with slice 0 of a `[1, K, N]` weight slice viewed as `[K, N]`
    (both operands passed through a change of float format, which is the identity here), into a zero
    accumulator, is at `(p, q)` the sum over `c < K` of `x (p, c) · w (0, c, q)`.
  * the column forms of keepdims: a vector `[a]` viewed as a column `[a, 1]`, and a column spread along the
    rows to `[a, b]`.
  * a reduction along the rows (axis 1 of `[a, b]`) read at row `p`: a sum is `∑ k < b, x (p, k)`, a maximum
    is the fold of `max` over `k < b` from the accumulator's value — for the tiled unit's `multi_reduction` and
    for the host's `reduce`.
-/
import Idealize.ShloMosaic.PureOps.Ideal.Laws
import Idealize.ShloMosaic.Lib.ValueIdx
import Idealize.ShloMosaic.Lib.ValueLayout
import Idealize.ShloMosaic.Lib.Pipeline.Value
import proofs.«161558_j38414187495805_2_alg».proof.Proof.LibPlainDot

noncomputable section

open scoped BigOperators

namespace Cert.RowLayer

open Idealize.ShloMosaic Idealize.ShloMosaic.ValueIdx

/-! ## A block of rows times a slice of the weight stack -/

/-- Entry `(p, q)` of `x · w[0]` for a block `x : [M, K]` and a weight slice `w : [1, K, N]`, as the tiled unit spells
    it: the slice viewed as `[K, N]`, both operands' float format changed (the identity on extended reals), a plain
    matrix product into the zero accumulator. -/
theorem blockDot {M K N : Nat} (d : DotDims ⟨2, ![M, K]⟩ ⟨2, ![K, N]⟩ ⟨2, ![M, N]⟩) (hd : Cert.PlainDot.IsPlain d)
    (prec : Option ContractPrecision) (x : FVec Ideal ⟨2, ![M, K]⟩ .f32) (w : FVec Ideal ⟨3, ![1, K, N]⟩ .f32)
    (hc : (⟨3, ![1, K, N]⟩ : Shape).ShapeCasts ⟨2, ![K, N]⟩) (hlt : FTy.bits .bf16 < FTy.bits .f32)
    (p : Fin M) (q : Fin N) :
    matmul d prec (truncf .bf16 x hlt) (truncf .bf16 (shapeCast ⟨2, ![K, N]⟩ w hc) hlt)
        (constant ⟨2, ![M, N]⟩ .f32 0x00000000#32) (ix2 p q)
      = ∑ c : Fin K, x (ix2 p c) * w (ix3 (0 : Fin 1) c q) :=
  (Ideal.matmul_constant_zero_apply d prec _ _ (ix2 p q)).trans
    ((Cert.PlainDot.sum_contr d hd (truncf .bf16 x hlt) (truncf .bf16 (shapeCast ⟨2, ![K, N]⟩ w hc) hlt) p q).trans
      (Finset.sum_congr rfl fun c _ => congrArg (x (ix2 p c) * ·) (shapeCast_1ab_ab_apply w hc c q)))

/-! ## Keepdims: a vector as a column, a column along the rows -/

variable {α : Type}

/-- An `[a]` vector viewed as an `[a, 1]` column reads, at `(p, u)`, the vector's entry `p`: both have position `p` in
    row-major order. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- An `[a, 1]` column spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Row `p` with column `k` put back: the index a reduction over axis 1 of `[a, b]` reads. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The tiled unit's sum along the rows, at row `p`. -/
theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The tiled unit's maximum along the rows, at row `p`: the fold of `max` from the accumulator's value. -/
theorem rowMax_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg ((Finset.univ : Finset (Fin b)).fold max (Ideal.ofBits .f32 acc))
      (funext fun k => congrArg src (lift_row h p k)))

/-- The host's sum along the rows, at row `p`: the initial value plus the row's sum. -/
theorem hostRowSum_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd (F := Ideal) x init h' hu (ix1 p) = init (Shape.Idx.first hu) + ∑ k : Fin b, x (ix2 p k) :=
  (Ideal.hostReduceAdd_single h' h x (init (Shape.Idx.first hu)) (ix1 p)).trans
    (congrArg (init (Shape.Idx.first hu) + ·) (Finset.sum_congr rfl fun k _ => congrArg x (lift_row h p k)))

/-- The host's maximum along the rows, at row `p`: the fold of `max` from the initial value. -/
theorem hostRowMax_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg ((Finset.univ : Finset (Fin b)).fold max (init (Shape.Idx.first hu)))
      (funext fun k => congrArg x (lift_row h p k)))

/-! ## The logarithm of the softmax along the rows of a block, as the tiled unit spells it -/

/-- The tiled unit's spelling of the log-softmax of a block `a : [A, B]` — the row maximum (a `multi_reduction`
    kept as a column and spread back along the rows) subtracted, then the logarithm of the row sum of exponentials,
    likewise a column spread back, subtracted — read at `(p, q)`: with `m` the fold of `max` over row `p` from the
    accumulator's value, it is `(a (p, q) − m) − log ∑_k exp (a (p, k) − m)`. -/
theorem logSoftmax_block_apply {A B : ℕ} (a : FVec Ideal ⟨2, ![A, B]⟩ .f32) (accM accA : BitVec (FTy.bits .f32))
    (h : (⟨2, ![A, B]⟩ : Shape).Reduces [1] ⟨1, ![A]⟩) (hφ : FKind.Formats .f32)
    (hM : accM = FKind.maximumf.neutral .f32 hφ) (hA : accA = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    subf (subf a (broadcastTo ⟨2, ![A, B]⟩ (shapeCast ⟨2, ![A, 1]⟩ (multiReduction .maximumf [1] ⟨1, ![A]⟩ a accM h hφ hM) hc) hb))
        (broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb) (ix2 p q)
      = (a (ix2 p q) - (Finset.univ : Finset (Fin B)).fold max (Ideal.ofBits .f32 accM) (fun k => a (ix2 p k)))
        - Ideal.log (∑ k : Fin B, Ideal.exp (a (ix2 p k)
            - (Finset.univ : Finset (Fin B)).fold max (Ideal.ofBits .f32 accM) (fun k => a (ix2 p k)))) := by
  have hm : ∀ c : Fin B,
      broadcastTo ⟨2, ![A, B]⟩ (shapeCast ⟨2, ![A, 1]⟩ (multiReduction .maximumf [1] ⟨1, ![A]⟩ a accM h hφ hM) hc) hb (ix2 p c)
        = (Finset.univ : Finset (Fin B)).fold max (Ideal.ofBits .f32 accM) (fun k => a (ix2 p k)) := fun c =>
    (broadcastTo_a1_ab_apply _ hb p c).trans ((shapeCast_a_a1_apply _ hc p 0).trans (rowMax_apply a accM h hφ hM p))
  have hs : broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb (ix2 p q)
        = Ideal.log (∑ k : Fin B, Ideal.exp (a (ix2 p k)
            - (Finset.univ : Finset (Fin B)).fold max (Ideal.ofBits .f32 accM) (fun k => a (ix2 p k)))) :=
    (broadcastTo_a1_ab_apply _ hb p q).trans (congrArg Ideal.log
      ((shapeCast_a_a1_apply _ hc p 0).trans ((rowSum_apply _ accA h hφ hA p).trans
        (Finset.sum_congr rfl fun k _ => congrArg (fun m => Ideal.exp (a (ix2 p k) - m)) (hm k)))))
  show (a (ix2 p q) - _) - _ = _
  rw [hm q, hs]

end Cert.RowLayer

end
-- ==== Proof.GruTile.lean ====
/-
  A tile of rows read entry by entry, at the extended reals: the affine map of a tile as the matrix unit computes it,
  and the one-pass normalisation along the rows as the vector unit spells it (lane sums kept as a column, divided by the
  row length, spread back along the rows). Everything is stated for an arbitrary number `M` of rows.
-/
import proofs.«161558_j38414187495805_2_alg».proof.Proof.GruSpec
import proofs.«161558_j38414187495805_2_alg».proof.Proof.LibRowLayer

noncomputable section

open scoped BigOperators

namespace Cert.Gru.Tile

open Idealize.ShloMosaic Idealize.ShloMosaic.ValueIdx Cert.RowLayer Cert.Gru

variable {M : ℕ}

/-- Entry `(p, j)` of `X·w + b` for a tile `X` of rows, a `K × N` matrix `w` and a one-row bias `b` spread over the
    rows, the product taken into a zero accumulator after a change of float format (the identity here):
    `∑ k, X (p, k) · w (k, j) + b (0, j)`. -/
theorem lin_tile {K N : ℕ} (d : DotDims ⟨2, ![M, K]⟩ ⟨2, ![K, N]⟩ ⟨2, ![M, N]⟩) (hd : Cert.PlainDot.IsPlain d)
    (prec : Option ContractPrecision) (X : FVec Ideal ⟨2, ![M, K]⟩ .f32) (w : FVec Ideal ⟨2, ![K, N]⟩ .bf16)
    (b : FVec Ideal ⟨2, ![1, N]⟩ .f32) (hlt : FTy.bits .bf16 < FTy.bits .f32)
    (hw : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![M, N]⟩) (p : Fin M) (j : Fin N) :
    addf (matmul d prec (truncf .bf16 X hlt) (shapeCast ⟨2, ![K, N]⟩ w hw) (constant ⟨2, ![M, N]⟩ .f32 0x00000000#32))
        (broadcastTo ⟨2, ![M, N]⟩ (shapeCast ⟨2, ![1, N]⟩ b hb) hbc) (ix2 p j)
      = (∑ k : Fin K, X (ix2 p k) * w (ix2 k j)) + b (ix2 (0 : Fin 1) j) := by
  rw [addf_apply, broadcastTo_1b_ab_apply, shapeCast_self, shapeCast_self]
  refine congrArg (· + b (ix2 (0 : Fin 1) j)) ?_
  refine (Ideal.matmul_constant_zero_apply d prec _ _ (ix2 p j)).trans ?_
  exact Cert.PlainDot.sum_contr d hd (truncf .bf16 X hlt) w p j

/-- The row means of a tile, kept as a column: the lane sum of each row over the word `dw`. -/
def meanCol {n : ℕ} (dw : BitVec 32) (v : FVec Ideal ⟨2, ![M, n]⟩ .f32) (acc : BitVec (FTy.bits .f32))
    (hr : (⟨2, ![M, n]⟩ : Shape).Reduces [1] ⟨1, ![M]⟩) (hφ : FKind.Formats .f32) (hacc : acc = FKind.add.neutral .f32 hφ)
    (hc : (⟨1, ![M]⟩ : Shape).ShapeCasts ⟨2, ![M, 1]⟩) : FVec Ideal ⟨2, ![M, 1]⟩ .f32 :=
  divf (shapeCast ⟨2, ![M, 1]⟩ (multiReduction .add [1] ⟨1, ![M]⟩ v acc hr hφ hacc) hc)
    (broadcast ⟨2, ![M, 1]⟩ (Scalar.ofBits .f32 dw))

/-- The column of row means, at row `p`, is the mean of row `p`. -/
theorem meanCol_apply {n : ℕ} (dw : BitVec 32) (v : FVec Ideal ⟨2, ![M, n]⟩ .f32) (acc : BitVec (FTy.bits .f32))
    (hr : (⟨2, ![M, n]⟩ : Shape).Reduces [1] ⟨1, ![M]⟩) (hφ : FKind.Formats .f32) (hacc : acc = FKind.add.neutral .f32 hφ)
    (hc : (⟨1, ![M]⟩ : Shape).ShapeCasts ⟨2, ![M, 1]⟩) (p : Fin M) (u : Fin 1) :
    meanCol dw v acc hr hφ hacc hc (ix2 p u) = mean (Ideal.ofBits .f32 dw) (fun k => v (ix2 p k)) := by
  unfold meanCol mean
  rw [divf_apply, shapeCast_a_a1_apply, rowSum_apply, broadcast_apply]
  rfl

/-- The one-pass normalisation of every row of a tile: the deviation from the row mean times the reciprocal square
    root of `E[v²] − μ² + ε`, mean and scale computed as columns and spread back along the rows. -/
def lnTile {n : ℕ} (dw : BitVec 32) (v : FVec Ideal ⟨2, ![M, n]⟩ .f32) (acc : BitVec (FTy.bits .f32))
    (hr : (⟨2, ![M, n]⟩ : Shape).Reduces [1] ⟨1, ![M]⟩) (hφ : FKind.Formats .f32) (hacc : acc = FKind.add.neutral .f32 hφ)
    (hc : (⟨1, ![M]⟩ : Shape).ShapeCasts ⟨2, ![M, 1]⟩) (hb : (⟨2, ![M, 1]⟩ : Shape).Broadcasts ⟨2, ![M, n]⟩) :
    FVec Ideal ⟨2, ![M, n]⟩ .f32 :=
  mulf (subf v (broadcastTo ⟨2, ![M, n]⟩ (meanCol dw v acc hr hφ hacc hc) hb))
    (broadcastTo ⟨2, ![M, n]⟩
      (rsqrt (addf (subf (meanCol dw (mulf v v) acc hr hφ hacc hc)
          (mulf (meanCol dw v acc hr hφ hacc hc) (meanCol dw v acc hr hφ hacc hc)))
        (broadcast ⟨2, ![M, 1]⟩ (Scalar.ofBits .f32 0x3727C5AC#32)))) hb)

/-- Entry `(p, j)` of the normalised tile is the one-pass normalisation of entry `j` of row `p`. -/
theorem lnTile_apply {n : ℕ} (dw : BitVec 32) (v : FVec Ideal ⟨2, ![M, n]⟩ .f32) (acc : BitVec (FTy.bits .f32))
    (hr : (⟨2, ![M, n]⟩ : Shape).Reduces [1] ⟨1, ![M]⟩) (hφ : FKind.Formats .f32) (hacc : acc = FKind.add.neutral .f32 hφ)
    (hc : (⟨1, ![M]⟩ : Shape).ShapeCasts ⟨2, ![M, 1]⟩) (hb : (⟨2, ![M, 1]⟩ : Shape).Broadcasts ⟨2, ![M, n]⟩)
    (p : Fin M) (j : Fin n) :
    lnTile dw v acc hr hφ hacc hc hb (ix2 p j) = lnK (Ideal.ofBits .f32 dw) (fun k => v (ix2 p k)) j := by
  have hm : ∀ w : FVec Ideal ⟨2, ![M, n]⟩ .f32,
      meanCol dw w acc hr hφ hacc hc (ix2 p (0 : Fin 1)) = mean (Ideal.ofBits .f32 dw) (fun k => w (ix2 p k)) :=
    fun w => meanCol_apply dw w acc hr hφ hacc hc p 0
  unfold lnTile lnK
  rw [mulf_apply, subf_apply, broadcastTo_a1_ab_apply, broadcastTo_a1_ab_apply]
  show (v (ix2 p j) - meanCol dw v acc hr hφ hacc hc (ix2 p (0 : Fin 1)))
      * Ideal.rsqrt ((meanCol dw (mulf v v) acc hr hφ hacc hc (ix2 p (0 : Fin 1))
          - meanCol dw v acc hr hφ hacc hc (ix2 p (0 : Fin 1)) * meanCol dw v acc hr hφ hacc hc (ix2 p (0 : Fin 1)))
        + Ideal.ofBits .f32 0x3727C5AC#32) = _
  rw [hm v, hm (mulf v v)]
  rfl

end Cert.Gru.Tile

end
-- ==== Proof.KernelBody.lean ====
/-
  The tiled unit's body, read entry by entry at the extended reals. The body loads a tile of 256 rows of `x` and of
  `hx`, the two re-laid weight matrices (512 × 1536) and the two bias rows (1 × 1536), and stores one tile of 256 × 512.
  Its arithmetic is a chain of named pure terms; each is read here at an index `(p, j)` as a function of ROW `p` of its
  operands, so that the stored tile's entry `(p, q)` comes out as the cell of row `p` (one-pass normalisation).
-/
import proofs.«161558_j38414187495805_2_alg».proof.Proof.Gen.KernelIdeal.Skeleton
import proofs.«161558_j38414187495805_2_alg».proof.Proof.GruTile

noncomputable section

open scoped BigOperators

namespace Cert.KernelIdeal.Body

open Cert.KernelIdeal Cert.KernelIdeal.Gen Idealize.ShloMosaic Idealize.ShloMosaic.ValueIdx Cert.Gru Cert.Gru.Tile

/-- The matrix unit's dimension numbers here are those of a plain product. -/
theorem plain : Cert.PlainDot.IsPlain dot_S256x512_S512x1536_S256x1536_1_0_0_1_n_n := ⟨rfl, rfl, rfl, rfl, rfl, rfl⟩

/-- Row `p` of the affine tile `x·w + b`, from row `p` of the feature tile, the re-laid weights read by columns and the
    bias row. -/
abbrev affRow (X : FVec Ideal S256x512 .f32) (w : FVec Ideal S512x1536 .bf16) (b : FVec Ideal S1x1536 .f32) (p : Fin 256) :
    Fin 1536 → EReal :=
  lin (fun k => X (ix2 p k)) (fun j k => w (ix2 k j)) (fun j => b (ix2 (0 : Fin 1) j))

/-- The affine tile of `x`. -/
theorem pay2_apply (v0 : FVec Ideal S256x512 .f32) (v4 : FVec Ideal S512x1536 .bf16) (v9 : FVec Ideal S1x1536 .f32)
    (p : Fin 256) (j : Fin 1536) : k0_pay2 (F := Ideal) v0 v4 v9 (ix2 p j) = affRow v0 v4 v9 p j :=
  lin_tile (M := 256) dot_S256x512_S512x1536_S256x1536_1_0_0_1_n_n plain none v0 v4 v9 bitsLt_bf16_f32
    shapeCasts_S512x1536_S512x1536 shapeCasts_S1x1536_S1x1536 broadcasts_S1x1536_S256x1536 p j

/-- The affine tile of `hx`. -/
theorem pay3_apply (v1 : FVec Ideal S256x512 .f32) (v6 : FVec Ideal S512x1536 .bf16) (v14 : FVec Ideal S1x1536 .f32)
    (p : Fin 256) (j : Fin 1536) : k0_pay3 (F := Ideal) v1 v6 v14 (ix2 p j) = affRow v1 v6 v14 p j :=
  lin_tile (M := 256) dot_S256x512_S512x1536_S256x1536_1_0_0_1_n_n plain none v1 v6 v14 bitsLt_bf16_f32
    shapeCasts_S512x1536_S512x1536 shapeCasts_S1x1536_S1x1536 broadcasts_S1x1536_S256x1536 p j

/-- The gate columns (0 … 1023) of the affine tile of `hx`. -/
theorem pay4_apply (v1 : FVec Ideal S256x512 .f32) (v6 : FVec Ideal S512x1536 .bf16) (v14 : FVec Ideal S1x1536 .f32)
    (p : Fin 256) (j : Fin 1024) : k0_pay4 (F := Ideal) v1 v6 v14 (ix2 p j) = gatePart (affRow v1 v6 v14 p) j := by
  have e : k0_pay4 (F := Ideal) v1 v6 v14 (ix2 p j) = k0_pay3 (F := Ideal) v1 v6 v14 (ix2 p ⟨j.val, by omega⟩) :=
    slice2_axis1_apply 0 (k0_pay3 (F := Ideal) v1 v6 v14) slices_S256x1536_o0_0_S256x1024 p j ⟨j.val, by omega⟩ (Nat.zero_add _).symm
  rw [e, pay3_apply]
  rfl

/-- The candidate columns (1024 … 1535) of the affine tile of `x`. -/
theorem pay5_apply (v0 : FVec Ideal S256x512 .f32) (v4 : FVec Ideal S512x1536 .bf16) (v9 : FVec Ideal S1x1536 .f32)
    (p : Fin 256) (j : Fin 512) : k0_pay5 (F := Ideal) v0 v4 v9 (ix2 p j) = newPart (affRow v0 v4 v9 p) j := by
  have e : k0_pay5 (F := Ideal) v0 v4 v9 (ix2 p j) = k0_pay2 (F := Ideal) v0 v4 v9 (ix2 p ⟨1024 + j.val, by omega⟩) :=
    slice2_axis1_apply 1024 (k0_pay2 (F := Ideal) v0 v4 v9) slices_S256x1536_o0_1024_S256x512 p j ⟨1024 + j.val, by omega⟩ rfl
  rw [e, pay2_apply]
  rfl

/-- The candidate columns of the affine tile of `hx`. -/
theorem pay6_apply (v1 : FVec Ideal S256x512 .f32) (v6 : FVec Ideal S512x1536 .bf16) (v14 : FVec Ideal S1x1536 .f32)
    (p : Fin 256) (j : Fin 512) : k0_pay6 (F := Ideal) v1 v6 v14 (ix2 p j) = newPart (affRow v1 v6 v14 p) j := by
  have e : k0_pay6 (F := Ideal) v1 v6 v14 (ix2 p j) = k0_pay3 (F := Ideal) v1 v6 v14 (ix2 p ⟨1024 + j.val, by omega⟩) :=
    slice2_axis1_apply 1024 (k0_pay3 (F := Ideal) v1 v6 v14) slices_S256x1536_o0_1024_S256x512 p j ⟨1024 + j.val, by omega⟩ rfl
  rw [e, pay3_apply]
  rfl

/-- The normalised gate columns of the affine tile of `x`. -/
theorem pay7_apply (v0 : FVec Ideal S256x512 .f32) (v4 : FVec Ideal S512x1536 .bf16) (v9 : FVec Ideal S1x1536 .f32)
    (p : Fin 256) (j : Fin 1024) : k0_pay7 (F := Ideal) v0 v4 v9 (ix2 p j) = lnK n1024 (gatePart (affRow v0 v4 v9 p)) j := by
  have e : k0_pay7 (F := Ideal) v0 v4 v9
      = lnTile 0x44800000#32 (extractStridedSlice S256x1024 ![0, 0] (k0_pay2 (F := Ideal) v0 v4 v9) slices_S256x1536_o0_0_S256x1024)
          0x00000000#32 reduces_S256x1024_S256 (.inl rfl) rfl shapeCasts_S256_S256x1 broadcasts_S256x1_S256x1024 := rfl
  rw [e]
  refine (lnTile_apply _ _ _ _ _ _ _ _ p j).trans ?_
  refine congrArg (fun r => lnK n1024 r j) (funext fun k => ?_)
  have e2 : extractStridedSlice S256x1024 ![0, 0] (k0_pay2 (F := Ideal) v0 v4 v9) slices_S256x1536_o0_0_S256x1024 (ix2 p k)
      = k0_pay2 (F := Ideal) v0 v4 v9 (ix2 p ⟨k.val, by omega⟩) :=
    slice2_axis1_apply 0 (k0_pay2 (F := Ideal) v0 v4 v9) slices_S256x1536_o0_0_S256x1024 p k ⟨k.val, by omega⟩ (Nat.zero_add _).symm
  rw [e2, pay2_apply]
  rfl

/-- The gates of a tile: the logistic of the normalised gate columns of `x` (already normalised, `v39`) plus the
    normalised gate columns of `hx` (`v19`, normalised here). -/
theorem pay8_apply (v19 v39 : FVec Ideal S256x1024 .f32) (p : Fin 256) (j : Fin 1024) :
    k0_pay8 (F := Ideal) v19 v39 (ix2 p j) = Ideal.logistic (v39 (ix2 p j) + lnK n1024 (fun k => v19 (ix2 p k)) j) := by
  have e : k0_pay8 (F := Ideal) v19 v39
      = logistic (addf v39 (lnTile 0x44800000#32 v19 0x00000000#32 reduces_S256x1024_S256 (.inl rfl) rfl
          shapeCasts_S256_S256x1 broadcasts_S256x1_S256x1024)) := rfl
  rw [e]
  exact congrArg (fun z => Ideal.logistic (v39 (ix2 p j) + z)) (lnTile_apply _ _ _ _ _ _ _ _ p j)

/-- The reset gate: gate columns 0 … 511. -/
theorem pay9_apply (v19 v39 : FVec Ideal S256x1024 .f32) (p : Fin 256) (q : Fin 512) :
    k0_pay9 (F := Ideal) v19 v39 (ix2 p q) = k0_pay8 (F := Ideal) v19 v39 (ix2 p ⟨q.val, by omega⟩) := by
  exact slice2_axis1_apply 0 (k0_pay8 (F := Ideal) v19 v39) slices_S256x1024_o0_0_S256x512 p q ⟨q.val, by omega⟩ (Nat.zero_add _).symm

/-- The update gate: gate columns 512 … 1023. -/
theorem pay10_apply (v19 v39 : FVec Ideal S256x1024 .f32) (p : Fin 256) (q : Fin 512) :
    k0_pay10 (F := Ideal) v19 v39 (ix2 p q) = k0_pay8 (F := Ideal) v19 v39 (ix2 p ⟨512 + q.val, by omega⟩) := by
  exact slice2_axis1_apply 512 (k0_pay8 (F := Ideal) v19 v39) slices_S256x1024_o0_512_S256x512 p q ⟨512 + q.val, by omega⟩ rfl

/-- The normalised candidate columns of a tile. -/
theorem pay11_apply (v20 : FVec Ideal S256x512 .f32) (p : Fin 256) (q : Fin 512) :
    k0_pay11 (F := Ideal) v20 (ix2 p q) = lnK n512 (fun k => v20 (ix2 p k)) q := by
  have e : k0_pay11 (F := Ideal) v20
      = lnTile 0x44000000#32 v20 0x00000000#32 reduces_S256x512_S256 (.inl rfl) rfl shapeCasts_S256_S256x1 broadcasts_S256x1_S256x512 := rfl
  rw [e]
  exact lnTile_apply _ _ _ _ _ _ _ _ p q

/-- The stored tile from its parts: `z·h + (1 − z)·tanh (a + r·ln(b))`, the candidate columns `v21` of `hx` normalised here
    (its row means and row sums of squares are the two column terms). -/
theorem pay1_apply (v1 v21 v60 v61 v79 : FVec Ideal S256x512 .f32) (p : Fin 256) (q : Fin 512) :
    k0_pay1 (F := Ideal) v1 v21 v60 v61 v79 (k0_pay12 (F := Ideal) v21) (k0_pay13 (F := Ideal) v21) (ix2 p q)
      = v61 (ix2 p q) * v1 (ix2 p q)
        + (oneW - v61 (ix2 p q)) * Ideal.tanh (v79 (ix2 p q) + v60 (ix2 p q) * lnK n512 (fun k => v21 (ix2 p k)) q) := by
  have e : k0_pay1 (F := Ideal) v1 v21 v60 v61 v79 (k0_pay12 (F := Ideal) v21) (k0_pay13 (F := Ideal) v21)
      = addf (mulf v61 v1) (mulf (subf (broadcast S256x512 (Scalar.ofBits (F := Ideal) .f32 0x3F800000#32)) v61)
          (tanh (addf v79 (mulf v60 (lnTile 0x44000000#32 v21 0x00000000#32 reduces_S256x512_S256 (.inl rfl) rfl
            shapeCasts_S256_S256x1 broadcasts_S256x1_S256x512))))) := rfl
  rw [e]
  exact congrArg (fun z => v61 (ix2 p q) * v1 (ix2 p q) + (oneW - v61 (ix2 p q)) * Ideal.tanh (v79 (ix2 p q) + v60 (ix2 p q) * z))
    (lnTile_apply _ _ _ _ _ _ _ _ p q)

/-- THE STORED TILE, entry `(p, q)`: the cell of row `p` — the affine rows of `x` and `hx`, the old state's row — with the
    one-pass normalisation. -/
theorem body_apply (x0 x1 : FVec Ideal S256x512 .f32) (x2 : FVec Ideal S512x1536 .bf16) (x3 : FVec Ideal S1x1536 .f32)
    (x4 : FVec Ideal S512x1536 .bf16) (x5 : FVec Ideal S1x1536 .f32) (p : Fin 256) (q : Fin 512) :
    k0_pay1 (F := Ideal) x1 (k0_pay6 x1 x4 x5) (k0_pay9 (k0_pay4 x1 x4 x5) (k0_pay7 x0 x2 x3))
        (k0_pay10 (k0_pay4 x1 x4 x5) (k0_pay7 x0 x2 x3)) (k0_pay11 (k0_pay5 x0 x2 x3))
        (k0_pay12 (k0_pay6 x1 x4 x5)) (k0_pay13 (k0_pay6 x1 x4 x5)) (ix2 p q)
      = cellK (affRow x0 x2 x3 p) (affRow x1 x4 x5 p) (fun k => x1 (ix2 p k)) q := by
  rw [pay1_apply, pay10_apply, pay9_apply, pay8_apply, pay8_apply, pay11_apply, pay7_apply, pay7_apply]
  simp only [pay4_apply, pay5_apply, pay6_apply]
  rfl

end Cert.KernelIdeal.Body

end
-- ==== Proof.GruArray.lean ====
/-
  The whole result array as one function of the six argument arrays: entry `(P, q)` is entry `q` of the cell of batch
  row `P` — the row `P` of `x` and of `hx`, the weight matrices by rows, the biases.
-/
import proofs.«161558_j38414187495805_2_alg».proof.Proof.GruSpec
import Idealize.ShloMosaic.Lib.ValueIdx

noncomputable section

namespace Cert.Gru

open Idealize.ShloMosaic Idealize.ShloMosaic.ValueIdx

/-- The affine row `x[P]·Wᵀ + b` of batch row `P`. -/
def linRow (X : (⟨2, ![16384, 512]⟩ : Shape).Idx → EReal) (W : (⟨2, ![1536, 512]⟩ : Shape).Idx → EReal)
    (b : (⟨1, ![1536]⟩ : Shape).Idx → EReal) (P : Fin 16384) : Fin 1536 → EReal :=
  lin (fun k => X (ix2 P k)) (fun j k => W (ix2 j k)) (fun j => b (ix1 j))

/-- The new state array, with the two normalisations as parameters. -/
def gruOut (ln1 : (Fin 1024 → EReal) → Fin 1024 → EReal) (ln2 : (Fin 512 → EReal) → Fin 512 → EReal)
    (X H : (⟨2, ![16384, 512]⟩ : Shape).Idx → EReal) (Wi : (⟨2, ![1536, 512]⟩ : Shape).Idx → EReal)
    (bi : (⟨1, ![1536]⟩ : Shape).Idx → EReal) (Wh : (⟨2, ![1536, 512]⟩ : Shape).Idx → EReal)
    (bh : (⟨1, ![1536]⟩ : Shape).Idx → EReal) : (⟨2, ![16384, 512]⟩ : Shape).Idx → EReal :=
  fun i => cell ln1 ln2 (linRow X Wi bi (i 0)) (linRow H Wh bh (i 0)) (fun k => H (ix2 (i 0) k)) (i 1)

/-- The new state array with the one-pass normalisation. -/
def gruK := gruOut (lnK n1024) (lnK n512)
/-- The new state array with the two-pass normalisation. -/
def gruR := gruOut (lnR n1024) (lnR n512)

theorem gruOut_apply (ln1 : (Fin 1024 → EReal) → Fin 1024 → EReal) (ln2 : (Fin 512 → EReal) → Fin 512 → EReal)
    (X H : (⟨2, ![16384, 512]⟩ : Shape).Idx → EReal) (Wi : (⟨2, ![1536, 512]⟩ : Shape).Idx → EReal)
    (bi : (⟨1, ![1536]⟩ : Shape).Idx → EReal) (Wh : (⟨2, ![1536, 512]⟩ : Shape).Idx → EReal)
    (bh : (⟨1, ![1536]⟩ : Shape).Idx → EReal) (P : Fin 16384) (q : Fin 512) :
    gruOut ln1 ln2 X H Wi bi Wh bh (ix2 P q)
      = cell ln1 ln2 (linRow X Wi bi P) (linRow H Wh bh P) (fun k => H (ix2 P k)) q := rfl

end Cert.Gru

end
-- ==== Proof.KernelValue.lean ====
/-
  From tiles to the array. The grid has 64 points; point `t` stages rows `256·t … 256·t + 255` of `x` and of `hx`, the whole
  re-laid weight matrices and bias rows, and writes back rows `256·t … 256·t + 255` of the result. The weight matrices the
  tiled unit sees were transposed (and changed in float format, the identity here) by the host before the launch, and the
  biases made one-row matrices; read back, entry `(k, j)` of a re-laid matrix is entry `(j, k)` of the argument. So the
  tile point `t` writes back is block `t` of ONE function of the argument arrays — entry `(P, q)` the cell of batch row `P`
  with the one-pass normalisation —, the 64 blocks cover the array, and the array ends holding that function.
-/
import proofs.«161558_j38414187495805_2_alg».proof.Proof.KernelIdealBlocks
import proofs.«161558_j38414187495805_2_alg».proof.Proof.KernelBody
import proofs.«161558_j38414187495805_2_alg».proof.Proof.GruArray

noncomputable section

open scoped BigOperators

namespace Cert.KernelIdeal.Hand

open Cert.KernelIdeal Cert.KernelIdeal.Gen Cert.KernelIdeal.ValueP Idealize.ShloMosaic Idealize.ShloMosaic.TcCoe Idealize.SL.Sem
open Idealize.ShloMosaic.ValueIdx Cert.Gru Cert.KernelIdeal.Body
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array: the cell of every batch row, one-pass normalisation, of the six argument arrays as launched. -/
abbrev G (c : Dev nD) : S16384x512.Idx → EReal :=
  gruK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The printed index maps, decided over the 64 points: the tiles of `x`, `hx` and of the result sit at block row `t`,
    block column 0; the weights and biases are staged whole (block (0, 0)). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The arrays the host prepared before the launch -/

/-- The first re-laid weight matrix is the first weight argument transposed. -/
theorem V1_eq (c : Dev nD) : (V m c main_v1 : S512x1536.Idx → EReal)
    = (truncf .bf16 (transpose S512x1536 [1, 0] (m ((c : Thread nD τ).loc main_arg2) : FVec Ideal S1536x512 .f32)
        transposes_S1536x512_S512x1536_1_0) bitsLt_bf16_f32 : FVec Ideal S512x1536 .bf16) := by
  dsimp only [V, hostOps0]
  after_results

/-- The second re-laid weight matrix is the second weight argument transposed. -/
theorem V3_eq (c : Dev nD) : (V m c main_v3 : S512x1536.Idx → EReal)
    = (truncf .bf16 (transpose S512x1536 [1, 0] (m ((c : Thread nD τ).loc main_arg4) : FVec Ideal S1536x512 .f32)
        transposes_S1536x512_S512x1536_1_0) bitsLt_bf16_f32 : FVec Ideal S512x1536 .bf16) := by
  dsimp only [V, hostOps0]
  after_results

/-- The first bias row is the first bias argument as a one-row matrix. -/
theorem V4_eq (c : Dev nD) : (V m c main_v4 : S1x1536.Idx → EReal)
    = shapeCast S1x1536 (m ((c : Thread nD τ).loc main_arg3)) shapeCasts_S1536_S1x1536 := by
  dsimp only [V, hostOps0]
  after_results
  rfl

/-- The second bias row is the second bias argument as a one-row matrix. -/
theorem V5_eq (c : Dev nD) : (V m c main_v5 : S1x1536.Idx → EReal)
    = shapeCast S1x1536 (m ((c : Thread nD τ).loc main_arg5)) shapeCasts_S1536_S1x1536 := by
  dsimp only [V, hostOps0]
  after_results
  rfl

/-- A transposed matrix at `(k, j)` is the matrix at `(j, k)`. -/
theorem transposed_apply (W : S1536x512.Idx → EReal) (k : Fin 512) (j : Fin 1536) :
    (truncf .bf16 (transpose S512x1536 [1, 0] W transposes_S1536x512_S512x1536_1_0) bitsLt_bf16_f32 : FVec Ideal S512x1536 .bf16) (ix2 k j)
      = W (ix2 j k) :=
  transpose_apply [1, 0] W transposes_S1536x512_S512x1536_1_0 (ix2 k j) (ix2 j k) (fun b => by
    match b with
    | ⟨0, _⟩ => rfl
    | ⟨1, _⟩ => rfl)

/-! ## The windows' blocks, read at an index -/

/-- Row `p` of the tile of `x` at point `t` is row `256·t + p` of `x`. -/
theorem blk0 (c : Dev nD) (t : Fin cfg0.N) (p : Fin 256) (k : Fin 512) (P : Fin 16384) (hP : P.val = t.val * 256 + p.val) :
    (iblk m c 0 t : FVec Ideal S256x512 .f32) (ix2 p k)
      = (m ((c : Thread nD τ).loc main_arg0) : S16384x512.Idx → EReal) (ix2 P k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 256 + 1 * p.val = P.val; omega
  | ⟨1, _⟩ => show win0_0.index t (1 : Fin 2) * 512 + 1 * k.val = k.val; omega

/-- Row `p` of the tile of `hx` at point `t` is row `256·t + p` of `hx`. -/
theorem blk1 (c : Dev nD) (t : Fin cfg0.N) (p : Fin 256) (k : Fin 512) (P : Fin 16384) (hP : P.val = t.val * 256 + p.val) :
    (iblk m c 1 t : FVec Ideal S256x512 .f32) (ix2 p k)
      = (m ((c : Thread nD τ).loc main_arg1) : S16384x512.Idx → EReal) (ix2 P k) := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 256 + 1 * p.val = P.val; omega
  | ⟨1, _⟩ => show win0_1.index t (1 : Fin 2) * 512 + 1 * k.val = k.val; omega

/-- The staged first weight matrix at `(k, j)` is the first weight argument at `(j, k)`. -/
theorem blk2 (c : Dev nD) (t : Fin cfg0.N) (k : Fin 512) (j : Fin 1536) :
    (iblk m c 2 t : FVec Ideal S512x1536 .bf16) (ix2 k j)
      = (m ((c : Thread nD τ).loc main_arg2) : S1536x512.Idx → EReal) (ix2 j k) := by
  obtain ⟨-, -, -, -, e0, e1, -⟩ := idx_facts t
  unfold iblk
  rw [View.read_apply]
  have hemb : ((cfg0.win 2).blk t).view.emb (ix2 k j) = ix2 k j := funext fun a => Fin.ext (by
    match a with
    | ⟨0, _⟩ => show win0_2.index t (0 : Fin 2) * 512 + 1 * k.val = k.val; omega
    | ⟨1, _⟩ => show win0_2.index t (1 : Fin 2) * 1536 + 1 * j.val = j.val; omega)
  rw [hemb]
  show (V m c main_v1 : S512x1536.Idx → EReal) (ix2 k j) = _
  rw [V1_eq]
  exact transposed_apply _ k j

/-- The staged second weight matrix at `(k, j)` is the second weight argument at `(j, k)`. -/
theorem blk4 (c : Dev nD) (t : Fin cfg0.N) (k : Fin 512) (j : Fin 1536) :
    (iblk m c 4 t : FVec Ideal S512x1536 .bf16) (ix2 k j)
      = (m ((c : Thread nD τ).loc main_arg4) : S1536x512.Idx → EReal) (ix2 j k) := by
  obtain ⟨-, -, -, -, -, -, -, -, e0, e1, -⟩ := idx_facts t
  unfold iblk
  rw [View.read_apply]
  have hemb : ((cfg0.win 4).blk t).view.emb (ix2 k j) = ix2 k j := funext fun a => Fin.ext (by
    match a with
    | ⟨0, _⟩ => show win0_4.index t (0 : Fin 2) * 512 + 1 * k.val = k.val; omega
    | ⟨1, _⟩ => show win0_4.index t (1 : Fin 2) * 1536 + 1 * j.val = j.val; omega)
  rw [hemb]
  show (V m c main_v3 : S512x1536.Idx → EReal) (ix2 k j) = _
  rw [V3_eq]
  exact transposed_apply _ k j

/-- The staged first bias row at column `j` is the first bias argument at `j`. -/
theorem blk3 (c : Dev nD) (t : Fin cfg0.N) (j : Fin 1536) :
    (iblk m c 3 t : FVec Ideal S1x1536 .f32) (ix2 (0 : Fin 1) j)
      = (m ((c : Thread nD τ).loc main_arg3) : S1536.Idx → EReal) (ix1 j) := by
  obtain ⟨-, -, -, -, -, -, e0, e1, -⟩ := idx_facts t
  unfold iblk
  rw [View.read_apply]
  have hemb : ((cfg0.win 3).blk t).view.emb (ix2 (0 : Fin 1) j) = ix2 (0 : Fin 1) j := funext fun a => Fin.ext (by
    match a with
    | ⟨0, _⟩ => show win0_3.index t (0 : Fin 2) * 1 + 1 * 0 = 0; omega
    | ⟨1, _⟩ => show win0_3.index t (1 : Fin 2) * 1536 + 1 * j.val = j.val; omega)
  rw [hemb]
  show (V m c main_v4 : S1x1536.Idx → EReal) (ix2 (0 : Fin 1) j) = _
  rw [V4_eq]
  exact shapeCast_a_1a_apply _ _ 0 j

/-- The staged second bias row at column `j` is the second bias argument at `j`. -/
theorem blk5 (c : Dev nD) (t : Fin cfg0.N) (j : Fin 1536) :
    (iblk m c 5 t : FVec Ideal S1x1536 .f32) (ix2 (0 : Fin 1) j)
      = (m ((c : Thread nD τ).loc main_arg5) : S1536.Idx → EReal) (ix1 j) := by
  obtain ⟨-, -, -, -, -, -, -, -, -, -, e0, e1, -⟩ := idx_facts t
  unfold iblk
  rw [View.read_apply]
  have hemb : ((cfg0.win 5).blk t).view.emb (ix2 (0 : Fin 1) j) = ix2 (0 : Fin 1) j := funext fun a => Fin.ext (by
    match a with
    | ⟨0, _⟩ => show win0_5.index t (0 : Fin 2) * 1 + 1 * 0 = 0; omega
    | ⟨1, _⟩ => show win0_5.index t (1 : Fin 2) * 1536 + 1 * j.val = j.val; omega)
  rw [hemb]
  show (V m c main_v5 : S1x1536.Idx → EReal) (ix2 (0 : Fin 1) j) = _
  rw [V5_eq]
  exact shapeCast_a_1a_apply _ _ 0 j

/-! ## What a point writes back, the cover, the array -/

/-- WHAT POINT `t` WRITES BACK is block `t` of `G`. -/
theorem flushed_eq (c : Dev nD) (t : Fin cfg0.N) :
    (dats m 0 c).flushed 6 t = ((cfg0.win 6).blk t).view.read (Elt Ideal) (G m c) := by
  rw [flushed6]
  unfold out0_6
  rw [View.canon_unit_zero hz]
  simp only [View.ld_unit_zero (S := S256x512) hz, View.ld_unit_zero (S := S512x1536) hz, View.ld_unit_zero (S := S1x1536) hz]
  funext y
  obtain ⟨p, q, rfl⟩ : ∃ (p : Fin 256) (q : Fin 512), y = ix2 p q := ⟨y 0, y 1, eq_ix2 y⟩
  have ht : t.val < 64 := lt_of_lt_of_eq t.isLt (N_0 : cfg0.N = 64)
  obtain ⟨-, -, -, -, -, -, -, -, -, -, -, -, e60, e61⟩ := idx_facts t
  have hemb : ((cfg0.win 6).blk t).view.emb (ix2 p q) = ix2 (⟨t.val * 256 + p.val, by omega⟩ : Fin 16384) q :=
    funext fun a => Fin.ext (by
      match a with
      | ⟨0, _⟩ => show win0_6.index t (0 : Fin 2) * 256 + 1 * p.val = t.val * 256 + p.val; omega
      | ⟨1, _⟩ => show win0_6.index t (1 : Fin 2) * 512 + 1 * q.val = q.val; omega)
  refine (body_apply (iblk m c 0 t) (iblk m c 1 t) (iblk m c 2 t) (iblk m c 3 t) (iblk m c 4 t) (iblk m c 5 t) p q).trans ?_
  show _ = G m c (((cfg0.win 6).blk t).view.emb (ix2 p q))
  rw [hemb]
  show _ = cellK (linRow _ _ _ _) (linRow _ _ _ _) _ q
  have r0 : affRow (iblk m c 0 t) (iblk m c 2 t) (iblk m c 3 t) p
      = linRow (m ((c : Thread nD τ).loc main_arg0)) (m ((c : Thread nD τ).loc main_arg2)) (m ((c : Thread nD τ).loc main_arg3))
          (⟨t.val * 256 + p.val, by omega⟩ : Fin 16384) := funext fun j => by
    dsimp only [affRow, linRow, lin]
    rw [blk3 m c t j]
    refine congrArg (· + _) (Finset.sum_congr rfl fun k _ => ?_)
    rw [blk0 m c t p k ⟨t.val * 256 + p.val, by omega⟩ rfl, blk2 m c t k j]
  have r1 : affRow (iblk m c 1 t) (iblk m c 4 t) (iblk m c 5 t) p
      = linRow (m ((c : Thread nD τ).loc main_arg1)) (m ((c : Thread nD τ).loc main_arg4)) (m ((c : Thread nD τ).loc main_arg5))
          (⟨t.val * 256 + p.val, by omega⟩ : Fin 16384) := funext fun j => by
    dsimp only [affRow, linRow, lin]
    rw [blk5 m c t j]
    refine congrArg (· + _) (Finset.sum_congr rfl fun k _ => ?_)
    rw [blk1 m c t p k ⟨t.val * 256 + p.val, by omega⟩ rfl, blk4 m c t k j]
  have rh : (fun k => (iblk m c 1 t : FVec Ideal S256x512 .f32) (ix2 p k))
      = fun k => (m ((c : Thread nD τ).loc main_arg1) : S16384x512.Idx → EReal) (ix2 (⟨t.val * 256 + p.val, by omega⟩ : Fin 16384) k) :=
    funext fun k => blk1 m c t p k ⟨t.val * 256 + p.val, by omega⟩ rfl
  rw [r0, r1, rh]

/-- An index of the array is in point `t`'s block iff each coordinate is in the block's range on its axis. -/
theorem mem_blk (t : Fin cfg0.N) (i : S16384x512.Idx) :
    i ∈ ((cfg0.win 6).blk t).view.set ↔ ∀ a : Fin 2, win0_6.index t a * S256x512.size a ≤ (i a).val ∧ (i a).val < win0_6.index t a * S256x512.size a + S256x512.size a := by
  show i ∈ ((View.whole main_v6).slice (win0_6.rect t)).set ↔ _
  rw [View.set_slice_whole, Rect.mem_set_unit]
  exact Iff.rfl

/-- Every index of the result array is in the block of the point that holds its row: row `r` is in block `r / 256`. -/
theorem cover (i : S16384x512.Idx) :
    ∃ t : Fin cfg0.N, (cfg0.win 6).flush t = true ∧ i ∈ ((cfg0.win 6).blk t).view.set := by
  have hi0 : (i 0).val < 16384 := (i 0).isLt
  have hi1 : (i 1).val < 512 := (i 1).isLt
  have hN : cfg0.N = 64 := N_0
  have hlt : (i 0).val / 256 < cfg0.N := by rw [hN]; omega
  obtain ⟨-, -, -, -, -, -, -, -, -, -, -, -, e60, e61⟩ := idx_facts ⟨(i 0).val / 256, hlt⟩
  refine ⟨⟨(i 0).val / 256, hlt⟩, flush0_6 _, ?_⟩
  rw [mem_blk]
  intro a
  match a with
  | ⟨0, _⟩ =>
    show win0_6.index ⟨(i 0).val / 256, hlt⟩ (0 : Fin 2) * 256 ≤ (i 0).val ∧ (i 0).val < win0_6.index ⟨(i 0).val / 256, hlt⟩ (0 : Fin 2) * 256 + 256
    rw [e60]
    show (i 0).val / 256 * 256 ≤ (i 0).val ∧ (i 0).val < (i 0).val / 256 * 256 + 256
    omega
  | ⟨1, _⟩ =>
    show win0_6.index ⟨(i 0).val / 256, hlt⟩ (1 : Fin 2) * 512 ≤ (i 1).val ∧ (i 1).val < win0_6.index ⟨(i 0).val / 256, hlt⟩ (1 : Fin 2) * 512 + 512
    rw [e61]
    omega

/-- THE ARRAY after the run is `G`. -/
theorem final (c : Dev nD) : (dats m 0 c).arrAt 6 cfg0.N = G m c :=
  (dats m 0 c).arrAt_eq_of_cover 6 (G m c) (fun t _ => flushed_eq m c t) cover

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Hand

end
-- ==== Proof.RefSpec.lean ====
/-
  The reference's result array as ONE term of its six argument arrays, built from the pieces the program repeats:
  the affine map `x·Wᵀ + b` over all rows, the mean and the variance along a row (the variance as jnp spells it:
  the mean of squared deviations over `n − ddof` with `ddof = 0`, guarded by `n − ddof > 0`), the normalisation
  `(v − mean) / sqrt (var + ε)` for rows of 1024 and of 512 entries, the logistic function spelt `1 / (1 + exp (−a))`,
  and the final combination of the two gates, the candidate and the old state.
-/
import proofs.«161558_j38414187495805_2_alg».proof.Proof.Gen.ReferenceIdeal

noncomputable section

namespace Cert.ReferenceIdeal.RefSpec

open Cert.ReferenceIdeal Cert.ReferenceIdeal.Gen Idealize.ShloMosaic Idealize.ShloMosaic.TcCoe

variable {F : FTy → Type} [FloatOps F]

/-- `x·Wᵀ + b` over all 16384 rows: the weights transposed, the product, the bias made a row and repeated. -/
def lin (x : FVec F S16384x512 .f32) (W : FVec F S1536x512 .f32) (b : FVec F S1536 .f32) : FVec F S16384x1536 .f32 :=
  addf (Host.dotGeneral dot_S16384x512_S512x1536_S16384x1536_1_0_0_1_n_n none x (transpose S512x1536 [1, 0] W transposes_S1536x512_S512x1536_1_0))
    (broadcastInDim S16384x1536 ![0, 1] bcast_S1x1536_S16384x1536_0_1 (broadcastInDim S1x1536 ![1] bcast_S1536_S1x1536_1 b))

/-! ## Rows of 1024 entries -/

/-- The row means, as a column. -/
def mean1024 (v : FVec F S16384x1024 .f32) : FVec F S16384x1 .f32 :=
  Host.divf (broadcastInDim S16384x1 ![0] bcast_S16384_S16384x1_0 (Host.reduceAdd v (constant S_ .f32 0x00000000#32) reducesTo_S16384x1024_S16384_d1 h_S_))
    (broadcastInDim S16384x1 ![] bcast_S_S16384x1 (constant S_ .f32 0x44800000#32))

/-- The deviations from the row mean. -/
def dev1024 (v : FVec F S16384x1024 .f32) : FVec F S16384x1024 .f32 :=
  subf v (broadcastInDim S16384x1024 ![0, 1] bcast_S16384x1_S16384x1024_0_1 (mean1024 v))

/-- `n − ddof` with `n = 1024`, `ddof = 0`. -/
def cnt1024 : FVec F S_ .f32 := subf (constant S_ .f32 0x44800000#32) (sitofp .f32 (constantI S_ 32 0#32))

/-- The row variances, as a column: the mean of squared deviations where `n − ddof > 0`, a NaN word elsewhere. -/
def var1024 (v : FVec F S16384x1024 .f32) : FVec F S16384x1 .f32 :=
  select (broadcastInDim S16384x1 ![] bcast_S_S16384x1 (cmpf .ogt (cnt1024 (F := F)) (constant S_ .f32 0x00000000#32)))
    (Host.divf (broadcastInDim S16384x1 ![0] bcast_S16384_S16384x1_0
        (Host.reduceAdd (mulf (dev1024 v) (dev1024 v)) (constant S_ .f32 0x00000000#32) reducesTo_S16384x1024_S16384_d1 h_S_))
      (broadcastInDim S16384x1 ![] bcast_S_S16384x1 (cnt1024 (F := F))))
    (broadcastInDim S16384x1 ![] bcast_S_S16384x1 (id (constant S_ .f32 0x7FC00000#32)))

/-- The normalisation of every row. -/
def ln1024 (v : FVec F S16384x1024 .f32) : FVec F S16384x1024 .f32 :=
  Host.divf (dev1024 v)
    (broadcastInDim S16384x1024 ![0, 1] bcast_S16384x1_S16384x1024_0_1
      (Host.sqrt (addf (var1024 v) (broadcastInDim S16384x1 ![] bcast_S_S16384x1 (constant S_ .f32 0x3727C5AC#32)))))

/-- The logistic function, spelt `1 / (1 + exp (−a))`. -/
def sig1024 (a : FVec F S16384x1024 .f32) : FVec F S16384x1024 .f32 :=
  Host.divf (broadcastInDim S16384x1024 ![] bcast_S_S16384x1024 (constant S_ .f32 0x3F800000#32))
    (addf (broadcastInDim S16384x1024 ![] bcast_S_S16384x1024 (constant S_ .f32 0x3F800000#32)) (Host.exp (Host.negf a)))

/-! ## Rows of 512 entries -/

/-- The row means, as a column. -/
def mean512 (v : FVec F S16384x512 .f32) : FVec F S16384x1 .f32 :=
  Host.divf (broadcastInDim S16384x1 ![0] bcast_S16384_S16384x1_0 (Host.reduceAdd v (constant S_ .f32 0x00000000#32) reducesTo_S16384x512_S16384_d1 h_S_))
    (broadcastInDim S16384x1 ![] bcast_S_S16384x1 (constant S_ .f32 0x44000000#32))

/-- The deviations from the row mean. -/
def dev512 (v : FVec F S16384x512 .f32) : FVec F S16384x512 .f32 :=
  subf v (broadcastInDim S16384x512 ![0, 1] bcast_S16384x1_S16384x512_0_1 (mean512 v))

/-- `n − ddof` with `n = 512`, `ddof = 0`. -/
def cnt512 : FVec F S_ .f32 := subf (constant S_ .f32 0x44000000#32) (sitofp .f32 (constantI S_ 32 0#32))

/-- The row variances, as a column. -/
def var512 (v : FVec F S16384x512 .f32) : FVec F S16384x1 .f32 :=
  select (broadcastInDim S16384x1 ![] bcast_S_S16384x1 (cmpf .ogt (cnt512 (F := F)) (constant S_ .f32 0x00000000#32)))
    (Host.divf (broadcastInDim S16384x1 ![0] bcast_S16384_S16384x1_0
        (Host.reduceAdd (mulf (dev512 v) (dev512 v)) (constant S_ .f32 0x00000000#32) reducesTo_S16384x512_S16384_d1 h_S_))
      (broadcastInDim S16384x1 ![] bcast_S_S16384x1 (cnt512 (F := F))))
    (broadcastInDim S16384x1 ![] bcast_S_S16384x1 (id (constant S_ .f32 0x7FC00000#32)))

/-- The normalisation of every row. -/
def ln512 (v : FVec F S16384x512 .f32) : FVec F S16384x512 .f32 :=
  Host.divf (dev512 v)
    (broadcastInDim S16384x512 ![0, 1] bcast_S16384x1_S16384x512_0_1
      (Host.sqrt (addf (var512 v) (broadcastInDim S16384x1 ![] bcast_S_S16384x1 (constant S_ .f32 0x3727C5AC#32)))))

/-! ## The whole result -/

/-- The gates: the logistic of the two normalised gate parts added, all 1024 columns. -/
def gates (xt ht : FVec F S16384x1536 .f32) : FVec F S16384x1024 .f32 :=
  sig1024 (addf (ln1024 (extractStridedSlice S16384x1024 ![0, 0] xt slices_S16384x1536_S16384x1024_0_0))
    (ln1024 (extractStridedSlice S16384x1024 ![0, 0] ht slices_S16384x1536_S16384x1024_0_0)))

/-- The new state from the two affine arrays and the old state. -/
def combine (xt ht : FVec F S16384x1536 .f32) (hx : FVec F S16384x512 .f32) : FVec F S16384x512 .f32 :=
  addf (mulf (extractStridedSlice S16384x512 ![0, 512] (gates xt ht) slices_S16384x1024_S16384x512_0_512) hx)
    (mulf (subf (broadcastInDim S16384x512 ![] bcast_S_S16384x512 (constant S_ .f32 0x3F800000#32))
        (extractStridedSlice S16384x512 ![0, 512] (gates xt ht) slices_S16384x1024_S16384x512_0_512))
      (Host.tanh (addf (ln512 (extractStridedSlice S16384x512 ![0, 1024] xt slices_S16384x1536_S16384x512_0_1024))
        (mulf (extractStridedSlice S16384x512 ![0, 0] (gates xt ht) slices_S16384x1024_S16384x512_0_0)
          (ln512 (extractStridedSlice S16384x512 ![0, 1024] ht slices_S16384x1536_S16384x512_0_1024))))))

/-- The reference's result array as a function of its six argument arrays. -/
def refOut (x hx : FVec F S16384x512 .f32) (Wi : FVec F S1536x512 .f32) (bi : FVec F S1536 .f32)
    (Wh : FVec F S1536x512 .f32) (bh : FVec F S1536 .f32) : FVec F S16384x512 .f32 :=
  combine (lin x Wi bi) (lin hx Wh bh) hx

end Cert.ReferenceIdeal.RefSpec

end
-- ==== Proof.RefRun.lean ====
/-
  The reference program's run, read back as ONE term of its six argument arrays.

  The program is a straight line: its entry function's 99 statements, four of them calls of the row variance that
  was outlined as a function of its own (itself calling the three-operation selection `where`). A call executes
  the callee's body on the operands, each value of the body in a buffer the call names, so with the calls unfolded
  the program is a list of 186 elementary operations, each writing one buffer from the buffers it reads. Running
  the list from contents `V` folds the operations' results over `V` (`after`), and what the result buffer holds
  at the end is a composition of the operations' functions applied to the argument arrays.

  That composition is read off in seven pieces, cut where the mathematics is cut:
    1. the two affine maps `xt = x·Wiᵀ + bi`, `ht = hx·Whᵀ + bh` and the column ranges taken from them;
    2. the normalisation `(v − mean) / sqrt (var + ε)` of the gate columns of `xt`, and 3. of those of `ht`;
    4. the gates: the logistic function of the sum of the two, and its two halves (reset, update);
    5. the normalisation of the candidate columns of `xt`, and 6. of those of `ht`;
    7. the combination `update · hx + (1 − update) · tanh (xt-part + reset · ht-part)`.
  For each piece, over ARBITRARY contents `W` before it, two things are proved: what it leaves in the buffers
  later pieces read, as the matching definition of the specification applied to `W` at the buffers it reads; and
  that a buffer it does not write keeps its contents. The fold over a concatenation is the composition of the
  folds, so the seven compose: each piece's inputs are the previous pieces' outputs, carried unchanged across the
  pieces between. The argument arrays are written by no operation at all, hence unchanged at the end.
-/
import proofs.«161558_j38414187495805_2_alg».proof.Proof.RefSpec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program as a list of operations

Each list is a consecutive stretch of the program, calls unfolded: an operation of a callee is listed where the
call stands, over the call's record of buffers (`main_call0.v3` is value `%3` of the callee's body in call 0;
`main_call0.call0.v2`, the nested selection's result, is the buffer the caller reads the call's result from). -/

/-- Piece 1: both affine maps and three of the column ranges. Reads the six arguments; later pieces read `main_v9`
    (`ht`), `main_v10` and `main_v11` (the candidate columns of `xt` and of `ht`) and `main_v12` (the gate columns of `xt`). -/
abbrev opsLin : List (HloOp τ sig (Elt F)) :=
  [ unary main_arg2 main_v0 (transpose S512x1536 [1, 0] · transposes_S1536x512_S512x1536_1_0),  -- Wiᵀ
    binary main_arg0 main_v0 main_v1 (fun l r => Host.dotGeneral dot_S16384x512_S512x1536_S16384x1536_1_0_0_1_n_n none l r),  -- x·Wiᵀ
    unary main_arg3 main_v2 (broadcastInDim S1x1536 ![1] bcast_S1536_S1x1536_1),
    unary main_v2 main_v3 (broadcastInDim S16384x1536 ![0, 1] bcast_S1x1536_S16384x1536_0_1),  -- bi as a row, repeated down the 16384 rows
    binary main_v1 main_v3 main_v4 addf,  -- xt = x·Wiᵀ + bi
    unary main_arg4 main_v5 (transpose S512x1536 [1, 0] · transposes_S1536x512_S512x1536_1_0),  -- Whᵀ
    binary main_arg1 main_v5 main_v6 (fun l r => Host.dotGeneral dot_S16384x512_S512x1536_S16384x1536_1_0_0_1_n_n none l r),  -- hx·Whᵀ
    unary main_arg5 main_v7 (broadcastInDim S1x1536 ![1] bcast_S1536_S1x1536_1),
    unary main_v7 main_v8 (broadcastInDim S16384x1536 ![0, 1] bcast_S1x1536_S16384x1536_0_1),  -- bh as a row, repeated
    binary main_v6 main_v8 main_v9 addf,  -- ht = hx·Whᵀ + bh
    unary main_v4 main_v10 (extractStridedSlice S16384x512 ![0, 1024] · slices_S16384x1536_S16384x512_0_1024),  -- xt's candidate columns 1024 … 1535
    unary main_v9 main_v11 (extractStridedSlice S16384x512 ![0, 1024] · slices_S16384x1536_S16384x512_0_1024),  -- ht's candidate columns 1024 … 1535
    unary main_v4 main_v12 (extractStridedSlice S16384x1024 ![0, 0] · slices_S16384x1536_S16384x1024_0_0) ]  -- xt's gate columns 0 … 1023

/-- Piece 2: the gate columns of `xt` (`main_v12`), normalised into `main_v24`: the row means, the row variances by
    the outlined function (call 0), the deviations over the square root of variance plus ε. -/
abbrev opsNormXg : List (HloOp τ sig (Elt F)) :=
  [ nullary main_cst (constant S_ .f32 0x00000000#32),
    binary main_v12 main_cst main_v13 (fun x v => Host.reduceAdd x v reducesTo_S16384x1024_S16384_d1 h_S_),  -- the row sums
    unary main_v13 main_v14 (broadcastInDim S16384x1 ![0] bcast_S16384_S16384x1_0),
    nullary main_cst_0 (constant S_ .f32 0x44800000#32),
    unary main_cst_0 main_v15 (broadcastInDim S16384x1 ![] bcast_S_S16384x1),
    binary main_v14 main_v15 main_v16 Host.divf,  -- the row means, a column
    nullary main_c (constantI S_ 32 0#32),  -- ddof = 0
    -- the call of the row variance on the same array (ddof its second argument), unfolded: its values in the call's buffers
    TRef.nullary main_call0.cst (constant S_ .f32 0x00000000#32),
    TRef.binary (.of main_v12) main_call0.cst main_call0.v0 (fun x v => Host.reduceAdd x v reducesTo_S16384x1024_S16384_d1 h_S_),  -- the row sums
    TRef.unary main_call0.v0 main_call0.v1 (broadcastInDim S16384x1 ![0] bcast_S16384_S16384x1_0),
    TRef.nullary main_call0.cst_0 (constant S_ .f32 0x44800000#32),
    TRef.unary main_call0.cst_0 main_call0.v2 (broadcastInDim S16384x1 ![] bcast_S_S16384x1),
    TRef.binary main_call0.v1 main_call0.v2 main_call0.v3 Host.divf,  -- the row means
    TRef.unary main_call0.v3 main_call0.v4 (broadcastInDim S16384x1024 ![0, 1] bcast_S16384x1_S16384x1024_0_1),
    TRef.binary (.of main_v12) main_call0.v4 main_call0.v5 subf,  -- the deviations
    TRef.binary main_call0.v5 main_call0.v5 main_call0.v6 mulf,  -- squared
    TRef.unary (.of main_c) main_call0.v7 (sitofp .f32),  -- ddof as a float
    TRef.nullary main_call0.cst_1 (constant S_ .f32 0x44800000#32),
    TRef.binary main_call0.cst_1 main_call0.v7 main_call0.v8 subf,  -- n − ddof
    TRef.nullary main_call0.cst_2 (constant S_ .f32 0x00000000#32),
    TRef.binary main_call0.v6 main_call0.cst_2 main_call0.v9 (fun x v => Host.reduceAdd x v reducesTo_S16384x1024_S16384_d1 h_S_),  -- the row sums of the squares
    TRef.unary main_call0.v9 main_call0.v10 (broadcastInDim S16384x1 ![0] bcast_S16384_S16384x1_0),
    TRef.unary main_call0.v8 main_call0.v11 (broadcastInDim S16384x1 ![] bcast_S_S16384x1),
    TRef.binary main_call0.v10 main_call0.v11 main_call0.v12 Host.divf,  -- the mean of squared deviations over n − ddof
    TRef.nullary main_call0.cst_3 (constant S_ .f32 0x00000000#32),
    TRef.binary main_call0.v8 main_call0.cst_3 main_call0.v13 (cmpf .ogt),  -- n − ddof > 0
    TRef.nullary main_call0.cst_4 (constant S_ .f32 0x7FC00000#32),  -- the NaN word
    TRef.unary main_call0.cst_4 main_call0.call0.v0 id,  -- the NaN word, converted to its own type
    TRef.unary main_call0.call0.v0 main_call0.call0.v1 (broadcastInDim S16384x1 ![] bcast_S_S16384x1),  -- repeated down the column
    TRef.ternary main_call0.v13 main_call0.v12 main_call0.call0.v1 main_call0.call0.v2 (fun p a b => select (broadcastInDim S16384x1 ![] bcast_S_S16384x1 p) a b),  -- the row variances, in `main_v17`: the quotient where n − ddof > 0, the NaN word elsewhere
    unary main_v16 main_v18 (broadcastInDim S16384x1024 ![0, 1] bcast_S16384x1_S16384x1024_0_1),  -- the means repeated along the rows
    binary main_v12 main_v18 main_v19 subf,  -- the deviations from the row mean
    nullary main_cst_1 (constant S_ .f32 0x3727C5AC#32),
    unary main_cst_1 main_v20 (broadcastInDim S16384x1 ![] bcast_S_S16384x1),
    binary main_v17 main_v20 main_v21 addf,  -- variance + ε
    unary main_v21 main_v22 Host.sqrt,  -- its square root
    unary main_v22 main_v23 (broadcastInDim S16384x1024 ![0, 1] bcast_S16384x1_S16384x1024_0_1),
    binary main_v19 main_v23 main_v24 Host.divf ]  -- the gate columns of xt, normalised

/-- Piece 3: the gate columns of `ht` (a slice of `main_v9`), normalised into `main_v37` the same way (call 1). -/
abbrev opsNormHg : List (HloOp τ sig (Elt F)) :=
  [ unary main_v9 main_v25 (extractStridedSlice S16384x1024 ![0, 0] · slices_S16384x1536_S16384x1024_0_0),  -- ht's gate columns 0 … 1023
    nullary main_cst_2 (constant S_ .f32 0x00000000#32),
    binary main_v25 main_cst_2 main_v26 (fun x v => Host.reduceAdd x v reducesTo_S16384x1024_S16384_d1 h_S_),  -- the row sums
    unary main_v26 main_v27 (broadcastInDim S16384x1 ![0] bcast_S16384_S16384x1_0),
    nullary main_cst_3 (constant S_ .f32 0x44800000#32),
    unary main_cst_3 main_v28 (broadcastInDim S16384x1 ![] bcast_S_S16384x1),
    binary main_v27 main_v28 main_v29 Host.divf,  -- the row means, a column
    nullary main_c_4 (constantI S_ 32 0#32),  -- ddof = 0
    -- the call of the row variance on the same array (ddof its second argument), unfolded: its values in the call's buffers
    TRef.nullary main_call1.cst (constant S_ .f32 0x00000000#32),
    TRef.binary (.of main_v25) main_call1.cst main_call1.v0 (fun x v => Host.reduceAdd x v reducesTo_S16384x1024_S16384_d1 h_S_),  -- the row sums
    TRef.unary main_call1.v0 main_call1.v1 (broadcastInDim S16384x1 ![0] bcast_S16384_S16384x1_0),
    TRef.nullary main_call1.cst_0 (constant S_ .f32 0x44800000#32),
    TRef.unary main_call1.cst_0 main_call1.v2 (broadcastInDim S16384x1 ![] bcast_S_S16384x1),
    TRef.binary main_call1.v1 main_call1.v2 main_call1.v3 Host.divf,  -- the row means
    TRef.unary main_call1.v3 main_call1.v4 (broadcastInDim S16384x1024 ![0, 1] bcast_S16384x1_S16384x1024_0_1),
    TRef.binary (.of main_v25) main_call1.v4 main_call1.v5 subf,  -- the deviations
    TRef.binary main_call1.v5 main_call1.v5 main_call1.v6 mulf,  -- squared
    TRef.unary (.of main_c_4) main_call1.v7 (sitofp .f32),  -- ddof as a float
    TRef.nullary main_call1.cst_1 (constant S_ .f32 0x44800000#32),
    TRef.binary main_call1.cst_1 main_call1.v7 main_call1.v8 subf,  -- n − ddof
    TRef.nullary main_call1.cst_2 (constant S_ .f32 0x00000000#32),
    TRef.binary main_call1.v6 main_call1.cst_2 main_call1.v9 (fun x v => Host.reduceAdd x v reducesTo_S16384x1024_S16384_d1 h_S_),  -- the row sums of the squares
    TRef.unary main_call1.v9 main_call1.v10 (broadcastInDim S16384x1 ![0] bcast_S16384_S16384x1_0),
    TRef.unary main_call1.v8 main_call1.v11 (broadcastInDim S16384x1 ![] bcast_S_S16384x1),
    TRef.binary main_call1.v10 main_call1.v11 main_call1.v12 Host.divf,  -- the mean of squared deviations over n − ddof
    TRef.nullary main_call1.cst_3 (constant S_ .f32 0x00000000#32),
    TRef.binary main_call1.v8 main_call1.cst_3 main_call1.v13 (cmpf .ogt),  -- n − ddof > 0
    TRef.nullary main_call1.cst_4 (constant S_ .f32 0x7FC00000#32),  -- the NaN word
    TRef.unary main_call1.cst_4 main_call1.call0.v0 id,  -- the NaN word, converted to its own type
    TRef.unary main_call1.call0.v0 main_call1.call0.v1 (broadcastInDim S16384x1 ![] bcast_S_S16384x1),  -- repeated down the column
    TRef.ternary main_call1.v13 main_call1.v12 main_call1.call0.v1 main_call1.call0.v2 (fun p a b => select (broadcastInDim S16384x1 ![] bcast_S_S16384x1 p) a b),  -- the row variances, in `main_v30`: the quotient where n − ddof > 0, the NaN word elsewhere
    unary main_v29 main_v31 (broadcastInDim S16384x1024 ![0, 1] bcast_S16384x1_S16384x1024_0_1),
    binary main_v25 main_v31 main_v32 subf,  -- the deviations from the row mean
    nullary main_cst_5 (constant S_ .f32 0x3727C5AC#32),
    unary main_cst_5 main_v33 (broadcastInDim S16384x1 ![] bcast_S_S16384x1),
    binary main_v30 main_v33 main_v34 addf,  -- variance + ε
    unary main_v34 main_v35 Host.sqrt,
    unary main_v35 main_v36 (broadcastInDim S16384x1024 ![0, 1] bcast_S16384x1_S16384x1024_0_1),
    binary main_v32 main_v36 main_v37 Host.divf ]  -- the gate columns of ht, normalised

/-- Piece 4: the gates. The logistic function `1 / (1 + exp (−a))` of the sum `a` of the two normalised gate parts,
    then its two halves: the reset gate `main_v45`, the update gate `main_v46`. -/
abbrev opsGates : List (HloOp τ sig (Elt F)) :=
  [ binary main_v24 main_v37 main_v38 addf,  -- the two normalised gate parts added
    unary main_v38 main_v39 Host.negf,  -- negated
    unary main_v39 main_v40 Host.exp,  -- exp (−a)
    nullary main_cst_6 (constant S_ .f32 0x3F800000#32),
    unary main_cst_6 main_v41 (broadcastInDim S16384x1024 ![] bcast_S_S16384x1024),
    binary main_v41 main_v40 main_v42 addf,  -- 1 + exp (−a)
    nullary main_cst_7 (constant S_ .f32 0x3F800000#32),
    unary main_cst_7 main_v43 (broadcastInDim S16384x1024 ![] bcast_S_S16384x1024),
    binary main_v43 main_v42 main_v44 Host.divf,  -- the gates 1 / (1 + exp (−a)), all 1024 columns
    unary main_v44 main_v45 (extractStridedSlice S16384x512 ![0, 0] · slices_S16384x1024_S16384x512_0_0),  -- the reset gate: columns 0 … 511
    unary main_v44 main_v46 (extractStridedSlice S16384x512 ![0, 512] · slices_S16384x1024_S16384x512_0_512) ]  -- the update gate: columns 512 … 1023

/-- Piece 5, first stretch: the row sums of the candidate columns of `xt` (`main_v10`), as a column. The program's
    statements are printed in two windows and the first ends here; the piece goes on in the next list. -/
abbrev opsNormXc0 : List (HloOp τ sig (Elt F)) :=
  [ nullary main_cst_8 (constant S_ .f32 0x00000000#32),
    binary main_v10 main_cst_8 main_v47 (fun x v => Host.reduceAdd x v reducesTo_S16384x512_S16384_d1 h_S_),  -- the row sums
    unary main_v47 main_v48 (broadcastInDim S16384x1 ![0] bcast_S16384_S16384x1_0) ]  -- as a column

/-- Piece 5, second stretch: from those row sums, the candidate columns of `xt` normalised into `main_v58` (call 2,
    rows of 512 entries). -/
abbrev opsNormXc1 : List (HloOp τ sig (Elt F)) :=
  [ nullary main_cst_9 (constant S_ .f32 0x44000000#32),
    unary main_cst_9 main_v49 (broadcastInDim S16384x1 ![] bcast_S_S16384x1),
    binary main_v48 main_v49 main_v50 Host.divf,  -- the row means, a column
    nullary main_c_10 (constantI S_ 32 0#32),  -- ddof = 0
    -- the call of the row variance on the same array (ddof its second argument), unfolded: its values in the call's buffers
    TRef.nullary main_call2.cst (constant S_ .f32 0x00000000#32),
    TRef.binary (.of main_v10) main_call2.cst main_call2.v0 (fun x v => Host.reduceAdd x v reducesTo_S16384x512_S16384_d1 h_S_),  -- the row sums
    TRef.unary main_call2.v0 main_call2.v1 (broadcastInDim S16384x1 ![0] bcast_S16384_S16384x1_0),
    TRef.nullary main_call2.cst_0 (constant S_ .f32 0x44000000#32),
    TRef.unary main_call2.cst_0 main_call2.v2 (broadcastInDim S16384x1 ![] bcast_S_S16384x1),
    TRef.binary main_call2.v1 main_call2.v2 main_call2.v3 Host.divf,  -- the row means
    TRef.unary main_call2.v3 main_call2.v4 (broadcastInDim S16384x512 ![0, 1] bcast_S16384x1_S16384x512_0_1),
    TRef.binary (.of main_v10) main_call2.v4 main_call2.v5 subf,  -- the deviations
    TRef.binary main_call2.v5 main_call2.v5 main_call2.v6 mulf,  -- squared
    TRef.unary (.of main_c_10) main_call2.v7 (sitofp .f32),  -- ddof as a float
    TRef.nullary main_call2.cst_1 (constant S_ .f32 0x44000000#32),
    TRef.binary main_call2.cst_1 main_call2.v7 main_call2.v8 subf,  -- n − ddof
    TRef.nullary main_call2.cst_2 (constant S_ .f32 0x00000000#32),
    TRef.binary main_call2.v6 main_call2.cst_2 main_call2.v9 (fun x v => Host.reduceAdd x v reducesTo_S16384x512_S16384_d1 h_S_),  -- the row sums of the squares
    TRef.unary main_call2.v9 main_call2.v10 (broadcastInDim S16384x1 ![0] bcast_S16384_S16384x1_0),
    TRef.unary main_call2.v8 main_call2.v11 (broadcastInDim S16384x1 ![] bcast_S_S16384x1),
    TRef.binary main_call2.v10 main_call2.v11 main_call2.v12 Host.divf,  -- the mean of squared deviations over n − ddof
    TRef.nullary main_call2.cst_3 (constant S_ .f32 0x00000000#32),
    TRef.binary main_call2.v8 main_call2.cst_3 main_call2.v13 (cmpf .ogt),  -- n − ddof > 0
    TRef.nullary main_call2.cst_4 (constant S_ .f32 0x7FC00000#32),  -- the NaN word
    TRef.unary main_call2.cst_4 main_call2.call0.v0 id,  -- the NaN word, converted to its own type
    TRef.unary main_call2.call0.v0 main_call2.call0.v1 (broadcastInDim S16384x1 ![] bcast_S_S16384x1),  -- repeated down the column
    TRef.ternary main_call2.v13 main_call2.v12 main_call2.call0.v1 main_call2.call0.v2 (fun p a b => select (broadcastInDim S16384x1 ![] bcast_S_S16384x1 p) a b),  -- the row variances, in `main_v51`: the quotient where n − ddof > 0, the NaN word elsewhere
    unary main_v50 main_v52 (broadcastInDim S16384x512 ![0, 1] bcast_S16384x1_S16384x512_0_1),
    binary main_v10 main_v52 main_v53 subf,  -- the deviations from the row mean
    nullary main_cst_11 (constant S_ .f32 0x3727C5AC#32),
    unary main_cst_11 main_v54 (broadcastInDim S16384x1 ![] bcast_S_S16384x1),
    binary main_v51 main_v54 main_v55 addf,  -- variance + ε
    unary main_v55 main_v56 Host.sqrt,
    unary main_v56 main_v57 (broadcastInDim S16384x512 ![0, 1] bcast_S16384x1_S16384x512_0_1),
    binary main_v53 main_v57 main_v58 Host.divf ]  -- the candidate columns of xt, normalised

/-- Piece 6: the candidate columns of `ht` (`main_v11`), normalised into `main_v70` (call 3). -/
abbrev opsNormHc : List (HloOp τ sig (Elt F)) :=
  [ nullary main_cst_12 (constant S_ .f32 0x00000000#32),
    binary main_v11 main_cst_12 main_v59 (fun x v => Host.reduceAdd x v reducesTo_S16384x512_S16384_d1 h_S_),  -- the row sums
    unary main_v59 main_v60 (broadcastInDim S16384x1 ![0] bcast_S16384_S16384x1_0),
    nullary main_cst_13 (constant S_ .f32 0x44000000#32),
    unary main_cst_13 main_v61 (broadcastInDim S16384x1 ![] bcast_S_S16384x1),
    binary main_v60 main_v61 main_v62 Host.divf,  -- the row means, a column
    nullary main_c_14 (constantI S_ 32 0#32),  -- ddof = 0
    -- the call of the row variance on the same array (ddof its second argument), unfolded: its values in the call's buffers
    TRef.nullary main_call3.cst (constant S_ .f32 0x00000000#32),
    TRef.binary (.of main_v11) main_call3.cst main_call3.v0 (fun x v => Host.reduceAdd x v reducesTo_S16384x512_S16384_d1 h_S_),  -- the row sums
    TRef.unary main_call3.v0 main_call3.v1 (broadcastInDim S16384x1 ![0] bcast_S16384_S16384x1_0),
    TRef.nullary main_call3.cst_0 (constant S_ .f32 0x44000000#32),
    TRef.unary main_call3.cst_0 main_call3.v2 (broadcastInDim S16384x1 ![] bcast_S_S16384x1),
    TRef.binary main_call3.v1 main_call3.v2 main_call3.v3 Host.divf,  -- the row means
    TRef.unary main_call3.v3 main_call3.v4 (broadcastInDim S16384x512 ![0, 1] bcast_S16384x1_S16384x512_0_1),
    TRef.binary (.of main_v11) main_call3.v4 main_call3.v5 subf,  -- the deviations
    TRef.binary main_call3.v5 main_call3.v5 main_call3.v6 mulf,  -- squared
    TRef.unary (.of main_c_14) main_call3.v7 (sitofp .f32),  -- ddof as a float
    TRef.nullary main_call3.cst_1 (constant S_ .f32 0x44000000#32),
    TRef.binary main_call3.cst_1 main_call3.v7 main_call3.v8 subf,  -- n − ddof
    TRef.nullary main_call3.cst_2 (constant S_ .f32 0x00000000#32),
    TRef.binary main_call3.v6 main_call3.cst_2 main_call3.v9 (fun x v => Host.reduceAdd x v reducesTo_S16384x512_S16384_d1 h_S_),  -- the row sums of the squares
    TRef.unary main_call3.v9 main_call3.v10 (broadcastInDim S16384x1 ![0] bcast_S16384_S16384x1_0),
    TRef.unary main_call3.v8 main_call3.v11 (broadcastInDim S16384x1 ![] bcast_S_S16384x1),
    TRef.binary main_call3.v10 main_call3.v11 main_call3.v12 Host.divf,  -- the mean of squared deviations over n − ddof
    TRef.nullary main_call3.cst_3 (constant S_ .f32 0x00000000#32),
    TRef.binary main_call3.v8 main_call3.cst_3 main_call3.v13 (cmpf .ogt),  -- n − ddof > 0
    TRef.nullary main_call3.cst_4 (constant S_ .f32 0x7FC00000#32),  -- the NaN word
    TRef.unary main_call3.cst_4 main_call3.call0.v0 id,  -- the NaN word, converted to its own type
    TRef.unary main_call3.call0.v0 main_call3.call0.v1 (broadcastInDim S16384x1 ![] bcast_S_S16384x1),  -- repeated down the column
    TRef.ternary main_call3.v13 main_call3.v12 main_call3.call0.v1 main_call3.call0.v2 (fun p a b => select (broadcastInDim S16384x1 ![] bcast_S_S16384x1 p) a b),  -- the row variances, in `main_v63`: the quotient where n − ddof > 0, the NaN word elsewhere
    unary main_v62 main_v64 (broadcastInDim S16384x512 ![0, 1] bcast_S16384x1_S16384x512_0_1),
    binary main_v11 main_v64 main_v65 subf,  -- the deviations from the row mean
    nullary main_cst_15 (constant S_ .f32 0x3727C5AC#32),
    unary main_cst_15 main_v66 (broadcastInDim S16384x1 ![] bcast_S_S16384x1),
    binary main_v63 main_v66 main_v67 addf,  -- variance + ε
    unary main_v67 main_v68 Host.sqrt,
    unary main_v68 main_v69 (broadcastInDim S16384x512 ![0, 1] bcast_S16384x1_S16384x512_0_1),
    binary main_v65 main_v69 main_v70 Host.divf ]  -- the candidate columns of ht, normalised

/-- Piece 7: the new state `main_v78 = update · hx + (1 − update) · tanh (xt-part + reset · ht-part)`; it reads the
    old state `hx` from its argument buffer `main_arg1`. -/
abbrev opsCombine : List (HloOp τ sig (Elt F)) :=
  [ binary main_v45 main_v70 main_v71 mulf,  -- reset gate · normalised ht part
    binary main_v58 main_v71 main_v72 addf,  -- normalised xt part + that
    unary main_v72 main_v73 Host.tanh,  -- the candidate state
    binary main_v46 main_arg1 main_v74 mulf,  -- update gate · old state
    nullary main_cst_16 (constant S_ .f32 0x3F800000#32),
    unary main_cst_16 main_v75 (broadcastInDim S16384x512 ![] bcast_S_S16384x512),
    binary main_v75 main_v46 main_v76 subf,  -- 1 − update gate
    binary main_v76 main_v73 main_v77 mulf,  -- (1 − update gate) · candidate
    binary main_v74 main_v77 main_v78 addf ]  -- the new state

/-- The whole program: the first five lists are its first window of statements, the last three its second. -/
abbrev ops : List (HloOp τ sig (Elt F)) :=
  (opsLin ++ (opsNormXg ++ (opsNormHg ++ (opsGates ++ opsNormXc0)))) ++ (opsNormXc1 ++ (opsNormHc ++ opsCombine))

/-! ## The program IS that list

Unfolding the callees at their calls and the records at their fields leaves, on both sides, one chain of
elementary steps once sequencing is re-associated (`(a; b); c = a; (b; c)`, and a callee's final `return` in
front of the caller's next statement disappears); what remains is an equality by computation. -/

-- a hundred-odd binds re-associated: the rewriting recurses once per statement
set_option maxRecDepth 8192 in
/-- The first window of statements is the first five lists in a row. -/
theorem part0_eq (c : Dev nD) :
    main_part0 (F := F) c = seq (opsLin ++ (opsNormXg ++ (opsNormHg ++ (opsGates ++ opsNormXc0)))) := by
  simp only [main_part0, fn_var.body, fn_where.body, bind_assoc, pure_bind]
  rfl

set_option maxRecDepth 8192 in
/-- The second window is the last three. -/
theorem part1_eq (c : Dev nD) : main_part1 (F := F) c = seq (opsNormXc1 ++ (opsNormHc ++ opsCombine)) := by
  simp only [main_part1, fn_var_0.body, fn_where.body, bind_assoc, pure_bind]
  rfl

/-- The entry function runs its two windows in order, and two lines run in order are their concatenation. -/
theorem main_eq (c : Dev nD) : main (F := F) c = seq ops := by
  rw [seq_append, ← part0_eq c, ← part1_eq c]
  rfl

/-! ## Folding over a concatenation -/

/-- Running `l₁` then `l₂` from `V` is running `l₂` from what `l₁` leaves: induction on `l₁`, the head
    operation's result passing into the tail's fold on both sides. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## What each piece computes

In each lemma the fold is unrolled, every operation's result at its own result buffer is its function applied to
the contents of the buffers it reads, and at any other buffer what was there before (the two buffers told apart as
references); unrolled to the end, the left side is a composition of the operations' functions over `W` at the
piece's input buffers. The right side is the specification's definition, which unfolds to the same composition:
the last step is by computation. -/

/-- `ht = hx·Whᵀ + bh`. -/
theorem lin_v9 (W : Valuation τ sig (Elt F)) :
    after opsLin W (main_v9 : DevRef τ sig) = RefSpec.lin (W (main_arg1 : DevRef τ sig)) (W (main_arg4 : DevRef τ sig)) (W (main_arg5 : DevRef τ sig)) := by
  after_results_simp
  rfl

/-- The candidate columns of `xt = x·Wiᵀ + bi`. -/
theorem lin_v10 (W : Valuation τ sig (Elt F)) :
    after opsLin W (main_v10 : DevRef τ sig)
      = extractStridedSlice S16384x512 ![0, 1024] (RefSpec.lin (W (main_arg0 : DevRef τ sig)) (W (main_arg2 : DevRef τ sig)) (W (main_arg3 : DevRef τ sig)))
          slices_S16384x1536_S16384x512_0_1024 := by
  after_results_simp
  rfl

/-- The candidate columns of `ht`. -/
theorem lin_v11 (W : Valuation τ sig (Elt F)) :
    after opsLin W (main_v11 : DevRef τ sig)
      = extractStridedSlice S16384x512 ![0, 1024] (RefSpec.lin (W (main_arg1 : DevRef τ sig)) (W (main_arg4 : DevRef τ sig)) (W (main_arg5 : DevRef τ sig)))
          slices_S16384x1536_S16384x512_0_1024 := by
  after_results_simp
  rfl

/-- The gate columns of `xt`. -/
theorem lin_v12 (W : Valuation τ sig (Elt F)) :
    after opsLin W (main_v12 : DevRef τ sig)
      = extractStridedSlice S16384x1024 ![0, 0] (RefSpec.lin (W (main_arg0 : DevRef τ sig)) (W (main_arg2 : DevRef τ sig)) (W (main_arg3 : DevRef τ sig)))
          slices_S16384x1536_S16384x1024_0_0 := by
  after_results_simp
  rfl

/-- Piece 2 normalises the rows of its input: the callee's operations, unrolled with the rest, are the variance's
    definition; the caller's own are the mean, the deviations and the quotient. -/
theorem normXg_v24 (W : Valuation τ sig (Elt F)) :
    after opsNormXg W (main_v24 : DevRef τ sig) = RefSpec.ln1024 (W (main_v12 : DevRef τ sig)) := by
  after_results_simp
  rfl

/-- Piece 3 slices the gate columns out of `ht` and normalises them. -/
theorem normHg_v37 (W : Valuation τ sig (Elt F)) :
    after opsNormHg W (main_v37 : DevRef τ sig)
      = RefSpec.ln1024 (extractStridedSlice S16384x1024 ![0, 0] (W (main_v9 : DevRef τ sig)) slices_S16384x1536_S16384x1024_0_0) := by
  after_results_simp
  rfl

/-- The reset gate: the first half of the logistic function of the two normalised parts' sum. -/
theorem gates_v45 (W : Valuation τ sig (Elt F)) :
    after opsGates W (main_v45 : DevRef τ sig)
      = extractStridedSlice S16384x512 ![0, 0] (RefSpec.sig1024 (addf (W (main_v24 : DevRef τ sig)) (W (main_v37 : DevRef τ sig))))
          slices_S16384x1024_S16384x512_0_0 := by
  after_results_simp
  rfl

/-- The update gate: the second half. -/
theorem gates_v46 (W : Valuation τ sig (Elt F)) :
    after opsGates W (main_v46 : DevRef τ sig)
      = extractStridedSlice S16384x512 ![0, 512] (RefSpec.sig1024 (addf (W (main_v24 : DevRef τ sig)) (W (main_v37 : DevRef τ sig))))
          slices_S16384x1024_S16384x512_0_512 := by
  after_results_simp
  rfl

/-- Piece 5, its two stretches run in order, normalises the rows (of 512 entries) of its input. -/
theorem normXc_v58 (W : Valuation τ sig (Elt F)) :
    after opsNormXc1 (after opsNormXc0 W) (main_v58 : DevRef τ sig) = RefSpec.ln512 (W (main_v10 : DevRef τ sig)) := by
  after_results_simp
  rfl

/-- Piece 6 does the same to its input. -/
theorem normHc_v70 (W : Valuation τ sig (Elt F)) :
    after opsNormHc W (main_v70 : DevRef τ sig) = RefSpec.ln512 (W (main_v11 : DevRef τ sig)) := by
  after_results_simp
  rfl

/-- Piece 7: the new state from the two gates, the two normalised candidate parts and the old state. The right
    side is written out as the composition itself, so the unrolling ends at it. -/
theorem combine_v78 (W : Valuation τ sig (Elt F)) :
    after opsCombine W (main_v78 : DevRef τ sig)
      = addf (mulf (W (main_v46 : DevRef τ sig)) (W (main_arg1 : DevRef τ sig)))
          (mulf (subf (broadcastInDim S16384x512 ![] bcast_S_S16384x512 (constant S_ .f32 0x3F800000#32)) (W (main_v46 : DevRef τ sig)))
            (Host.tanh (addf (W (main_v58 : DevRef τ sig)) (mulf (W (main_v45 : DevRef τ sig)) (W (main_v70 : DevRef τ sig)))))) := by
  after_results_simp

/-! ## What each piece leaves alone

Every operation writes exactly one buffer, its result's. Listing a piece's result buffers, a reference outside the
list is written by no operation of the piece, so the fold leaves it as it was. Membership in the lists is decided on
references. -/

/-- An operation that writes the one buffer `y` writes inside any list holding `y`. -/
theorem writes_sub {L : List (Ref sig .tc)} {op : HloOp τ sig (Elt F)} (y : Ref sig .tc)
    (hw : op.writes = {Proc.devRef .tc y} := by rfl) (hy : y ∈ L := by decide) :
    op.writes ⊆ (L.map (Proc.devRef (τ := τ) .tc)).toFinset := by
  rw [hw, Finset.singleton_subset_iff, List.mem_toFinset]
  exact List.mem_map_of_mem hy

/-- The buffers piece 1 writes. -/
abbrev writesLin : List (Ref sig .tc) :=
  [main_v0, main_v1, main_v2, main_v3, main_v4, main_v5, main_v6, main_v7,
   main_v8, main_v9, main_v10, main_v11, main_v12]

theorem opsLin_writes : (opsLin : List (HloOp τ sig (Elt F))).Forall fun op =>
    op.writes ⊆ (writesLin.map (Proc.devRef (τ := τ) .tc)).toFinset :=
  ⟨writes_sub main_v0, writes_sub main_v1, writes_sub main_v2, writes_sub main_v3, writes_sub main_v4,
    writes_sub main_v5, writes_sub main_v6, writes_sub main_v7, writes_sub main_v8, writes_sub main_v9,
    writes_sub main_v10, writes_sub main_v11, writes_sub main_v12⟩

theorem lin_keeps (r : Ref sig .tc) (W : Valuation τ sig (Elt F)) (hr : r ∉ writesLin := by decide) :
    after opsLin W (Proc.devRef .tc r) = W (Proc.devRef .tc r) :=
  after_of_writes_sub opsLin W opsLin_writes hr

/-- The buffers piece 2 writes: its own values', and the callee's in call 0's record. -/
abbrev writesNormXg : List (Ref sig .tc) :=
  [main_cst, main_v13, main_v14, main_cst_0, main_v15, main_v16, main_c, main_call0_cst,
   main_call0_v0, main_call0_v1, main_call0_cst_0, main_call0_v2, main_call0_v3, main_call0_v4, main_call0_v5, main_call0_v6,
   main_call0_v7, main_call0_cst_1, main_call0_v8, main_call0_cst_2, main_call0_v9, main_call0_v10, main_call0_v11, main_call0_v12,
   main_call0_cst_3, main_call0_v13, main_call0_cst_4, main_call0_call0_v0, main_call0_call0_v1, main_v17, main_v18, main_v19,
   main_cst_1, main_v20, main_v21, main_v22, main_v23, main_v24]

theorem opsNormXg_writes : (opsNormXg : List (HloOp τ sig (Elt F))).Forall fun op =>
    op.writes ⊆ (writesNormXg.map (Proc.devRef (τ := τ) .tc)).toFinset :=
  ⟨writes_sub main_cst, writes_sub main_v13, writes_sub main_v14, writes_sub main_cst_0, writes_sub main_v15,
    writes_sub main_v16, writes_sub main_c, writes_sub main_call0_cst, writes_sub main_call0_v0, writes_sub main_call0_v1,
    writes_sub main_call0_cst_0, writes_sub main_call0_v2, writes_sub main_call0_v3, writes_sub main_call0_v4, writes_sub main_call0_v5,
    writes_sub main_call0_v6, writes_sub main_call0_v7, writes_sub main_call0_cst_1, writes_sub main_call0_v8, writes_sub main_call0_cst_2,
    writes_sub main_call0_v9, writes_sub main_call0_v10, writes_sub main_call0_v11, writes_sub main_call0_v12, writes_sub main_call0_cst_3,
    writes_sub main_call0_v13, writes_sub main_call0_cst_4, writes_sub main_call0_call0_v0, writes_sub main_call0_call0_v1, writes_sub main_v17,
    writes_sub main_v18, writes_sub main_v19, writes_sub main_cst_1, writes_sub main_v20, writes_sub main_v21,
    writes_sub main_v22, writes_sub main_v23, writes_sub main_v24⟩

theorem normXg_keeps (r : Ref sig .tc) (W : Valuation τ sig (Elt F)) (hr : r ∉ writesNormXg := by decide) :
    after opsNormXg W (Proc.devRef .tc r) = W (Proc.devRef .tc r) :=
  after_of_writes_sub opsNormXg W opsNormXg_writes hr

/-- The buffers piece 3 writes. -/
abbrev writesNormHg : List (Ref sig .tc) :=
  [main_v25, main_cst_2, main_v26, main_v27, main_cst_3, main_v28, main_v29, main_c_4,
   main_call1_cst, main_call1_v0, main_call1_v1, main_call1_cst_0, main_call1_v2, main_call1_v3, main_call1_v4, main_call1_v5,
   main_call1_v6, main_call1_v7, main_call1_cst_1, main_call1_v8, main_call1_cst_2, main_call1_v9, main_call1_v10, main_call1_v11,
   main_call1_v12, main_call1_cst_3, main_call1_v13, main_call1_cst_4, main_call1_call0_v0, main_call1_call0_v1, main_v30, main_v31,
   main_v32, main_cst_5, main_v33, main_v34, main_v35, main_v36, main_v37]

theorem opsNormHg_writes : (opsNormHg : List (HloOp τ sig (Elt F))).Forall fun op =>
    op.writes ⊆ (writesNormHg.map (Proc.devRef (τ := τ) .tc)).toFinset :=
  ⟨writes_sub main_v25, writes_sub main_cst_2, writes_sub main_v26, writes_sub main_v27, writes_sub main_cst_3,
    writes_sub main_v28, writes_sub main_v29, writes_sub main_c_4, writes_sub main_call1_cst, writes_sub main_call1_v0,
    writes_sub main_call1_v1, writes_sub main_call1_cst_0, writes_sub main_call1_v2, writes_sub main_call1_v3, writes_sub main_call1_v4,
    writes_sub main_call1_v5, writes_sub main_call1_v6, writes_sub main_call1_v7, writes_sub main_call1_cst_1, writes_sub main_call1_v8,
    writes_sub main_call1_cst_2, writes_sub main_call1_v9, writes_sub main_call1_v10, writes_sub main_call1_v11, writes_sub main_call1_v12,
    writes_sub main_call1_cst_3, writes_sub main_call1_v13, writes_sub main_call1_cst_4, writes_sub main_call1_call0_v0, writes_sub main_call1_call0_v1,
    writes_sub main_v30, writes_sub main_v31, writes_sub main_v32, writes_sub main_cst_5, writes_sub main_v33,
    writes_sub main_v34, writes_sub main_v35, writes_sub main_v36, writes_sub main_v37⟩

theorem normHg_keeps (r : Ref sig .tc) (W : Valuation τ sig (Elt F)) (hr : r ∉ writesNormHg := by decide) :
    after opsNormHg W (Proc.devRef .tc r) = W (Proc.devRef .tc r) :=
  after_of_writes_sub opsNormHg W opsNormHg_writes hr

/-- The buffers piece 4 writes. -/
abbrev writesGates : List (Ref sig .tc) :=
  [main_v38, main_v39, main_v40, main_cst_6, main_v41, main_v42, main_cst_7, main_v43,
   main_v44, main_v45, main_v46]

theorem opsGates_writes : (opsGates : List (HloOp τ sig (Elt F))).Forall fun op =>
    op.writes ⊆ (writesGates.map (Proc.devRef (τ := τ) .tc)).toFinset :=
  ⟨writes_sub main_v38, writes_sub main_v39, writes_sub main_v40, writes_sub main_cst_6, writes_sub main_v41,
    writes_sub main_v42, writes_sub main_cst_7, writes_sub main_v43, writes_sub main_v44, writes_sub main_v45,
    writes_sub main_v46⟩

theorem gates_keeps (r : Ref sig .tc) (W : Valuation τ sig (Elt F)) (hr : r ∉ writesGates := by decide) :
    after opsGates W (Proc.devRef .tc r) = W (Proc.devRef .tc r) :=
  after_of_writes_sub opsGates W opsGates_writes hr

/-- The buffers piece 5's first stretch writes. -/
abbrev writesNormXc0 : List (Ref sig .tc) :=
  [main_cst_8, main_v47, main_v48]

theorem opsNormXc0_writes : (opsNormXc0 : List (HloOp τ sig (Elt F))).Forall fun op =>
    op.writes ⊆ (writesNormXc0.map (Proc.devRef (τ := τ) .tc)).toFinset :=
  ⟨writes_sub main_cst_8, writes_sub main_v47, writes_sub main_v48⟩

theorem normXc0_keeps (r : Ref sig .tc) (W : Valuation τ sig (Elt F)) (hr : r ∉ writesNormXc0 := by decide) :
    after opsNormXc0 W (Proc.devRef .tc r) = W (Proc.devRef .tc r) :=
  after_of_writes_sub opsNormXc0 W opsNormXc0_writes hr

/-- The buffers piece 5's second stretch writes. -/
abbrev writesNormXc1 : List (Ref sig .tc) :=
  [main_cst_9, main_v49, main_v50, main_c_10, main_call2_cst, main_call2_v0, main_call2_v1, main_call2_cst_0,
   main_call2_v2, main_call2_v3, main_call2_v4, main_call2_v5, main_call2_v6, main_call2_v7, main_call2_cst_1, main_call2_v8,
   main_call2_cst_2, main_call2_v9, main_call2_v10, main_call2_v11, main_call2_v12, main_call2_cst_3, main_call2_v13, main_call2_cst_4,
   main_call2_call0_v0, main_call2_call0_v1, main_v51, main_v52, main_v53, main_cst_11, main_v54, main_v55,
   main_v56, main_v57, main_v58]

theorem opsNormXc1_writes : (opsNormXc1 : List (HloOp τ sig (Elt F))).Forall fun op =>
    op.writes ⊆ (writesNormXc1.map (Proc.devRef (τ := τ) .tc)).toFinset :=
  ⟨writes_sub main_cst_9, writes_sub main_v49, writes_sub main_v50, writes_sub main_c_10, writes_sub main_call2_cst,
    writes_sub main_call2_v0, writes_sub main_call2_v1, writes_sub main_call2_cst_0, writes_sub main_call2_v2, writes_sub main_call2_v3,
    writes_sub main_call2_v4, writes_sub main_call2_v5, writes_sub main_call2_v6, writes_sub main_call2_v7, writes_sub main_call2_cst_1,
    writes_sub main_call2_v8, writes_sub main_call2_cst_2, writes_sub main_call2_v9, writes_sub main_call2_v10, writes_sub main_call2_v11,
    writes_sub main_call2_v12, writes_sub main_call2_cst_3, writes_sub main_call2_v13, writes_sub main_call2_cst_4, writes_sub main_call2_call0_v0,
    writes_sub main_call2_call0_v1, writes_sub main_v51, writes_sub main_v52, writes_sub main_v53, writes_sub main_cst_11,
    writes_sub main_v54, writes_sub main_v55, writes_sub main_v56, writes_sub main_v57, writes_sub main_v58⟩

theorem normXc1_keeps (r : Ref sig .tc) (W : Valuation τ sig (Elt F)) (hr : r ∉ writesNormXc1 := by decide) :
    after opsNormXc1 W (Proc.devRef .tc r) = W (Proc.devRef .tc r) :=
  after_of_writes_sub opsNormXc1 W opsNormXc1_writes hr

/-- The buffers piece 6 writes. -/
abbrev writesNormHc : List (Ref sig .tc) :=
  [main_cst_12, main_v59, main_v60, main_cst_13, main_v61, main_v62, main_c_14, main_call3_cst,
   main_call3_v0, main_call3_v1, main_call3_cst_0, main_call3_v2, main_call3_v3, main_call3_v4, main_call3_v5, main_call3_v6,
   main_call3_v7, main_call3_cst_1, main_call3_v8, main_call3_cst_2, main_call3_v9, main_call3_v10, main_call3_v11, main_call3_v12,
   main_call3_cst_3, main_call3_v13, main_call3_cst_4, main_call3_call0_v0, main_call3_call0_v1, main_v63, main_v64, main_v65,
   main_cst_15, main_v66, main_v67, main_v68, main_v69, main_v70]

theorem opsNormHc_writes : (opsNormHc : List (HloOp τ sig (Elt F))).Forall fun op =>
    op.writes ⊆ (writesNormHc.map (Proc.devRef (τ := τ) .tc)).toFinset :=
  ⟨writes_sub main_cst_12, writes_sub main_v59, writes_sub main_v60, writes_sub main_cst_13, writes_sub main_v61,
    writes_sub main_v62, writes_sub main_c_14, writes_sub main_call3_cst, writes_sub main_call3_v0, writes_sub main_call3_v1,
    writes_sub main_call3_cst_0, writes_sub main_call3_v2, writes_sub main_call3_v3, writes_sub main_call3_v4, writes_sub main_call3_v5,
    writes_sub main_call3_v6, writes_sub main_call3_v7, writes_sub main_call3_cst_1, writes_sub main_call3_v8, writes_sub main_call3_cst_2,
    writes_sub main_call3_v9, writes_sub main_call3_v10, writes_sub main_call3_v11, writes_sub main_call3_v12, writes_sub main_call3_cst_3,
    writes_sub main_call3_v13, writes_sub main_call3_cst_4, writes_sub main_call3_call0_v0, writes_sub main_call3_call0_v1, writes_sub main_v63,
    writes_sub main_v64, writes_sub main_v65, writes_sub main_cst_15, writes_sub main_v66, writes_sub main_v67,
    writes_sub main_v68, writes_sub main_v69, writes_sub main_v70⟩

theorem normHc_keeps (r : Ref sig .tc) (W : Valuation τ sig (Elt F)) (hr : r ∉ writesNormHc := by decide) :
    after opsNormHc W (Proc.devRef .tc r) = W (Proc.devRef .tc r) :=
  after_of_writes_sub opsNormHc W opsNormHc_writes hr

/-- The buffers piece 7 writes. -/
abbrev writesCombine : List (Ref sig .tc) :=
  [main_v71, main_v72, main_v73, main_v74, main_cst_16, main_v75, main_v76, main_v77,
   main_v78]

theorem opsCombine_writes : (opsCombine : List (HloOp τ sig (Elt F))).Forall fun op =>
    op.writes ⊆ (writesCombine.map (Proc.devRef (τ := τ) .tc)).toFinset :=
  ⟨writes_sub main_v71, writes_sub main_v72, writes_sub main_v73, writes_sub main_v74, writes_sub main_cst_16,
    writes_sub main_v75, writes_sub main_v76, writes_sub main_v77, writes_sub main_v78⟩

theorem combine_keeps (r : Ref sig .tc) (W : Valuation τ sig (Elt F)) (hr : r ∉ writesCombine := by decide) :
    after opsCombine W (Proc.devRef .tc r) = W (Proc.devRef .tc r) :=
  after_of_writes_sub opsCombine W opsCombine_writes hr

/-! ## The pieces composed -/

/-- A reference no piece writes is where it was at the end of the whole program. -/
theorem ops_keeps (r : Ref sig .tc) (V : Valuation τ sig (Elt F))
    (h1 : r ∉ writesLin := by decide) (h2 : r ∉ writesNormXg := by decide) (h3 : r ∉ writesNormHg := by decide)
    (h4 : r ∉ writesGates := by decide) (h5 : r ∉ writesNormXc0 := by decide) (h5' : r ∉ writesNormXc1 := by decide)
    (h6 : r ∉ writesNormHc := by decide) (h7 : r ∉ writesCombine := by decide) :
    after ops V (Proc.devRef .tc r) = V (Proc.devRef .tc r) := by
  simp only [ops, after_append]
  rw [combine_keeps r _ h7, normHc_keeps r _ h6, normXc1_keeps r _ h5', normXc0_keeps r _ h5, gates_keeps r _ h4,
    normHg_keeps r _ h3, normXg_keeps r _ h2, lin_keeps r _ h1]

/-- The result buffer at the end of the program is the specification's term of the argument arrays.
    The fold splits at the concatenations. Read from the last piece backwards: the new state is the combination of
    `main_v45`, `main_v46`, `main_v58`, `main_v70` and the old state as piece 7 found them; piece 6 made
    `main_v70` from `main_v11` and left the other four alone; piece 5 made `main_v58` from `main_v10`; piece 4
    made the two gates from `main_v24` and `main_v37`; pieces 3 and 2 made those from `main_v9` and `main_v12`;
    piece 1 made `main_v9 … main_v12` from the arguments. With every buffer traced back to the arguments both sides
    are the same composition of the specification's definitions. -/
theorem out_eq (V : Valuation τ sig (Elt F)) :
    after ops V (main_v78 : DevRef τ sig)
      = RefSpec.refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [ops, after_append]
  -- piece 7, then what piece 6 handed it
  rw [combine_v78]
  rw [normHc_v70, normHc_keeps main_v45 _, normHc_keeps main_v46 _, normHc_keeps main_v58 _, normHc_keeps main_arg1 _]
  -- piece 5 (two stretches)
  rw [normXc_v58, normXc1_keeps main_v45 _, normXc0_keeps main_v45 _, normXc1_keeps main_v46 _, normXc0_keeps main_v46 _,
    normXc1_keeps main_v11 _, normXc0_keeps main_v11 _, normXc1_keeps main_arg1 _, normXc0_keeps main_arg1 _]
  -- piece 4
  rw [gates_v45, gates_v46, gates_keeps main_v10 _, gates_keeps main_v11 _, gates_keeps main_arg1 _]
  -- pieces 3 and 2
  rw [normHg_v37, normHg_keeps main_v24 _, normHg_keeps main_v10 _, normHg_keeps main_v11 _, normHg_keeps main_arg1 _]
  rw [normXg_v24, normXg_keeps main_v9 _, normXg_keeps main_v10 _, normXg_keeps main_v11 _, normXg_keeps main_arg1 _]
  -- piece 1
  rw [lin_v9, lin_v10, lin_v11, lin_v12, lin_keeps main_arg1 _]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

/-! Every operation touches buffers of the TensorCore only: per list, one fact per operation, in order. -/

theorem opsLin_sub : (opsLin : List (HloOp τ sig (Elt F))).Forall fun op => op.bufs ⊆ tcRefs τ sig :=
  ⟨unary_bufs_sub .., binary_bufs_sub .., unary_bufs_sub .., unary_bufs_sub .., binary_bufs_sub .., unary_bufs_sub ..,
    binary_bufs_sub .., unary_bufs_sub .., unary_bufs_sub .., binary_bufs_sub .., unary_bufs_sub .., unary_bufs_sub ..,
    unary_bufs_sub ..⟩

theorem opsNormXg_sub : (opsNormXg : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub ..⟩

theorem opsNormHg_sub : (opsNormHg : List (HloOp τ sig (Elt F))).Forall fun op => op.bufs ⊆ tcRefs τ sig :=
  ⟨unary_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    unary_bufs_sub .., unary_bufs_sub .., binary_bufs_sub ..⟩

theorem opsGates_sub : (opsGates : List (HloOp τ sig (Elt F))).Forall fun op => op.bufs ⊆ tcRefs τ sig :=
  ⟨binary_bufs_sub .., unary_bufs_sub .., unary_bufs_sub .., nullary_bufs_sub .., unary_bufs_sub .., binary_bufs_sub ..,
    nullary_bufs_sub .., unary_bufs_sub .., binary_bufs_sub .., unary_bufs_sub .., unary_bufs_sub ..⟩

theorem opsNormXc0_sub : (opsNormXc0 : List (HloOp τ sig (Elt F))).Forall fun op => op.bufs ⊆ tcRefs τ sig :=
  ⟨nullary_bufs_sub .., binary_bufs_sub .., unary_bufs_sub ..⟩

theorem opsNormXc1_sub : (opsNormXc1 : List (HloOp τ sig (Elt F))).Forall fun op => op.bufs ⊆ tcRefs τ sig :=
  ⟨nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub .., unary_bufs_sub .., binary_bufs_sub .., nullary_bufs_sub ..,
    unary_bufs_sub .., binary_bufs_sub .., unary_bufs_sub .., unary_bufs_sub .., binary_bufs_sub ..⟩

theorem opsNormHc_sub : (opsNormHc : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub ..⟩

theorem opsCombine_sub : (opsCombine : List (HloOp τ sig (Elt F))).Forall fun op => op.bufs ⊆ tcRefs τ sig :=
  ⟨binary_bufs_sub .., binary_bufs_sub .., unary_bufs_sub .., binary_bufs_sub .., nullary_bufs_sub .., unary_bufs_sub ..,
    binary_bufs_sub .., binary_bufs_sub .., binary_bufs_sub ..⟩

/-- A property of every operation of two lists holds of every operation of their concatenation. -/
theorem forall_append' {p : HloOp τ sig (Elt F) → Prop} {l₁ l₂ : List (HloOp τ sig (Elt F))}
    (h₁ : l₁.Forall p) (h₂ : l₂.Forall p) : (l₁ ++ l₂).Forall p :=
  List.forall_append.2 ⟨h₁, h₂⟩

theorem ops_sub : (ops : List (HloOp τ sig (Elt F))).Forall fun op => op.bufs ⊆ tcRefs τ sig :=
  forall_append'
    (forall_append' opsLin_sub (forall_append' opsNormXg_sub (forall_append' opsNormHg_sub (forall_append' opsGates_sub opsNormXc0_sub))))
    (forall_append' opsNormXc1_sub (forall_append' opsNormHc_sub opsCombine_sub))

/-- On every device, for any float values, from any memory with zero counters: every weakly fair execution of the
    reference program terminates with its result buffer at the specification's term of the arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78)
          = Cert.ReferenceIdeal.RefSpec.refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v78).trans (out_eq _),
      (h c main_arg0).trans (ops_keeps main_arg0 _), (h c main_arg1).trans (ops_keeps main_arg1 _),
      (h c main_arg2).trans (ops_keeps main_arg2 _), (h c main_arg3).trans (ops_keeps main_arg3 _),
      (h c main_arg4).trans (ops_keeps main_arg4 _), (h c main_arg5).trans (ops_keeps main_arg5 _)⟩)
    (run_seq scopedRefs_eq scopedSems_eq defs main (fun _ => ops) main_eq (fun _ => ops_sub) m ρ)

end Cert.ReferenceIdeal.RefRun

end
-- ==== Proof.LibRealSum.lean ====
/-
  Real entries among the extended reals, and the one law that lets a graph propagation step commute with a product by a matrix.

  At the ideal values a float is an extended real, and on the extended reals a product does not distribute over a
  sum in general (`⊤ + ⊥`). Where every entry is a real it does: this module names that condition (`IsReal`), shows
  the operations a degree normalisation is made of keep it (a finite sum, a product, a maximum, a choice between two
  reals, the reciprocal square root of a positive real), pushes the coercion `ℝ → EReal` through finite sums
  (`coe_sum`), and proves the law (`step_comm`): for real coefficients `ν e`, real rows `a e k` and a real
  column `w k`,

      0 + ∑ e ∈ S, (∑ k, a e k · w k) · ν e  =  ∑ k, (∑ e ∈ S, a e k · ν e) · w k

  — adding up weighted rows and then contracting with `w` is contracting each row with `w` and then adding up.
-/
import Idealize.ShloMosaic.PureOps.Ideal
import Idealize.ShloMosaic.PureOps.Ideal.Laws

noncomputable section

open scoped BigOperators

namespace Cert.Lib.RealSum

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One propagation step on real entries stays real: zero plus a sum of products of reals is the real sum of products. -/
theorem step_real {E : Type*} (S : Finset E) (a ν : E → ℝ) :
    (0 : EReal) + ∑ e ∈ S, (a e : EReal) * (ν e : EReal) = ((∑ e ∈ S, a e * ν e : ℝ) : EReal) := by
  rw [zero_add, coe_sum]
  simp only [EReal.coe_mul]

/-- A propagation step commutes with a contraction of the feature axis: weighting and adding up rows that were
    already contracted with `w` gives the contraction with `w` of the weighted sum of the rows. -/
theorem step_comm {E K : Type*} [Fintype K] (S : Finset E) (a : E → K → ℝ) (ν : E → ℝ) (w : K → ℝ) :
    (0 : EReal) + ∑ e ∈ S, ((∑ k, a e k * w k : ℝ) : EReal) * (ν e : EReal)
      = ((∑ k, (∑ e ∈ S, a e k * ν e) * w k : ℝ) : EReal) := by
  rw [step_real]
  refine congrArg _ ?_
  simp only [Finset.sum_mul]
  rw [Finset.sum_comm]
  refine Finset.sum_congr rfl fun k _ => Finset.sum_congr rfl fun e _ => by ring

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The ideal reciprocal square root of a positive real is a real. -/
theorem IsReal.rsqrt_of_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- A real that is at least a positive real has a real ideal reciprocal square root. -/
theorem IsReal.rsqrt_max {x c : EReal} (hx : IsReal x) {r : ℝ} (hc : c = (r : EReal)) (hr : 0 < r) :
    IsReal (Ideal.rsqrt (Max.max x c)) := by
  obtain ⟨a, rfl⟩ := hx
  subst hc
  have : Max.max (a : EReal) (r : EReal) = ((Max.max a r : ℝ) : EReal) := (EReal.coe_strictMono.monotone.map_max (a := a) (b := r)).symm
  rw [this]
  exact IsReal.rsqrt_of_pos (lt_of_lt_of_le hr (le_max_right a r))

/-! ## The host operations a normalisation is made of, on real entries

Stated over arbitrary shapes and dimension numbers, so that at a program's literal shapes they apply to the printed
operation as it stands. -/

/-- The f32 zero word is the real `0`. -/
theorem IsReal.ofBits_zero : IsReal (FloatOps.ofBits (F := Ideal) .f32 0x00000000#32) := by
  rw [Ideal.ofBits_def, Ideal.ofBits_zero_f32]
  exact IsReal.zero

/-- A float product of reals is real. -/
theorem IsReal.fmul {x y : EReal} (hx : IsReal x) (hy : IsReal y) :
    IsReal (FloatOps.mulf (F := Ideal) (φ := .f32) x y) := hx.mul hy

/-- A choice between two reals is real, whichever the condition picks. -/
theorem IsReal.select (c : BitVec 1) {a b : EReal} (ha : IsReal a) (hb : IsReal b) : IsReal (Scalar.select c a b) := by
  unfold Scalar.select
  split <;> assumption

/-- The host's reciprocal square root of the maximum of a real and a positive real is real. -/
theorem IsReal.host_rsqrt_max {x c : EReal} (hx : IsReal x) {r : ℝ} (hc : c = (r : EReal)) (hr : 0 < r) :
    IsReal (FloatOps.hostUnary (F := Ideal) (φ := .f32) .rsqrt (FloatOps.maximumf (F := Ideal) (φ := .f32) x c)) :=
  IsReal.rsqrt_max hx hc hr

/-- An accumulating scatter of real updates into a real operand is real at every index: each element is the operand's
    plus a finite sum of updates. -/
theorem IsReal.host_scatterAdd {s si su : Shape} (d : ScatterDims s si su) {w : Nat} (x : FVec Ideal s .f32)
    (idx : IVec si w) (upd : FVec Ideal su .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ fun j _ => hu j)

/-- A gathered entry of a real array is real, wherever the index points. -/
theorem IsReal.host_gather {s si t : Shape} (d : GatherDims s si t) {w : Nat} (x : s.Idx → EReal) (idx : IVec si w)
    (hx : ∀ i, IsReal (x i)) (j : t.Idx) : IsReal (Host.gather d x idx j) := hx _

end Cert.Lib.RealSum

end
-- ==== Proof.LibRealNorm.lean ====
/-
  Real entries among the extended reals, continued: what a normalisation layer needs beyond sums and products.

  * closure of "is a real number" under negation, subtraction, the exponential, a quotient by a nonzero real, the
    host's sum along axes, and the logistic gate `y · (1 / (1 + exp (−y)))`;
  * a positive normal binary32 pattern denotes a positive real;
  * THE AFFINE LAW of a normalisation: for real `a μ r γ β`,
        a · (γ · r) + (β − μ · (γ · r))  =  (a − μ) · r · γ + β.
    On the extended reals this is false at infinities (the left side distributes a product over a difference), which
    is why every factor is first shown to be a real number.
-/
import Idealize.ShloMosaic.PureOps.Ideal
import Idealize.ShloMosaic.PureOps.Ideal.Laws
import proofs.«161558_j38414187495805_2_alg».proof.Proof.LibRealSum

noncomputable section

namespace Cert.Lib.RealNorm

open Idealize.ShloMosaic Cert.Lib.RealSum

theorem isReal_one : IsReal (1 : EReal) := ⟨1, EReal.coe_one.symm⟩

theorem isReal_neg {x : EReal} (hx : IsReal x) : IsReal (-x) := by
  obtain ⟨a, rfl⟩ := hx; exact ⟨-a, (EReal.coe_neg a).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_exp {x : EReal} (hx : IsReal x) : IsReal (Ideal.exp x) := by
  obtain ⟨a, rfl⟩ := hx; exact ⟨Real.exp a, rfl⟩

/-- A real divided by a nonzero real is a real: the ideal quotient is the product with the reciprocal. -/
theorem isReal_div {x : EReal} (hx : IsReal x) {r : ℝ} (hr : r ≠ 0) : IsReal (Ideal.div x (r : EReal)) := by
  rw [Ideal.div_coe hr]; exact hx.mul (IsReal.coe _)

/-- The host's sum along axes of a real array, from a real initial value, is real at every index. -/
theorem isReal_hostReduceAdd {s : Shape} {axes : List (Fin s.rank)} {t : Shape} (h : s.ReducesTo axes t)
    (x : s.Idx → EReal) (init : EReal) (hx : ∀ i, IsReal (x i)) (hi : IsReal init) (j : t.Idx) :
    IsReal (Ideal.hostReduceAdd h x init j) := by
  unfold Ideal.hostReduceAdd
  exact hi.add (IsReal.sum _ _ fun i _ => hx i)

/-- The exponential of a real is a positive real, so one plus it is a nonzero real. -/
theorem one_add_exp_neg (a : ℝ) : (1 : EReal) + Ideal.exp (-(a : EReal)) = ((1 + Real.exp (-a) : ℝ) : EReal) := by
  rw [← EReal.coe_neg]; rfl

/-- The logistic gate of a real is a real. -/
theorem isReal_gate {y : EReal} (hy : IsReal y) : IsReal (y * Ideal.div 1 (1 + Ideal.exp (-y))) := by
  obtain ⟨a, rfl⟩ := hy
  rw [one_add_exp_neg, Ideal.div_coe (by positivity)]
  exact (IsReal.coe a).mul (isReal_one.mul (IsReal.coe _))

/-- On a real the logistic function is the quotient `1 / (1 + exp (−y))`: both are the real `(1 + e^{−y})⁻¹`. -/
theorem logistic_coe_eq_div (a : ℝ) :
    Ideal.logistic (a : EReal) = Ideal.div 1 (1 + Ideal.exp (-(a : EReal))) := by
  rw [Ideal.logistic_coe, one_add_exp_neg, Ideal.div_coe (by positivity), one_mul, one_div]

theorem isReal_logistic {y : EReal} (hy : IsReal y) : IsReal (Ideal.logistic y) := by
  obtain ⟨a, rfl⟩ := hy; rw [Ideal.logistic_coe]; exact IsReal.coe _

/-- The affine law on reals. -/
theorem affine_coe (a μ r γ β : ℝ) :
    (a : EReal) * ((γ : EReal) * (r : EReal)) + ((β : EReal) - (μ : EReal) * ((γ : EReal) * (r : EReal)))
      = ((a : EReal) - (μ : EReal)) * (r : EReal) * (γ : EReal) + (β : EReal) := by
  simp only [← EReal.coe_mul, ← EReal.coe_sub, ← EReal.coe_add]
  congr 1; ring

/-- THE AFFINE LAW: scaling by `γ·r` and shifting by `β − μ·(γ·r)` is centring at `μ`, scaling by `r`, then by `γ`, and
    shifting by `β` — for real numbers. -/
theorem affine {a μ r γ β : EReal} (ha : IsReal a) (hμ : IsReal μ) (hr : IsReal r) (hγ : IsReal γ) (hβ : IsReal β) :
    a * (γ * r) + (β - μ * (γ * r)) = (a - μ) * r * γ + β := by
  obtain ⟨a, rfl⟩ := ha; obtain ⟨μ, rfl⟩ := hμ; obtain ⟨r, rfl⟩ := hr; obtain ⟨γ, rfl⟩ := hγ; obtain ⟨β, rfl⟩ := hβ
  exact affine_coe a μ r γ β

/-- A binary32 pattern with sign bit clear and exponent field neither all zeros nor all ones denotes a positive
    real: `(2^23 + fraction) · 2^(exponent − 127 − 23)`. -/
theorem ofBits_pos_of_normal (b : BitVec 32) (hs : (b.extractLsb' 31 1 == 1#1) = false)
    (h1 : (b.extractLsb' 23 8).toNat ≠ 255) (h0 : (b.extractLsb' 23 8).toNat ≠ 0) :
    ∃ r : ℝ, 0 < r ∧ Ideal.ofBits .f32 b = (r : EReal) := by
  refine ⟨(1 : ℝ) * ((2 ^ 23 + (b.extractLsb' 0 23).toNat : ℕ) : ℝ) * (2 : ℝ) ^ (((b.extractLsb' 23 8).toNat : Int) - (2 ^ (8 - 1) - 1) - 23), by positivity, ?_⟩
  show Ideal.ieee 8 23 b = _
  unfold Ideal.ieee
  simp only [hs]
  rw [if_neg (by simpa using h1), if_neg h0]
  simp

end Cert.Lib.RealNorm

end
-- ==== Proof.GruLaw.lean ====
/-
  The mathematics of the cell on the extended reals.

  Three facts, in the order they are proved below.

  1. THE FLOAT WORDS. The four constants the programs spell are the reals one expects: the words 1024.0, 512.0 and
     1.0 denote 1024, 512 and 1, and the stabiliser word denotes a POSITIVE real ε (its exact value is never needed).

  2. ONE PASS = TWO PASSES. For a row w of n > 0 REAL entries put μ = (Σ w k)/n. Expanding the square,

         Σ (w k − μ)²  =  Σ w k²  −  2μ · Σ w k  +  n μ²  =  Σ w k²  −  n μ²        (because Σ w k = n μ),

     so the mean of the squared deviations is the mean of the squares minus μ². The two spellings of the
     normalisation therefore take the square root of ONE real s = variance + ε, and s > 0 because a variance is a mean
     of squares (≥ 0) and ε > 0. On a positive real, rsqrt s = (√s)⁻¹ and sqrt s = √s ≠ 0, and a quotient by a nonzero
     real is the product with its reciprocal: both spellings are (w j − μ) · (√s)⁻¹.
     None of this survives at an infinite entry (there Σ w k − n μ is ∞ − ∞), which is why the statement asks for
     real entries.

  3. THE CELL. The two spellings of the cell differ only in which normalisation they call, on four rows cut out of
     the two affine rows; those are real when the affine rows are, so 2. rewrites one cell into the other. An affine
     row x·Wᵀ + b is real when x, W and b are: a finite sum of products of reals plus a real.
-/
import proofs.«161558_j38414187495805_2_alg».proof.Proof.GruSpec
import proofs.«161558_j38414187495805_2_alg».proof.Proof.LibRealSum
import proofs.«161558_j38414187495805_2_alg».proof.Proof.LibRealNorm

noncomputable section

open scoped BigOperators

namespace Cert.Gru

open Idealize.ShloMosaic Cert.Lib.RealSum Cert.Lib.RealNorm

/-! ## 1. The float words -/

/-- The word 1024.0 (exponent field 137, fraction 0) denotes 2²³ · 2^(137 − 127 − 23) = 1024. -/
theorem n1024_eq : n1024 = ((1024 : ℝ) : EReal) := by
  simp [Ideal.ofBits, Ideal.ieee, -EReal.coe_mul]; norm_num

/-- The word 512.0 (exponent field 136, fraction 0) denotes 2²³ · 2^(136 − 127 − 23) = 512. -/
theorem n512_eq : n512 = ((512 : ℝ) : EReal) := by
  simp [Ideal.ofBits, Ideal.ieee, -EReal.coe_mul]; norm_num

/-- The word 1.0 (exponent field 127, fraction 0) denotes 2²³ · 2^(127 − 127 − 23) = 1. -/
theorem oneW_eq : oneW = 1 := by
  simp [Ideal.ofBits, Ideal.ieee, -EReal.coe_mul]; norm_num

/-- The stabiliser word has its sign bit clear and an exponent field (110) that is neither all zeros nor all ones:
    it is a positive normal number, hence a positive real. -/
theorem epsW_pos : ∃ e : ℝ, 0 < e ∧ epsW = (e : EReal) :=
  ofBits_pos_of_normal _ (by decide) (by decide) (by decide)

/-! ## 2. One pass = two passes -/

/-- THE VARIANCE IDENTITY over the reals: with μ = (Σ w)/n, the mean of the squared deviations from μ is the mean of
    the squares minus μ². -/
theorem var_identity {n : ℕ} (hn : 0 < n) (w : Fin n → ℝ) :
    (∑ k, (w k - (∑ i, w i) * (1 / (n : ℝ))) * (w k - (∑ i, w i) * (1 / (n : ℝ)))) * (1 / (n : ℝ))
      = (∑ k, w k * w k) * (1 / (n : ℝ)) - (∑ i, w i) * (1 / (n : ℝ)) * ((∑ i, w i) * (1 / (n : ℝ))) := by
  have hn' : (n : ℝ) ≠ 0 := Nat.cast_ne_zero.mpr hn.ne'
  -- name the sum S and the mean μ, so that the expansion below is read in terms of them
  generalize hS : (∑ i, w i) = S
  generalize hμ : S * (1 / (n : ℝ)) = μ
  -- expand each square, then add up: Σ (w k − μ)² = Σ w k² − 2μ·S + n·μ²
  have hsq : ∑ k, (w k - μ) * (w k - μ) = (∑ k, w k * w k) - 2 * μ * S + (n : ℝ) * (μ * μ) :=
    calc ∑ k, (w k - μ) * (w k - μ)
        = ∑ k, (w k * w k - 2 * μ * w k + μ * μ) := Finset.sum_congr rfl fun k _ => by ring
      _ = (∑ k, w k * w k) - 2 * μ * S + (n : ℝ) * (μ * μ) := by
          rw [Finset.sum_add_distrib, Finset.sum_sub_distrib, ← Finset.mul_sum, hS, Finset.sum_const,
            Finset.card_univ, Fintype.card_fin, nsmul_eq_mul]
  -- S = n·μ turns −2μ·S + n·μ² into −n·μ²; dividing by n gives the claim
  rw [hsq, ← hμ]
  field_simp
  ring

/-- The ideal reciprocal square root of a positive real s is the real (√s)⁻¹. -/
theorem rsqrt_coe_pos {s : ℝ} (hs : 0 < s) : Ideal.rsqrt (s : EReal) = (((Real.sqrt s)⁻¹ : ℝ) : EReal) := by
  show (if s < 0 then (⊥ : EReal) else if s = 0 then ⊤ else (((Real.sqrt s)⁻¹ : ℝ) : EReal)) = _
  rw [if_neg (not_lt.mpr hs.le), if_neg hs.ne']

/-- The ideal square root of a positive real s is the real √s. -/
theorem sqrt_coe_pos {s : ℝ} (hs : 0 < s) : Ideal.sqrt (s : EReal) = ((Real.sqrt s : ℝ) : EReal) := by
  show (if s < 0 then (⊥ : EReal) else ((Real.sqrt s : ℝ) : EReal)) = _
  rw [if_neg (not_lt.mpr hs.le)]

/-- A real divided by a nonzero real is the real quotient, written as a product with the reciprocal. -/
theorem div_coe_coe (a : ℝ) {y : ℝ} (hy : y ≠ 0) :
    Ideal.div (a : EReal) (y : EReal) = ((a * (1 / y) : ℝ) : EReal) := by
  rw [Ideal.div_coe hy, ← EReal.coe_mul]

/-- The mean of a row of reals, divided by its length, is the real mean. -/
theorem mean_coe {n : ℕ} (hn : 0 < n) (w : Fin n → ℝ) :
    mean ((n : ℝ) : EReal) (fun k => (w k : EReal)) = (((∑ k, w k) * (1 / (n : ℝ)) : ℝ) : EReal) := by
  unfold mean
  rw [← coe_sum, div_coe_coe _ (Nat.cast_ne_zero.mpr hn.ne')]

/-- One pass = two passes, on a row given by its real entries. -/
theorem lnK_eq_lnR_coe {n : ℕ} (hn : 0 < n) (w : Fin n → ℝ) (j : Fin n) :
    lnK ((n : ℝ) : EReal) (fun k => (w k : EReal)) j = lnR ((n : ℝ) : EReal) (fun k => (w k : EReal)) j := by
  have hn' : (n : ℝ) ≠ 0 := Nat.cast_ne_zero.mpr hn.ne'
  obtain ⟨e, he, hε⟩ := epsW_pos
  -- the common radicand s = (mean of squared deviations) + ε is positive
  have hvar : 0 ≤ (∑ k, (w k - (∑ i, w i) * (1 / (n : ℝ))) * (w k - (∑ i, w i) * (1 / (n : ℝ)))) * (1 / (n : ℝ)) :=
    mul_nonneg (Finset.sum_nonneg fun k _ => mul_self_nonneg _) (by positivity)
  have hs : 0 < (∑ k, (w k - (∑ i, w i) * (1 / (n : ℝ))) * (w k - (∑ i, w i) * (1 / (n : ℝ)))) * (1 / (n : ℝ)) + e :=
    add_pos_of_nonneg_of_pos hvar he
  -- every subterm of both sides is a coerced real: compute it
  unfold lnK lnR
  rw [mean_coe hn, hε]
  simp only [← EReal.coe_mul, ← EReal.coe_sub, ← coe_sum]
  rw [div_coe_coe _ hn', div_coe_coe _ hn']
  simp only [← EReal.coe_sub, ← EReal.coe_add]
  -- the one-pass radicand is the two-pass radicand, by the variance identity
  rw [← var_identity hn w]
  -- on the positive real s both roots are real, and the quotient is a product
  rw [rsqrt_coe_pos hs, sqrt_coe_pos hs, Ideal.div_coe (Real.sqrt_ne_zero'.mpr hs)]
  simp only [one_div]

/-- On a row of real entries whose length is the divisor, the one-pass and the two-pass normalisation agree. -/
theorem lnK_eq_lnR {n : ℕ} (hn : 0 < n) (d : EReal) (hd : d = ((n : ℝ) : EReal)) (v : Fin n → EReal)
    (hv : ∀ k, IsReal (v k)) (j : Fin n) : lnK d v j = lnR d v j := by
  -- name the real entries: v k = w k
  choose w hw using hv
  obtain rfl : v = fun k => (w k : EReal) := funext hw
  subst hd
  exact lnK_eq_lnR_coe hn w j

/-! ## 3. The cell -/

/-- An affine row x·Wᵀ + b of reals is real: each entry is a finite sum of products of reals, plus a real. -/
theorem isReal_lin (x : Fin 512 → EReal) (W : Fin 1536 → Fin 512 → EReal) (b : Fin 1536 → EReal)
    (hx : ∀ k, IsReal (x k)) (hW : ∀ j k, IsReal (W j k)) (hb : ∀ j, IsReal (b j)) (j : Fin 1536) :
    IsReal (lin x W b j) :=
  (IsReal.sum _ _ fun k _ => (hx k).mul (hW j k)).add (hb j)

/-- The two spellings of the cell agree when the two affine rows are real (the old state h may be anything). -/
theorem cellK_eq_cellR (xt ht : Fin 1536 → EReal) (hxt : ∀ j, IsReal (xt j)) (hht : ∀ j, IsReal (ht j))
    (h : Fin 512 → EReal) (q : Fin 512) : cellK xt ht h q = cellR xt ht h q := by
  -- on the four rows the cell normalises, one pass = two passes: the rows are cut out of real rows
  have g1x : lnK n1024 (gatePart xt) = lnR n1024 (gatePart xt) :=
    funext fun j => lnK_eq_lnR (by norm_num) n1024 (by rw [n1024_eq]; norm_num) _ (fun k => hxt _) j
  have g1h : lnK n1024 (gatePart ht) = lnR n1024 (gatePart ht) :=
    funext fun j => lnK_eq_lnR (by norm_num) n1024 (by rw [n1024_eq]; norm_num) _ (fun k => hht _) j
  have g2x : lnK n512 (newPart xt) = lnR n512 (newPart xt) :=
    funext fun j => lnK_eq_lnR (by norm_num) n512 (by rw [n512_eq]; norm_num) _ (fun k => hxt _) j
  have g2h : lnK n512 (newPart ht) = lnR n512 (newPart ht) :=
    funext fun j => lnK_eq_lnR (by norm_num) n512 (by rw [n512_eq]; norm_num) _ (fun k => hht _) j
  unfold cellK cellR cell
  rw [g1x, g1h, g2x, g2h]

end Cert.Gru

end
-- ==== Proof.RefValue.lean ====
/-
  The reference's result array, read entry by entry at the extended reals.

  The reference is written over whole arrays: an affine map over all 16384 rows, row sums kept as columns, columns
  spread back along the rows, slices of columns. Read at one index (P, q) every one of these operations looks at ROW P
  of its operands only, so the entry (P, q) of the result is a function of row P of x and of hx, of the two weight
  matrices and of the two biases: the cell of that row, with the TWO-PASS normalisation.

  The reading is mechanical but for three points.
    * jnp.var divides by n − ddof and guards the quotient by n − ddof > 0, a NaN word elsewhere. Here ddof = 0 and
      n is the word 1024.0 or 512.0, a positive real: the guard holds and the divisor is n itself.
    * a host sum comes with its initial value, the zero word: 0 + Σ = Σ.
    * the logistic function is spelt 1 / (1 + exp (−a)), with the word 1.0 for both ones; that is the definition of
      the ideal logistic function once the word is read as 1.
  No finiteness is needed: nothing is rearranged.
-/
import proofs.«161558_j38414187495805_2_alg».proof.Proof.RefSpec
import proofs.«161558_j38414187495805_2_alg».proof.Proof.GruArray
import proofs.«161558_j38414187495805_2_alg».proof.Proof.GruLaw
import proofs.«161558_j38414187495805_2_alg».proof.Proof.LibRowLayer

noncomputable section

open scoped BigOperators

namespace Cert.ReferenceIdeal.RefValue

open Cert.ReferenceIdeal Cert.ReferenceIdeal.Gen Cert.ReferenceIdeal.RefSpec Idealize.ShloMosaic
  Idealize.ShloMosaic.ValueIdx Cert.Gru

/-! ## Broadcasts read at an index -/

section Bcast
variable {α : Type}

/-- A vector of A entries made a column [A, 1] reads, at (p, u), the vector's entry p. -/
theorem bcast_col_apply {A : ℕ} (h : (⟨1, ![A]⟩ : Shape).BroadcastsInDim ⟨2, ![A, 1]⟩ (![0] : Fin 1 → Fin 2))
    (v : (⟨1, ![A]⟩ : Shape).Idx → α) (p : Fin A) (u : Fin 1) :
    broadcastInDim ⟨2, ![A, 1]⟩ ![0] h v (ix2 p u) = v (ix1 p) :=
  broadcastInDim_apply _ h v _ (ix1 p) fun a => by
    match a with
    | ⟨0, _⟩ =>
      show p.val = if A = 1 then 0 else p.val
      split
      · have := p.isLt; omega
      · rfl

/-- A column [A, 1] spread along the rows to [A, n] reads, at (p, j), the column's entry of row p. -/
theorem bcast_rows_apply {A n : ℕ} (h : (⟨2, ![A, 1]⟩ : Shape).BroadcastsInDim ⟨2, ![A, n]⟩ (![0, 1] : Fin 2 → Fin 2))
    (v : (⟨2, ![A, 1]⟩ : Shape).Idx → α) (p : Fin A) (j : Fin n) :
    broadcastInDim ⟨2, ![A, n]⟩ ![0, 1] h v (ix2 p j) = v (ix2 p (0 : Fin 1)) :=
  broadcastInDim_apply _ h v _ (ix2 p (0 : Fin 1)) fun a => by
    match a with
    | ⟨0, _⟩ =>
      show p.val = if A = 1 then 0 else p.val
      split
      · have := p.isLt; omega
      · rfl
    | ⟨1, _⟩ => rfl

/-- A one-row matrix [1, N] repeated over A rows reads, at (p, j), its entry (0, j). -/
theorem bcast_row_apply {A N : ℕ} (h : (⟨2, ![1, N]⟩ : Shape).BroadcastsInDim ⟨2, ![A, N]⟩ (![0, 1] : Fin 2 → Fin 2))
    (v : (⟨2, ![1, N]⟩ : Shape).Idx → α) (p : Fin A) (j : Fin N) :
    broadcastInDim ⟨2, ![A, N]⟩ ![0, 1] h v (ix2 p j) = v (ix2 (0 : Fin 1) j) :=
  broadcastInDim_apply _ h v _ (ix2 (0 : Fin 1) j) fun a => by
    match a with
    | ⟨0, _⟩ => rfl
    | ⟨1, _⟩ =>
      show j.val = if N = 1 then 0 else j.val
      split
      · have := j.isLt; omega
      · rfl

/-- A vector [N] made a one-row matrix [1, N] reads, at (u, j), its entry j. -/
theorem bcast_vecrow_apply {N : ℕ} (h : (⟨1, ![N]⟩ : Shape).BroadcastsInDim ⟨2, ![1, N]⟩ (![1] : Fin 1 → Fin 2))
    (v : (⟨1, ![N]⟩ : Shape).Idx → α) (u : Fin 1) (j : Fin N) :
    broadcastInDim ⟨2, ![1, N]⟩ ![1] h v (ix2 u j) = v (ix1 j) :=
  broadcastInDim_apply _ h v _ (ix1 j) fun a => by
    match a with
    | ⟨0, _⟩ =>
      show j.val = if N = 1 then 0 else j.val
      split
      · have := j.isLt; omega
      · rfl

end Bcast

/-! ## The affine map -/

/-- The reference's dimension numbers are those of a plain matrix product. -/
theorem plain : Cert.PlainDot.IsPlain dot_S16384x512_S512x1536_S16384x1536_1_0_0_1_n_n := ⟨rfl, rfl, rfl, rfl, rfl, rfl⟩

/-- Entry (P, j) of x·Wᵀ + b is entry j of the affine row of batch row P: the product with the transposed weights
    is Σ_k x (P, k) · W (j, k), and the bias, made a row and repeated, gives b j on every row. -/
theorem lin_apply (x : FVec Ideal S16384x512 .f32) (W : FVec Ideal S1536x512 .f32) (b : FVec Ideal S1536 .f32)
    (P : Fin 16384) (j : Fin 1536) : RefSpec.lin x W b (ix2 P j) = linRow x W b P j := by
  unfold RefSpec.lin linRow Cert.Gru.lin
  refine congrArg₂ (· + ·) ?_ ?_
  · exact (Cert.PlainDot.dotGeneral_apply _ plain none x _ P j).trans
      (Finset.sum_congr rfl fun k _ => congrArg (x (ix2 P k) * ·) (transpose_ix2_apply W _ k j))
  · exact (bcast_row_apply _ _ P j).trans (bcast_vecrow_apply _ b 0 j)

/-! ## Rows of n entries: mean, deviation, variance, normalisation

Stated for an array of A rows of n entries and a divisor word dw, with the shape facts as hypotheses, so that the
1024-column and the 512-column pieces of the reference are two instances of one reading. -/

section Rows
variable {A n : ℕ}

/-- The row means as a column: the host sum of each row (from the zero word) over the word dw. -/
def meanCol (dw : BitVec 32) (v : FVec Ideal ⟨2, ![A, n]⟩ .f32)
    (hr' : (⟨2, ![A, n]⟩ : Shape).ReducesTo [1] ⟨1, ![A]⟩) (hu : 0 < (⟨0, ![]⟩ : Shape).numel)
    (hc : (⟨1, ![A]⟩ : Shape).BroadcastsInDim ⟨2, ![A, 1]⟩ (![0] : Fin 1 → Fin 2))
    (h0 : (⟨0, ![]⟩ : Shape).BroadcastsInDim ⟨2, ![A, 1]⟩ (![] : Fin 0 → Fin 2)) : FVec Ideal ⟨2, ![A, 1]⟩ .f32 :=
  Host.divf (broadcastInDim ⟨2, ![A, 1]⟩ ![0] hc (Host.reduceAdd v (constant ⟨0, ![]⟩ .f32 0x00000000#32) hr' hu))
    (broadcastInDim ⟨2, ![A, 1]⟩ ![] h0 (constant ⟨0, ![]⟩ .f32 dw))

/-- The column of row means, at row p, is the mean of row p. -/
theorem meanCol_apply (dw : BitVec 32) (v : FVec Ideal ⟨2, ![A, n]⟩ .f32)
    (hr' : (⟨2, ![A, n]⟩ : Shape).ReducesTo [1] ⟨1, ![A]⟩) (hr : (⟨2, ![A, n]⟩ : Shape).Reduces [1] ⟨1, ![A]⟩)
    (hu : 0 < (⟨0, ![]⟩ : Shape).numel)
    (hc : (⟨1, ![A]⟩ : Shape).BroadcastsInDim ⟨2, ![A, 1]⟩ (![0] : Fin 1 → Fin 2))
    (h0 : (⟨0, ![]⟩ : Shape).BroadcastsInDim ⟨2, ![A, 1]⟩ (![] : Fin 0 → Fin 2)) (p : Fin A) (u : Fin 1) :
    meanCol dw v hr' hu hc h0 (ix2 p u) = mean (Ideal.ofBits .f32 dw) (fun k => v (ix2 p k)) := by
  unfold meanCol mean
  -- the quotient at (p, u): the spread sum of row p over the word dw
  show Ideal.div (broadcastInDim ⟨2, ![A, 1]⟩ ![0] hc (Host.reduceAdd v (constant ⟨0, ![]⟩ .f32 0x00000000#32) hr' hu) (ix2 p u))
      (Ideal.ofBits .f32 dw) = _
  refine congrArg (fun z => Ideal.div z (Ideal.ofBits .f32 dw)) ?_
  refine (bcast_col_apply hc _ p u).trans ((Cert.RowLayer.hostRowSum_apply v _ hr' hr hu p).trans ?_)
  -- the initial value is the zero word
  show Ideal.ofBits .f32 0x00000000#32 + _ = _
  rw [Ideal.ofBits_zero_f32, zero_add]

/-- The deviations from the row mean. -/
def devArr (dw : BitVec 32) (v : FVec Ideal ⟨2, ![A, n]⟩ .f32)
    (hr' : (⟨2, ![A, n]⟩ : Shape).ReducesTo [1] ⟨1, ![A]⟩) (hu : 0 < (⟨0, ![]⟩ : Shape).numel)
    (hc : (⟨1, ![A]⟩ : Shape).BroadcastsInDim ⟨2, ![A, 1]⟩ (![0] : Fin 1 → Fin 2))
    (h0 : (⟨0, ![]⟩ : Shape).BroadcastsInDim ⟨2, ![A, 1]⟩ (![] : Fin 0 → Fin 2))
    (hb : (⟨2, ![A, 1]⟩ : Shape).BroadcastsInDim ⟨2, ![A, n]⟩ (![0, 1] : Fin 2 → Fin 2)) : FVec Ideal ⟨2, ![A, n]⟩ .f32 :=
  subf v (broadcastInDim ⟨2, ![A, n]⟩ ![0, 1] hb (meanCol dw v hr' hu hc h0))

/-- Entry (p, j) of the deviations is entry j of row p minus the mean of row p. -/
theorem devArr_apply (dw : BitVec 32) (v : FVec Ideal ⟨2, ![A, n]⟩ .f32)
    (hr' : (⟨2, ![A, n]⟩ : Shape).ReducesTo [1] ⟨1, ![A]⟩) (hr : (⟨2, ![A, n]⟩ : Shape).Reduces [1] ⟨1, ![A]⟩)
    (hu : 0 < (⟨0, ![]⟩ : Shape).numel)
    (hc : (⟨1, ![A]⟩ : Shape).BroadcastsInDim ⟨2, ![A, 1]⟩ (![0] : Fin 1 → Fin 2))
    (h0 : (⟨0, ![]⟩ : Shape).BroadcastsInDim ⟨2, ![A, 1]⟩ (![] : Fin 0 → Fin 2))
    (hb : (⟨2, ![A, 1]⟩ : Shape).BroadcastsInDim ⟨2, ![A, n]⟩ (![0, 1] : Fin 2 → Fin 2)) (p : Fin A) (j : Fin n) :
    devArr dw v hr' hu hc h0 hb (ix2 p j) = v (ix2 p j) - mean (Ideal.ofBits .f32 dw) (fun k => v (ix2 p k)) := by
  unfold devArr
  show v (ix2 p j) - broadcastInDim ⟨2, ![A, n]⟩ ![0, 1] hb (meanCol dw v hr' hu hc h0) (ix2 p j) = _
  exact congrArg (v (ix2 p j) - ·) ((bcast_rows_apply hb _ p j).trans (meanCol_apply dw v hr' hr hu hc h0 p 0))

/-- The count n − ddof of jnp.var: the divisor word minus the integer 0, converted. -/
def cnt (dw : BitVec 32) : FVec Ideal ⟨0, ![]⟩ .f32 :=
  subf (constant ⟨0, ![]⟩ .f32 dw) (sitofp .f32 (constantI ⟨0, ![]⟩ 32 0#32))

/-- The count is the divisor word itself: the integer 0 converts to the real 0. -/
theorem cnt_eq (dw : BitVec 32) :
    Ideal.ofBits .f32 dw - (((0#32 : BitVec 32).toInt : ℝ) : EReal) = Ideal.ofBits .f32 dw := by
  simp

/-- The guard n − ddof > 0 holds when the divisor word is positive. -/
theorem guard_eq (dw : BitVec 32) (hd : (0 : EReal) < Ideal.ofBits .f32 dw) :
    Ideal.cmp .ogt (Ideal.ofBits .f32 dw - (((0#32 : BitVec 32).toInt : ℝ) : EReal)) (Ideal.ofBits .f32 0x00000000#32) = 1#1 := by
  rw [cnt_eq, Ideal.ofBits_zero_f32]
  show BitVec.ofBool (decide ((0 : EReal) < Ideal.ofBits .f32 dw)) = 1#1
  rw [decide_eq_true hd]
  rfl

/-- The row variances as a column, as jnp.var spells them: the mean of the squared deviations over n − ddof
    where n − ddof > 0, a NaN word elsewhere. -/
def varCol (dw : BitVec 32) (v : FVec Ideal ⟨2, ![A, n]⟩ .f32)
    (hr' : (⟨2, ![A, n]⟩ : Shape).ReducesTo [1] ⟨1, ![A]⟩) (hu : 0 < (⟨0, ![]⟩ : Shape).numel)
    (hc : (⟨1, ![A]⟩ : Shape).BroadcastsInDim ⟨2, ![A, 1]⟩ (![0] : Fin 1 → Fin 2))
    (h0 : (⟨0, ![]⟩ : Shape).BroadcastsInDim ⟨2, ![A, 1]⟩ (![] : Fin 0 → Fin 2))
    (hb : (⟨2, ![A, 1]⟩ : Shape).BroadcastsInDim ⟨2, ![A, n]⟩ (![0, 1] : Fin 2 → Fin 2)) : FVec Ideal ⟨2, ![A, 1]⟩ .f32 :=
  select (broadcastInDim ⟨2, ![A, 1]⟩ ![] h0
      (cmpf .ogt (cnt dw) (constant ⟨0, ![]⟩ .f32 0x00000000#32)))
    (Host.divf (broadcastInDim ⟨2, ![A, 1]⟩ ![0] hc
        (Host.reduceAdd (mulf (devArr dw v hr' hu hc h0 hb) (devArr dw v hr' hu hc h0 hb)) (constant ⟨0, ![]⟩ .f32 0x00000000#32) hr' hu))
      (broadcastInDim ⟨2, ![A, 1]⟩ ![] h0 (cnt dw)))
    (broadcastInDim ⟨2, ![A, 1]⟩ ![] h0 (id (constant ⟨0, ![]⟩ .f32 0x7FC00000#32)))

/-- With a positive divisor word the guard picks the quotient: the column of variances, at row p, is the mean over
    the word of the squared deviations of row p. -/
theorem varCol_apply (dw : BitVec 32) (hd : (0 : EReal) < Ideal.ofBits .f32 dw) (v : FVec Ideal ⟨2, ![A, n]⟩ .f32)
    (hr' : (⟨2, ![A, n]⟩ : Shape).ReducesTo [1] ⟨1, ![A]⟩) (hr : (⟨2, ![A, n]⟩ : Shape).Reduces [1] ⟨1, ![A]⟩)
    (hu : 0 < (⟨0, ![]⟩ : Shape).numel)
    (hc : (⟨1, ![A]⟩ : Shape).BroadcastsInDim ⟨2, ![A, 1]⟩ (![0] : Fin 1 → Fin 2))
    (h0 : (⟨0, ![]⟩ : Shape).BroadcastsInDim ⟨2, ![A, 1]⟩ (![] : Fin 0 → Fin 2))
    (hb : (⟨2, ![A, 1]⟩ : Shape).BroadcastsInDim ⟨2, ![A, n]⟩ (![0, 1] : Fin 2 → Fin 2)) (p : Fin A) (u : Fin 1) :
    varCol dw v hr' hu hc h0 hb (ix2 p u)
      = Ideal.div (∑ k, (v (ix2 p k) - mean (Ideal.ofBits .f32 dw) (fun k => v (ix2 p k)))
          * (v (ix2 p k) - mean (Ideal.ofBits .f32 dw) (fun k => v (ix2 p k)))) (Ideal.ofBits .f32 dw) := by
  unfold varCol
  -- the choice at (p, u): the guard's bit, the quotient, the NaN word
  show Scalar.select
      (Ideal.cmp .ogt (Ideal.ofBits .f32 dw - (((0#32 : BitVec 32).toInt : ℝ) : EReal)) (Ideal.ofBits .f32 0x00000000#32))
      (Ideal.div (broadcastInDim ⟨2, ![A, 1]⟩ ![0] hc
          (Host.reduceAdd (mulf (devArr dw v hr' hu hc h0 hb) (devArr dw v hr' hu hc h0 hb)) (constant ⟨0, ![]⟩ .f32 0x00000000#32) hr' hu) (ix2 p u))
        (Ideal.ofBits .f32 dw - (((0#32 : BitVec 32).toInt : ℝ) : EReal)))
      (Ideal.ofBits .f32 0x7FC00000#32) = _
  rw [guard_eq dw hd, select_one, cnt_eq]
  refine congrArg (fun z => Ideal.div z (Ideal.ofBits .f32 dw)) ?_
  refine (bcast_col_apply hc _ p u).trans ((Cert.RowLayer.hostRowSum_apply _ _ hr' hr hu p).trans ?_)
  show Ideal.ofBits .f32 0x00000000#32 + _ = _
  rw [Ideal.ofBits_zero_f32, zero_add]
  refine Finset.sum_congr rfl fun k _ => ?_
  show devArr dw v hr' hu hc h0 hb (ix2 p k) * devArr dw v hr' hu hc h0 hb (ix2 p k) = _
  rw [devArr_apply dw v hr' hr hu hc h0 hb p k]

/-- The two-pass normalisation of every row: the deviations over the square root of the variance plus ε, the root
    computed as a column and spread back along the rows. -/
def lnArr (dw : BitVec 32) (v : FVec Ideal ⟨2, ![A, n]⟩ .f32)
    (hr' : (⟨2, ![A, n]⟩ : Shape).ReducesTo [1] ⟨1, ![A]⟩) (hu : 0 < (⟨0, ![]⟩ : Shape).numel)
    (hc : (⟨1, ![A]⟩ : Shape).BroadcastsInDim ⟨2, ![A, 1]⟩ (![0] : Fin 1 → Fin 2))
    (h0 : (⟨0, ![]⟩ : Shape).BroadcastsInDim ⟨2, ![A, 1]⟩ (![] : Fin 0 → Fin 2))
    (hb : (⟨2, ![A, 1]⟩ : Shape).BroadcastsInDim ⟨2, ![A, n]⟩ (![0, 1] : Fin 2 → Fin 2)) : FVec Ideal ⟨2, ![A, n]⟩ .f32 :=
  Host.divf (devArr dw v hr' hu hc h0 hb)
    (broadcastInDim ⟨2, ![A, n]⟩ ![0, 1] hb
      (Host.sqrt (addf (varCol dw v hr' hu hc h0 hb) (broadcastInDim ⟨2, ![A, 1]⟩ ![] h0 (constant ⟨0, ![]⟩ .f32 0x3727C5AC#32)))))

/-- Entry (p, j) of the normalised array is the two-pass normalisation of entry j of row p. -/
theorem lnArr_apply (dw : BitVec 32) (hd : (0 : EReal) < Ideal.ofBits .f32 dw) (v : FVec Ideal ⟨2, ![A, n]⟩ .f32)
    (hr' : (⟨2, ![A, n]⟩ : Shape).ReducesTo [1] ⟨1, ![A]⟩) (hr : (⟨2, ![A, n]⟩ : Shape).Reduces [1] ⟨1, ![A]⟩)
    (hu : 0 < (⟨0, ![]⟩ : Shape).numel)
    (hc : (⟨1, ![A]⟩ : Shape).BroadcastsInDim ⟨2, ![A, 1]⟩ (![0] : Fin 1 → Fin 2))
    (h0 : (⟨0, ![]⟩ : Shape).BroadcastsInDim ⟨2, ![A, 1]⟩ (![] : Fin 0 → Fin 2))
    (hb : (⟨2, ![A, 1]⟩ : Shape).BroadcastsInDim ⟨2, ![A, n]⟩ (![0, 1] : Fin 2 → Fin 2)) (p : Fin A) (j : Fin n) :
    lnArr dw v hr' hu hc h0 hb (ix2 p j) = lnR (Ideal.ofBits .f32 dw) (fun k => v (ix2 p k)) j := by
  unfold lnArr lnR
  show Ideal.div (devArr dw v hr' hu hc h0 hb (ix2 p j))
      (broadcastInDim ⟨2, ![A, n]⟩ ![0, 1] hb
        (Host.sqrt (addf (varCol dw v hr' hu hc h0 hb) (broadcastInDim ⟨2, ![A, 1]⟩ ![] h0 (constant ⟨0, ![]⟩ .f32 0x3727C5AC#32)))) (ix2 p j)) = _
  rw [devArr_apply dw v hr' hr hu hc h0 hb p j, bcast_rows_apply hb _ p j]
  -- the root at row p: the square root of the variance of row p plus the word ε
  show Ideal.div _ (Ideal.sqrt (varCol dw v hr' hu hc h0 hb (ix2 p (0 : Fin 1)) + epsW)) = _
  rw [varCol_apply dw hd v hr' hr hu hc h0 hb p 0]

end Rows

/-! ## The two instances: rows of 1024 and of 512 entries -/

/-- The word 1024.0 is a positive real. -/
theorem n1024_pos : (0 : EReal) < n1024 := by
  rw [n1024_eq]; exact EReal.coe_pos.mpr (by norm_num)

/-- The word 512.0 is a positive real. -/
theorem n512_pos : (0 : EReal) < n512 := by
  rw [n512_eq]; exact EReal.coe_pos.mpr (by norm_num)

/-- The reference's normalisation of 1024-entry rows, at (P, j): the two-pass normalisation of row P. -/
theorem ln1024_apply (v : FVec Ideal S16384x1024 .f32) (P : Fin 16384) (j : Fin 1024) :
    ln1024 v (ix2 P j) = lnR n1024 (fun k => v (ix2 P k)) j :=
  lnArr_apply 0x44800000#32 n1024_pos v reducesTo_S16384x1024_S16384_d1 (by decide) h_S_ bcast_S16384_S16384x1_0
    bcast_S_S16384x1 bcast_S16384x1_S16384x1024_0_1 P j

/-- The reference's normalisation of 512-entry rows, at (P, j): the two-pass normalisation of row P. -/
theorem ln512_apply (v : FVec Ideal S16384x512 .f32) (P : Fin 16384) (j : Fin 512) :
    ln512 v (ix2 P j) = lnR n512 (fun k => v (ix2 P k)) j :=
  lnArr_apply 0x44000000#32 n512_pos v reducesTo_S16384x512_S16384_d1 (by decide) h_S_ bcast_S16384_S16384x1_0
    bcast_S_S16384x1 bcast_S16384x1_S16384x512_0_1 P j

/-! ## The logistic function, the gates, the combination -/

/-- 1 / (1 + exp (−a)) with the word 1.0 for both ones is the ideal logistic function, entry by entry. -/
theorem sig1024_apply (a : FVec Ideal S16384x1024 .f32) (i : S16384x1024.Idx) :
    sig1024 a i = Ideal.logistic (a i) := by
  unfold sig1024
  show Ideal.div oneW (oneW + Ideal.exp (-(a i))) = _
  rw [oneW_eq]
  rfl

/-- Gate column j of row P: the logistic of the two normalised gate parts of row P, added. -/
theorem gates_apply (xt ht : FVec Ideal S16384x1536 .f32) (P : Fin 16384) (j : Fin 1024) :
    gates xt ht (ix2 P j)
      = Ideal.logistic (lnR n1024 (gatePart fun c => xt (ix2 P c)) j + lnR n1024 (gatePart fun c => ht (ix2 P c)) j) := by
  -- a row of the slice of the first 1024 columns is the gate part of the row
  have hrow : ∀ y : FVec Ideal S16384x1536 .f32,
      (fun k => extractStridedSlice S16384x1024 ![0, 0] y slices_S16384x1536_S16384x1024_0_0 (ix2 P k))
        = gatePart fun c => y (ix2 P c) := fun y =>
    funext fun k => slice2_axis1_apply 0 y slices_S16384x1536_S16384x1024_0_0 P k ⟨k.val, by omega⟩ (Nat.zero_add _).symm
  unfold gates
  rw [sig1024_apply]
  show Ideal.logistic (ln1024 (F := Ideal) _ (ix2 P j) + ln1024 (F := Ideal) _ (ix2 P j)) = _
  rw [ln1024_apply, ln1024_apply, hrow xt, hrow ht]

/-- Entry (P, q) of the combination is the cell of row P: the update gate is gate column 512 + q, the reset gate is
    gate column q, the candidate parts are columns 1024 + q of the two affine rows. -/
theorem combine_apply (xt ht : FVec Ideal S16384x1536 .f32) (hx : FVec Ideal S16384x512 .f32) (P : Fin 16384) (q : Fin 512) :
    combine xt ht hx (ix2 P q)
      = cell (lnR n1024) (lnR n512) (fun c => xt (ix2 P c)) (fun c => ht (ix2 P c)) (fun k => hx (ix2 P k)) q := by
  -- the update gate
  have hz : extractStridedSlice S16384x512 ![0, 512] (gates xt ht) slices_S16384x1024_S16384x512_0_512 (ix2 P q)
      = Ideal.logistic (lnR n1024 (gatePart fun c => xt (ix2 P c)) ⟨512 + q.val, by omega⟩
          + lnR n1024 (gatePart fun c => ht (ix2 P c)) ⟨512 + q.val, by omega⟩) :=
    (slice2_axis1_apply 512 (gates xt ht) slices_S16384x1024_S16384x512_0_512 P q ⟨512 + q.val, by omega⟩ rfl).trans
      (gates_apply xt ht P _)
  -- the reset gate
  have hr : extractStridedSlice S16384x512 ![0, 0] (gates xt ht) slices_S16384x1024_S16384x512_0_0 (ix2 P q)
      = Ideal.logistic (lnR n1024 (gatePart fun c => xt (ix2 P c)) ⟨q.val, by omega⟩
          + lnR n1024 (gatePart fun c => ht (ix2 P c)) ⟨q.val, by omega⟩) :=
    (slice2_axis1_apply 0 (gates xt ht) slices_S16384x1024_S16384x512_0_0 P q ⟨q.val, by omega⟩ (Nat.zero_add _).symm).trans
      (gates_apply xt ht P _)
  -- the normalised candidate part of an affine array
  have hn : ∀ y : FVec Ideal S16384x1536 .f32,
      ln512 (extractStridedSlice S16384x512 ![0, 1024] y slices_S16384x1536_S16384x512_0_1024) (ix2 P q)
        = lnR n512 (newPart fun c => y (ix2 P c)) q := fun y =>
    (ln512_apply _ P q).trans (congrArg (fun r => lnR n512 r q)
      (funext fun k => slice2_axis1_apply 1024 y slices_S16384x1536_S16384x512_0_1024 P k ⟨1024 + k.val, by omega⟩ rfl))
  unfold combine cell
  show extractStridedSlice S16384x512 ![0, 512] (gates xt ht) slices_S16384x1024_S16384x512_0_512 (ix2 P q) * hx (ix2 P q)
      + (oneW - extractStridedSlice S16384x512 ![0, 512] (gates xt ht) slices_S16384x1024_S16384x512_0_512 (ix2 P q))
        * Ideal.tanh (ln512 (extractStridedSlice S16384x512 ![0, 1024] xt slices_S16384x1536_S16384x512_0_1024) (ix2 P q)
            + extractStridedSlice S16384x512 ![0, 0] (gates xt ht) slices_S16384x1024_S16384x512_0_0 (ix2 P q)
              * ln512 (extractStridedSlice S16384x512 ![0, 1024] ht slices_S16384x1536_S16384x512_0_1024) (ix2 P q)) = _
  rw [hz, hr, hn xt, hn ht]

/-! ## The whole result -/

/-- THE REFERENCE'S RESULT is the array of cells with the two-pass normalisation: entry (P, q) is entry q of the cell
    of batch row P. -/
theorem refOut_eq (x hx : FVec Ideal S16384x512 .f32) (Wi : FVec Ideal S1536x512 .f32) (bi : FVec Ideal S1536 .f32)
    (Wh : FVec Ideal S1536x512 .f32) (bh : FVec Ideal S1536 .f32) :
    refOut (F := Ideal) x hx Wi bi Wh bh = gruR x hx Wi bi Wh bh := by
  funext i
  obtain ⟨P, q, rfl⟩ : ∃ (P : Fin 16384) (q : Fin 512), i = ix2 P q := ⟨i 0, i 1, eq_ix2 i⟩
  -- row P of an affine array is the affine row of batch row P
  have hl : ∀ (y : FVec Ideal S16384x512 .f32) (W : FVec Ideal S1536x512 .f32) (b : FVec Ideal S1536 .f32),
      (fun c => RefSpec.lin y W b (ix2 P c)) = linRow y W b P := fun y W b => funext fun c => lin_apply y W b P c
  unfold refOut gruR
  rw [combine_apply, gruOut_apply, hl x Wi bi, hl hx Wh bh]

end Cert.ReferenceIdeal.RefValue

end
-- ==== Proof.PreReal.lean ====
/-
  "Every input is finite", read as "every entry is a real number".

  The precondition is a printed predicate. For each of the six argument arrays it compares, entry by entry, the
  absolute value |x| = max x (−x) with the word +∞ by a strict "less than"; it takes the conjunction of all the
  entries' bits (a reduction by "and" over every axis, starting from 1); and it conjoins the six results. The claim
  assumes that the final bit is 1.

  Reading it back runs the other way:

    * a conjunction that is 1 has both conjuncts 1, so each of the six reductions is 1;
    * a reduction by "and" over every axis that is 1 met a 1 at every entry;
    * an entry's bit being 1 says max x (−x) < +∞, and the word +∞ (exponent field all ones, fraction 0) is ⊤.

  On the extended reals max x (−x) < ⊤ excludes exactly x = ⊥ and x = ⊤ (at either of them max x (−x) = ⊤), so x is
  a real number. One lemma does this for one array of any shape; the theorem uses it six times.
-/
import proofs.«161558_j38414187495805_2_alg».proof.Defs
import proofs.«161558_j38414187495805_2_alg».proof.Proof.Gen.KernelIdeal
import proofs.«161558_j38414187495805_2_alg».proof.Proof.Gen.Pre_finite_inputs
import proofs.«161558_j38414187495805_2_alg».proof.Proof.LibRealSum
import Idealize.ShloMosaic.Lib.ReduceAll
import Idealize.ShloMosaic.Lib.ValueIdx

noncomputable section

namespace Cert.Proof.PreReal

open Idealize.ShloMosaic Idealize.SL.Sem Idealize.ShloMosaic.ValueIdx Cert.Lib.RealSum Cert.Pre_finite_inputs

/-- The scalar shape has exactly one index (the empty tuple of coordinates). -/
instance : Subsingleton S_.Idx := ⟨fun _ _ => funext fun d => d.elim0⟩

/-- The word with sign clear, exponent field all ones and fraction 0 denotes +∞. -/
theorem ofBits_inf : Ideal.ofBits .f32 0x7F800000#32 = ⊤ := by
  simp [Ideal.ofBits, Ideal.ieee]

/-- An extended real whose absolute value max x (−x) is strictly below ⊤ is a real number:
    at x = ⊥ the absolute value is max ⊥ ⊤ = ⊤, at x = ⊤ it is max ⊤ ⊥ = ⊤. -/
theorem isReal_of_abs_lt_top (x : EReal) (h : max x (-x) < ⊤) : IsReal x := by
  induction x using EReal.rec with
  | bot => simp at h
  | coe r => exact ⟨r, rfl⟩
  | top => simp at h

/-- The entry test of the predicate: if the bit of "|x| < +∞" is 1, then x is a real number. -/
theorem isReal_of_bit (x : EReal)
    (h : Ideal.cmp .olt (max x (-x)) (Ideal.ofBits .f32 0x7F800000#32) = 1#1) : IsReal x := by
  rw [ofBits_inf] at h
  refine isReal_of_abs_lt_top x ?_
  -- the bit is that of the decided proposition max x (−x) < ⊤; it is 1, so the proposition holds
  by_contra hn
  simp [Ideal.cmp, hn] at h

/-- ONE ARRAY. If the reduction by "and", over every axis, of the entry tests "|x i| < +∞" is 1, every entry of x
    is a real number. Stated for any shape, so that it applies to each of the six arrays as the predicate prints
    its test. -/
theorem real_of_all {s : Shape} {axes : List (Fin s.rank)}
    (hb : S_.BroadcastsInDim s (![] : Fin 0 → Fin s.rank)) (hr : s.ReducesTo axes S_) (hu : 0 < S_.numel)
    (x : FVec Ideal s .f32)
    (e : Host.reduce IntOp.andi
          (cmpf .olt (Host.absf x) (broadcastInDim s ![] hb (constant S_ .f32 0x7F800000#32)))
          (constantI S_ 1 1#1) hr hu ix0 = 1#1)
    (i : s.Idx) : IsReal (x i) :=
  -- the reduction met a 1 at index i, and that 1 is the bit of "|x i| < +∞"
  isReal_of_bit (x i) (Host.reduce_andi_all _ _ hr hu ix0 e i)

/-- Under the precondition every entry of each of the six argument arrays is a real number. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.Lib.RealSum.IsReal (m ((c.tc : Thread Cert.KernelIdeal.nD Cert.KernelIdeal.τ).loc Cert.KernelIdeal.main_arg0) i))
    ∧ (∀ i, Cert.Lib.RealSum.IsReal (m ((c.tc : Thread Cert.KernelIdeal.nD Cert.KernelIdeal.τ).loc Cert.KernelIdeal.main_arg1) i))
    ∧ (∀ i, Cert.Lib.RealSum.IsReal (m ((c.tc : Thread Cert.KernelIdeal.nD Cert.KernelIdeal.τ).loc Cert.KernelIdeal.main_arg2) i))
    ∧ (∀ i, Cert.Lib.RealSum.IsReal (m ((c.tc : Thread Cert.KernelIdeal.nD Cert.KernelIdeal.τ).loc Cert.KernelIdeal.main_arg3) i))
    ∧ (∀ i, Cert.Lib.RealSum.IsReal (m ((c.tc : Thread Cert.KernelIdeal.nD Cert.KernelIdeal.τ).loc Cert.KernelIdeal.main_arg4) i))
    ∧ (∀ i, Cert.Lib.RealSum.IsReal (m ((c.tc : Thread Cert.KernelIdeal.nD Cert.KernelIdeal.τ).loc Cert.KernelIdeal.main_arg5) i)) := by
  -- the predicate's one result bit, on this device, is 1
  have h0 := congrFun (h c) ix0
  -- put the printed chain in view: five nested conjunctions of six reductions
  dsimp only [Cert.Pre_finite_inputs.fn, Cert.Pre_finite_inputs.fn_part1] at h0
  -- a conjunction that is 1 has both conjuncts 1: peel the six reductions off, last first
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  -- each reduction that is 1 makes its array real, entry by entry
  exact ⟨real_of_all _ _ _ _ e0, real_of_all _ _ _ _ e1, real_of_all _ _ _ _ e2, real_of_all _ _ _ _ e3,
    real_of_all _ _ _ _ e4, real_of_all _ _ _ _ e5⟩

end Cert.Proof.PreReal

end
-- ==== Proof.lean ====
/-
  The certificate of a LayerNorm-gated GRU cell: a fused tiled unit (256 batch rows per grid point, both affine maps on the
  matrix unit, the normalisations in ONE pass over each row) against a plain array program (the normalisations in TWO
  passes: mean, then mean of squared deviations).

  At the extended reals both programs compute, for every batch row `P` and column `q`,

      z · h + (1 − z) · tanh (LN (x_new) + r · LN (h_new)),     r, z = logistic (LN (x_gates) + LN (h_gates)),

  where `x·W_iᵀ + b_i` and `h·W_hᵀ + b_h` are rows of 1536 entries, the gates' pre-activations their first 1024 entries
  (normalised over those 1024 together) and the candidate's their last 512 (normalised over those 512). The two differ
  only in the normalisation: `(v − μ) · rsqrt (E[v²] − μ² + ε)` against `(v − μ) / sqrt (E[(v − μ)²] + ε)`. On real entries
  `E[(v − μ)²] = E[v²] − μ²` and the two are one real number; at an infinite entry the identity fails (`∞ − ∞`), so the
  precondition "every input is finite" is used: it makes every entry of both affine rows a real number.

  The pieces: the tiled unit's run ends with the result array at the cell of every row with the one-pass normalisation
  (`Cert.KernelIdeal.Hand.run`); the array program's run ends at its own result term (`Cert.ReferenceIdeal.RefRun.run`),
  which read index by index is the cell with the two-pass normalisation (`Cert.ReferenceIdeal.RefValue.refOut_eq`); the
  two cells agree on real affine rows (`Cert.Gru.cellK_eq_cellR`). The tiled unit's idealization rewrote nothing.
-/
import proofs.«161558_j38414187495805_2_alg».proof.Defs
import proofs.«161558_j38414187495805_2_alg».proof.Proof.Gen.Kernel.Frame
import proofs.«161558_j38414187495805_2_alg».proof.Proof.Gen.Pre_finite_inputs
import proofs.«161558_j38414187495805_2_alg».proof.Proof.KernelValue
import proofs.«161558_j38414187495805_2_alg».proof.Proof.RefRun
import proofs.«161558_j38414187495805_2_alg».proof.Proof.RefValue
import proofs.«161558_j38414187495805_2_alg».proof.Proof.PreReal
import proofs.«161558_j38414187495805_2_alg».proof.Proof.GruLaw
import Idealize.ShloMosaic.Adequacy
import Idealize.ShloMosaic.Init

noncomputable section

namespace Cert.Proof

open Idealize.ShloMosaic Idealize.ShloMosaic.TcCoe Idealize.SL.Sem Idealize.ShloMosaic.ValueIdx Cert.Gru Cert.Lib.RealSum

/-- The word-level tiled unit runs and leaves its arguments alone. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The array program runs and leaves its arguments alone: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- On arrays of real entries the two result arrays are one: row by row the affine rows are real, and on real affine
    rows the one-pass and the two-pass cell agree. -/
theorem gruR_eq_gruK (X H : (⟨2, ![16384, 512]⟩ : Shape).Idx → EReal) (Wi : (⟨2, ![1536, 512]⟩ : Shape).Idx → EReal)
    (bi : (⟨1, ![1536]⟩ : Shape).Idx → EReal) (Wh : (⟨2, ![1536, 512]⟩ : Shape).Idx → EReal)
    (bh : (⟨1, ![1536]⟩ : Shape).Idx → EReal)
    (hX : ∀ i, IsReal (X i)) (hH : ∀ i, IsReal (H i)) (hWi : ∀ i, IsReal (Wi i)) (hbi : ∀ i, IsReal (bi i))
    (hWh : ∀ i, IsReal (Wh i)) (hbh : ∀ i, IsReal (bh i)) :
    gruR X H Wi bi Wh bh = gruK X H Wi bi Wh bh := by
  funext i
  obtain ⟨P, q, rfl⟩ : ∃ (P : Fin 16384) (q : Fin 512), i = ix2 P q := ⟨i 0, i 1, eq_ix2 i⟩
  unfold gruR gruK
  rw [gruOut_apply, gruOut_apply]
  exact (cellK_eq_cellR _ _
    (fun j => isReal_lin _ _ _ (fun k => hX _) (fun j k => hWi _) (fun j => hbi _) j)
    (fun j => isReal_lin _ _ _ (fun k => hH _) (fun j k => hWh _) (fun j => hbh _) j) _ q).symm

/-- From memories that agree on finite arguments, both programs end with the same result array. -/
theorem algebraic : Cert.algebraic_KernelIdeal_ReferenceIdeal := by
  intro m ρ m' ρ' hpre hagree
  refine ⟨fun c => Cert.KernelIdeal.Hand.G m c, Cert.KernelIdeal.Hand.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5⟩ := Cert.Proof.PreReal.real_of_pre m hpre c
  rw [(hagree c).1, (hagree c).2.1, (hagree c).2.2.1, (hagree c).2.2.2.1, (hagree c).2.2.2.2.1, (hagree c).2.2.2.2.2]
  rw [Cert.ReferenceIdeal.RefValue.refOut_eq]
  exact gruR_eq_gruK _ _ _ _ _ _ h0 h1 h2 h3 h4 h5

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
